-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S50000 32) (main_arg3 : FVec F S256x64 .f32) (main_arg4 : FVec F S64 .f32) (main_arg5 : FVec F S64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S1x64 : Shape := ⟨2, ![1, 64]⟩
abbrev S50000x64 : Shape := ⟨2, ![50000, 64]⟩
abbrev S5000x256 : Shape := ⟨2, ![5000, 256]⟩
abbrev S5000x64 : Shape := ⟨2, ![5000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S20000x64 : Shape := ⟨2, ![20000, 64]⟩

abbrev nBuf : Space → Nat
  | .hbm => 60
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S800000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S20000x64, .f32⟩
  | .local _ .vmem, ⟨7, _⟩ => ⟨S20000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S1x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v20 : BitVec 1 := Scalar.cmpi .eq arg0 c39_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  reduces_S20000x64_S64 : S20000x64.Reduces [0] S64
  bcast_S_S1x64 : S_.BroadcastsInDim S1x64 (![] : Fin 0 → Fin S1x64.rank)
  shapeCasts_S1x64_S64 : S1x64.ShapeCasts S64
  broadcasts_S1x64_S20000x64 : S1x64.Broadcasts S20000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S800000x64.size a
  hwx1_0 : ∀ i : grid1.Coords, EltTy.bits .f32 = 32 ∨ (Rect.block (s := S800000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S800000x64.size a
  hwx2_0 : ∀ i : grid2.Coords, EltTy.bits .f32 = 32 ∨ (Rect.block (s := S800000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S800000x64.size a
  hwx2_3 : ∀ i : grid2.Coords, EltTy.bits .f32 = 32 ∨ (Rect.block (s := S800000x64) S20000x64.size (cc2_transform_3 i) (hinb2_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v22) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S50000x64 : Shape := ⟨2, ![50000, 64]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .f32⟩
  | .hbm, ⟨12, _⟩ => ⟨S50000x64, .f32⟩
  | .hbm, ⟨13, _⟩ => ⟨S50000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S800000x64, .f32⟩
  | .hbm, ⟨63, _⟩ => ⟨S800000x64, .f32⟩
  | .hbm, ⟨64, _⟩ => ⟨S1x64, .f32⟩
  | .hbm, ⟨65, _⟩ => ⟨S800000x64, .f32⟩
  | .hbm, ⟨66, _⟩ => ⟨S800000x64, .f32⟩
  | .hbm, ⟨67, _⟩ => ⟨S1x64, .f32⟩
  | .hbm, ⟨68, _⟩ => ⟨S800000x64, .f32⟩
  | .hbm, ⟨69, _⟩ => ⟨S800000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  reducesTo_S800000x64_S64_d0 : S800000x64.ReducesTo [0] S64
  h_S_ : 0 < S_.numel
  bcast_S_S64 : S_.BroadcastsInDim S64 (![] : Fin 0 → Fin S64.rank)
  bcast_S1x64_S800000x64_0_1 : S1x64.BroadcastsInDim S800000x64 (![0, 1] : Fin 2 → Fin S800000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.K.Region0.lean ====
/-
  The first region of the kernel program: ten row blocks of 5000 nodes, each mapped affinely to 64 features
  (a block of `x` against the whole of `W`, plus the bias row) and cut off below at zero.

  Stated at the contents `V` the TensorCore's buffers hold when the region is entered, and at any float
  instance: the block each window stages at a grid point, the output block the body stores as a pure function
  of the three input blocks, the body's triple, the pipeline's proof data and its body obligation. At the
  extended reals the stored block is read index by index: entry `(r, j)` is the positive part of row `r` of
  the `x` block against column `j` of `W`, plus `b j`.
-/
import proofs.«127521_j53730040873189_2_alg».proof.Proof.Gen.Kernel.Launch
import proofs.«127521_j53730040873189_2_alg».proof.Proof.Gen.Kernel.Skeleton
import proofs.«127521_j53730040873189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

-- the rectangles of 5000 rows need a deeper structural recursion than the default
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows (or the whole) of its array, as the region finds the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's current staging buffer holds its row block at every point, for any proof data over the
    region-entry arrays whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The `W` window is fetched once; its block index never moves, so its buffer holds the whole of `W` at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the bias row. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rectX : Rect S5000x256 := Rect.unit (s := S5000x256) ![0, 0] S5000x256.size inb_S5000x256_S5000x256_0_0
abbrev rectW : Rect S256x64 := Rect.unit (s := S256x64) ![0, 0] S256x64.size inb_S256x64_S256x64_0_0
abbrev rectB : Rect S1x64 := Rect.unit (s := S1x64) ![0, 0] S1x64.size inb_S1x64_S1x64_0_0
abbrev rectH : Rect S5000x64 := Rect.unit (s := S5000x64) ![0, 0] S5000x64.size inb_S5000x64_S5000x64_0_0

/-! ## What the body leaves in the output window's buffer -/

/-- The output buffer after the body, from the three input blocks: its one store, of the whole block. -/
def out_3 (x0 : Vec F S5000x256 .f32) (x1 : Vec F S256x64 .f32) (x2 : Vec F S1x64 .f32) : Vec F S5000x64 .f32 :=
  View.canon [⟨rectH, k0_pay1 (View.ld x0 rectX) (View.ld x1 rectW) (View.ld x2 rectB)⟩]

/-- The one store covers the buffer. -/
theorem cover_3 (p0 : Vec F S5000x64 .f32) (y : S5000x64.Idx) :
    ∃ pc ∈ ([⟨rectH, p0⟩] : List (View.Piece (Elt F) S5000x64 .f32)), y ∈ pc.1.set :=
  View.cover_of_tiled [⟨rectH, p0⟩] S5000x64.size (by rfl) y

/-! ## The body's triple -/

set_option maxHeartbeats 1000000 in
/-- The body on whole staging memrefs — the three inputs' at contents `x0 x1 x2`, the output's at anything — runs to
    the continuation holding the inputs' as they were and the output's at `out_3 x0 x1 x2`. -/
theorem sound_kernel (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

/-! ## The pipeline's proof data -/

/-- The proof data of this pipeline on core `c`: the arrays as the region finds them; after the body at point `t`
    each input's buffer at its block and the output's at `out_3` of the three input blocks; the invariant that
    leaves the scoped rest and the generator register untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out_3 (iblk V c 0 t) (iblk V c 1 t) (iblk V c 2 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The stored block is the body's payload; its entries at the extended reals -/

section Entries

open Idealize.ShloMosaic.ValueIdx
open scoped BigOperators

theorem offsets_zero : (![0, 0] : Fin 2 → Nat) = fun _ => 0 := funext fun a => by fin_cases a <;> rfl

/-- Every access is of a whole buffer at offset zero, so the stored block is the payload of the three input blocks. -/
theorem out_3_eq_payload (x0 : Vec F S5000x256 .f32) (x1 : Vec F S256x64 .f32) (x2 : Vec F S1x64 .f32) :
    out_3 x0 x1 x2 = k0_pay1 x0 x1 x2 := by
  unfold out_3
  rw [View.canon_unit_zero offsets_zero, View.ld_unit_zero offsets_zero, View.ld_unit_zero offsets_zero, View.ld_unit_zero offsets_zero]

/-- The contraction of the block product: one axis of length 256. -/
abbrev prodDims : DotDims S5000x256 S256x64 S5000x64 := dot_S5000x256_S256x64_S5000x64_1_0_0_1_n_n

/-- The left operand's index under the contraction: the output's row, -/
theorem lhs_row (i : S5000x64.Idx) (q : prodDims.contr.Idx) : (prodDims.lhsIdx i q 0).val = (i 0).val := by
  unfold DotDims.lhsIdx
  rw [dif_neg (show ¬(0 : Fin S5000x256.rank) ∈ prodDims.lhsBatch by decide), dif_pos (show (0 : Fin S5000x256.rank) ∈ prodDims.lhsNonContracting by decide)]
  rfl
/-- and the contraction coordinate. -/
theorem lhs_contr (i : S5000x64.Idx) (q : prodDims.contr.Idx) : (prodDims.lhsIdx i q 1).val = (q ⟨0, by decide⟩).val :=
  prodDims.lhsIdx_val_of_single rfl i q
/-- The right operand's index: the contraction coordinate, -/
theorem rhs_contr (i : S5000x64.Idx) (q : prodDims.contr.Idx) : (prodDims.rhsIdx i q 0).val = (q ⟨0, by decide⟩).val :=
  prodDims.rhsIdx_val_of_single rfl i q
/-- and the output's column. -/
theorem rhs_col (i : S5000x64.Idx) (q : prodDims.contr.Idx) : (prodDims.rhsIdx i q 1).val = (i 1).val := by
  unfold DotDims.rhsIdx
  rw [dif_neg (show ¬(1 : Fin S256x64.rank) ∈ prodDims.rhsBatch by decide), dif_pos (show (1 : Fin S256x64.rank) ∈ prodDims.rhsNonContracting by decide)]
  rfl

/-- The block product into a zero accumulator, at an entry: row `r` of the left block against column `j` of the right. -/
theorem prod_apply (x0 : FVec Ideal S5000x256 .bf16) (w0 : FVec Ideal S256x64 .bf16) (r : Fin 5000) (j : Fin 64) :
    (matmul prodDims none x0 w0 (constant S5000x64 .f32 0x00000000#32) : FVec Ideal S5000x64 .f32) (ix2 r j)
      = ∑ k : Fin 256, x0 (ix2 r k) * w0 (ix2 k j) := by
  refine (Ideal.matmul_constant_zero_apply prodDims none x0 w0 (ix2 r j)).trans ?_
  rw [← Equiv.sum_comp (contrEquiv1 prodDims 256 rfl rfl).symm]
  refine Finset.sum_congr rfl fun k _ => ?_
  have hk := contrEquiv1_symm_val prodDims 256 rfl rfl k
  have el : prodDims.lhsIdx (ix2 r j) ((contrEquiv1 prodDims 256 rfl rfl).symm k) = ix2 r k := funext fun a => Fin.ext (by
    match a with
    | ⟨0, _⟩ => exact lhs_row _ _
    | ⟨1, _⟩ => exact (lhs_contr _ _).trans hk)
  have er : prodDims.rhsIdx (ix2 r j) ((contrEquiv1 prodDims 256 rfl rfl).symm k) = ix2 k j := funext fun a => Fin.ext (by
    match a with
    | ⟨0, _⟩ => exact (rhs_contr _ _).trans hk
    | ⟨1, _⟩ => exact rhs_col _ _)
  rw [el, er]

/-- Entry `(r, j)` of the stored block: the positive part of row `r` of the `x` block against column `j` of `W`, plus `b j`. -/
theorem out_3_apply (x0 : Vec Ideal S5000x256 .f32) (w0 : Vec Ideal S256x64 .f32) (b0 : Vec Ideal S1x64 .f32) (r : Fin 5000) (j : Fin 64) :
    out_3 (F := Ideal) x0 w0 b0 (ix2 r j) = max ((∑ k : Fin 256, x0 (ix2 r k) * w0 (ix2 k j)) + b0 (ix2 0 j)) 0 := by
  rw [out_3_eq_payload]
  unfold k0_pay1
  rw [maximumf_apply, addf_apply, broadcast_apply]
  have hprod := prod_apply (truncf .bf16 x0 bitsLt_bf16_f32) (truncf .bf16 w0 bitsLt_bf16_f32) r j
  simp only [truncf_apply] at hprod
  have hbias : broadcastTo S5000x64 (shapeCast S1x64 b0 shapeCasts_S1x64_S1x64) broadcasts_S1x64_S5000x64 (ix2 r j) = b0 (ix2 0 j) := by
    rw [shapeCast_self]
    exact broadcastTo_1b_ab_apply b0 broadcasts_S1x64_S5000x64 r j
  have hzero : (FloatOps.ofBits .f32 0x00000000#32 : Ideal .f32) = 0 := Ideal.ofBits_zero_f32
  refine (congrArg₂ max (congrArg₂ (· + ·) hprod hbias) hzero)

/-- The same at any index of the block. -/
theorem out_3_apply_idx (x0 : Vec Ideal S5000x256 .f32) (w0 : Vec Ideal S256x64 .f32) (b0 : Vec Ideal S1x64 .f32) (i : S5000x64.Idx) :
    out_3 (F := Ideal) x0 w0 b0 i
      = max ((∑ k : Fin 256, x0 (ix2 (⟨(i 0).val, (i 0).isLt⟩ : Fin 5000) k) * w0 (ix2 k (⟨(i 1).val, (i 1).isLt⟩ : Fin 64)))
          + b0 (ix2 0 (⟨(i 1).val, (i 1).isLt⟩ : Fin 64))) 0 := by
  obtain ⟨p, q, rfl⟩ : ∃ (p : Fin 5000) (q : Fin 64), i = ix2 p q := ⟨i 0, i 1, eq_ix2 i⟩
  exact out_3_apply x0 w0 b0 p q

end Entries

end Cert.Kernel.Reg0

end
-- ==== Proof.K.Region1.lean ====
/-
  The statistics kernel as one region of the program: a sequential grid of 40 points, each adding the column
  sums of one block of 20000 rows, and of the block's squares, into two accumulators that live beside the
  windows and are carried from point to point. The first point zeroes both accumulators before adding; the
  last point copies them into the two output blocks, which are written back only there.

  What is tracked: after `n` points the accumulators hold `acc n`, defined by recursion on `n` — the zero
  block, then one `add` of a block's column sums per point, in point order. The region invariant before
  point `n > 0` holds both accumulators at `acc n`; before the first point it asks nothing of them, since
  the body overwrites them before reading. Over the extended reals the recursion unrolls to the double sum
  over blocks and rows (the last section).
-/
import proofs.«127521_j53730040873189_2_alg».proof.Proof.Gen.Kernel.Launch
import proofs.«127521_j53730040873189_2_alg».proof.Proof.Gen.Kernel.Skeleton
import proofs.«127521_j53730040873189_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, over the point -/

theorem hz : (![0, 0] : Fin 2 → Nat) = fun _ => 0 := funext fun a => by fin_cases a <;> rfl

/-- The condition of the first conditional (reset the accumulators), from the grid coordinate. -/
abbrev condFirst (i : grid1.Coords) : Prop :=
  (Scalar.cmpi .ne (Scalar.extui (Scalar.cmpi .eq (BitVec.ofNat 32 (i 0).val) 0#32)) 0#32) = 1#1
/-- The condition of the second conditional (copy the accumulators out). -/
abbrev condLast (i : grid1.Coords) : Prop := k1_cond2 i = 1#1

/-- The first holds at point 0 only, -/
theorem condFirst_iff : ∀ t : Fin cfg1.N, condFirst (grid1.coords t) ↔ t.val = 0 :=
  (by decide +kernel : ∀ t : Fin grid1.N, condFirst (grid1.coords t) ↔ t.val = 0)
/-- the second at point 39 only. -/
theorem condLast_iff : ∀ t : Fin cfg1.N, condLast (grid1.coords t) ↔ t.val = 39 :=
  (by decide +kernel : ∀ t : Fin grid1.N, condLast (grid1.coords t) ↔ t.val = 39)

/-- The input window is live at every point. -/
theorem live_in : ∀ t : Fin cfg1.N, cfg1.idle 0 (grid1.coords t) = false := by decide +kernel
/-- Away from the last point the two output windows are idle and not written back; at it they are live. -/
theorem idle_sum : ∀ t : Fin cfg1.N, ¬condLast (grid1.coords t) → cfg1.idle 1 (grid1.coords t) = true := by decide +kernel
theorem keep_sum : ∀ t : Fin cfg1.N, ¬condLast (grid1.coords t) → (cfg1.win 1).flush t = false := by decide +kernel
theorem live_sum : ∀ t : Fin cfg1.N, condLast (grid1.coords t) → cfg1.idle 1 (grid1.coords t) = false := by decide +kernel
theorem idle_sq : ∀ t : Fin cfg1.N, ¬condLast (grid1.coords t) → cfg1.idle 2 (grid1.coords t) = true := by decide +kernel
theorem keep_sq : ∀ t : Fin cfg1.N, ¬condLast (grid1.coords t) → (cfg1.win 2).flush t = false := by decide +kernel
theorem live_sq : ∀ t : Fin cfg1.N, condLast (grid1.coords t) → cfg1.idle 2 (grid1.coords t) = false := by decide +kernel

/-! ## The body on any whole memrefs, one triple per control case

`x0` is the block of rows, `xs0` / `xs1` what the accumulators hold on entry, `xi1` / `xi2` what the output
buffers hold where the body leaves them alone. One point adds the block's column sums to the first accumulator
(`k1_pay4 x0 xs0`) and the column sums of its squares to the second (`k1_pay5 x0 xs1`). -/

set_option maxHeartbeats 1000000 in
/-- A middle point: neither conditional taken. -/
theorem kernel_middle (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬condFirst i) (hc1 : ¬condLast i)
    (x0 : Vec F S20000x64 .f32) (xs0 xs1 xi1 xi2 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

set_option maxHeartbeats 1000000 in
/-- The first point: the accumulators, at anything, are zeroed (`k1_pay1`, `k1_pay2`) and then added to. -/
theorem kernel_first (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : condFirst i) (hc1 : ¬condLast i)
    (x0 : Vec F S20000x64 .f32) (xi1 xi2 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

set_option maxHeartbeats 1000000 in
/-- The last point: after the addition the accumulators are copied into the two output buffers. -/
theorem kernel_last (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬condFirst i) (hc1 : condLast i)
    (x0 : Vec F S20000x64 .f32) (xs0 xs1 : Vec F S1x64 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k1_pay4 x0 xs0) ∗ owns (c : Thread nD τ) arg3 fullShare (k1_pay5 x0 xs1)
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  subst hf0; subst hfs0; subst hfs1
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  isplitl [H2]
  · iexists _; isplitr
    swap; · iexact H2
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

section AtEntry
-- the TensorCore's buffer contents when the region is entered: the parameter everything below is stated at
variable (V : (c : Dev nD) → (b : Ref sig .tc) → Buf (Elt F) ((c : Thread nD τ).loc b))

/-! ## The windows' blocks and the accumulators after each point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the entry contents and whose body leaves the block in place. -/
theorem before_in_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- THE ACCUMULATION. What the two accumulators hold after `n` points: the zero blocks the first point stores, then,
    point by point, the column sums of that point's block added to the first and the column sums of its squares
    added to the second. -/
def acc (c : Dev nD) : (n : ℕ) → n ≤ cfg1.N → Vec F S1x64 .f32 × Vec F S1x64 .f32
  | 0, _ => (k1_pay1, k1_pay2)
  | n + 1, hn => (k1_pay4 (iblk V c 0 ⟨n, hn⟩) (acc c n (Nat.le_of_succ_le hn)).1,
                  k1_pay5 (iblk V c 0 ⟨n, hn⟩) (acc c n (Nat.le_of_succ_le hn)).2)

/-- The running column sums after `n` points, -/
abbrev scr0 (c : Dev nD) (n : ℕ) (h : n ≤ cfg1.N) : Vec F S1x64 .f32 := (acc V c n h).1
/-- and the running column sums of squares. -/
abbrev scr1 (c : Dev nD) (n : ℕ) (h : n ≤ cfg1.N) : Vec F S1x64 .f32 := (acc V c n h).2

theorem acc_fst (c : Dev nD) (t : Fin cfg1.N) :
    (acc V c (t.val + 1) t.isLt).1 = k1_pay4 (iblk V c 0 t) (acc V c t.val (Nat.le_of_lt t.isLt)).1 := rfl
theorem acc_snd (c : Dev nD) (t : Fin cfg1.N) :
    (acc V c (t.val + 1) t.isLt).2 = k1_pay5 (iblk V c 0 t) (acc V c t.val (Nat.le_of_lt t.isLt)).2 := rfl
theorem acc_zero_fst (c : Dev nD) (n : ℕ) (h : n ≤ cfg1.N) (hn : n = 0) : (acc V c n h).1 = k1_pay1 := by subst hn; rfl
theorem acc_zero_snd (c : Dev nD) (n : ℕ) (h : n ≤ cfg1.N) (hn : n = 0) : (acc V c n h).2 = k1_pay2 := by subst hn; rfl

/-! ## The region invariant -/

/-- The two accumulators: whole scoped buffers of the kernel's own, passed beside the windows. -/
abbrev scM0 : Memref sig .tc .vmem S1x64 .f32 := Memref.whole cc1_scratch0
abbrev scM1 : Memref sig .tc .vmem S1x64 .f32 := Memref.whole cc1_scratch1

/-- The core's other scoped buffers that this region stages nothing through (the other two regions' staging
    buffers), each whole at some contents, and the generator register at some state: untouched by the body. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ r, prngReg c r))

/-- The class's invariant — every scoped buffer that is no staging buffer of this region at some contents, and the
    generator register — with the two accumulators taken out in front. -/
theorem PhiA_eq (c : Dev nD) :
    (Pipeline.ΦA spec1 c : sProp 𝕄)
      = iprop((∃ d, owns (c : Thread nD τ) scM0 fullShare d) ∗ (∃ d, owns (c : Thread nD τ) scM1 fullShare d) ∗ others c) := by
  unfold Pipeline.ΦA others; rw [scopedRest1_eq]; simp only [scM0, scM1, owns_whole]
  refine BI.equiv_iff.mp ⟨?_, ?_⟩
  · show (_ : sProp 𝕄) ⊢ _
    iintro ⟨⟨A1, A2, A3, A4, A5, A6, S0, S1, B1, B2, B3, B4, B5, B6⟩, G⟩
    isplitl [S0]; · iexact S0
    isplitl [S1]; · iexact S1
    isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    isplitl [B6]; · iexact B6
    iexact G
  · show (_ : sProp 𝕄) ⊢ _
    iintro ⟨S0, S1, A1, A2, A3, A4, A5, A6, B1, B2, B3, B4, B5, B6, G⟩
    isplitr [G]
    swap; · iexact G
    isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [B1]; · iexact B1
    isplitl [B2]; · iexact B2
    isplitl [B3]; · iexact B3
    isplitl [B4]; · iexact B4
    isplitl [B5]; · iexact B5
    iexact B6

/-- The invariant before position `n`: before the first point the class's (the accumulators at anything: the body
    overwrites them before reading); afterwards the accumulators at `acc n` and the rest untouched. -/
def Phi (c : Dev nD) : (n : ℕ) → n ≤ cfg1.N → sProp 𝕄
  | 0, _ => Pipeline.ΦA spec1 c
  | n + 1, hn => iprop(owns (c : Thread nD τ) scM0 fullShare (acc V c (n + 1) hn).1
      ∗ owns (c : Thread nD τ) scM1 fullShare (acc V c (n + 1) hn).2 ∗ others c)

theorem Phi_zero (c : Dev nD) (n : ℕ) (h : n ≤ cfg1.N) (hn : n = 0) : Phi V c n h = Pipeline.ΦA spec1 c := by
  subst hn; rfl
theorem Phi_pos (c : Dev nD) (n : ℕ) (h : n ≤ cfg1.N) (hn : n ≠ 0) :
    Phi V c n h = iprop(owns (c : Thread nD τ) scM0 fullShare (acc V c n h).1
      ∗ owns (c : Thread nD τ) scM1 fullShare (acc V c n h).2 ∗ others c) := by
  cases n with
  | zero => exact absurd rfl hn
  | succ n => rfl

/-! ## The proof data -/

/-- The proof data of this pipeline on core `c`: the arrays as the region finds them; after the body at point `t`
    the input's buffer at its block and the two outputs' at the accumulators after that point (which the body
    copies there at the last point, the only one where the outputs are live); the invariant `Phi`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => (acc V c (t.val + 1) t.isLt).1
    | ⟨2, _⟩ => (acc V c (t.val + 1) t.isLt).2
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_in (c : Dev nD) (t : Fin cfg1.N) : (dat V c).after 0 t = iblk V c 0 t := by dsimp only [dat]
theorem after_sum (c : Dev nD) (t : Fin cfg1.N) : (dat V c).after 1 t = (acc V c (t.val + 1) t.isLt).1 := by dsimp only [dat]
theorem after_sq (c : Dev nD) (t : Fin cfg1.N) : (dat V c).after 2 t = (acc V c (t.val + 1) t.isLt).2 := by dsimp only [dat]
theorem before_in (c : Dev nD) (t : Fin cfg1.N) (d) : (dat V c).before 0 t d = iblk V c 0 t :=
  before_in_of V (dat V c) (A_eq V c 0) (after_in V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's memref holds its block; the closed forms of the two conditions say which of
    the three cases the point is in; the invariant hands the body the accumulators at what the point before left
    (at anything, at the first point) and takes them back at this point's; away from the last point the output
    buffers go back as they came, at the last point they hold the accumulators; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in]
  rw [show (dat V c).owesAt () t.succ = (dat V c).owesAt () t.castSucc from rfl]
  rw [show (dat V c).Φ t.succ = Phi V c (t.val + 1) t.isLt from rfl, Phi_pos V c _ _ (Nat.succ_ne_zero _)]
  rw [show (dat V c).leavesExact 0 t = owns (c : Thread nD τ) (st1_0 t) fullShare ((dat V c).after 0 t) from by
    unfold Dat.leavesExact; rw [live_in t], after_in]
  rw [Phi_castSucc]
  have hN : t.val < 40 := lt_of_lt_of_eq t.isLt (show cfg1.N = 40 from N_1)
  by_cases hl : t.val = 39
  · have hf : ¬t.val = 0 := by omega
    have hcf : ¬condFirst (grid1.coords t) := fun h => hf ((condFirst_iff t).mp h)
    have hcl : condLast (grid1.coords t) := (condLast_iff t).mpr hl
    rw [show (dat V c).leavesExact 1 t = owns (c : Thread nD τ) (st1_1 t) fullShare ((dat V c).after 1 t) from by
      unfold Dat.leavesExact; rw [live_sum t hcl], after_sum]
    rw [show (dat V c).leavesExact 2 t = owns (c : Thread nD τ) (st1_2 t) fullShare ((dat V c).after 2 t) from by
      unfold Dat.leavesExact; rw [live_sq t hcl], after_sq]
    rw [acc_fst, acc_snd, Phi_pos V c _ _ hf]
    iintro ⟨⟨HS0, HS1, Hr⟩, Ho, ⟨%d0, H0⟩, ⟨%d1, H1⟩, ⟨%d2, H2⟩⟩
    iapply (kernel_last c (grid1.coords t) _ _ _ _ _ _ _ _ _ _ hcf hcl (iblk V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    iexact H2
  · have hcl : ¬condLast (grid1.coords t) := fun h => hl ((condLast_iff t).mp h)
    rw [Dat.leavesExact_idle (dat V c) 1 t (idle_sum t hcl) (keep_sum t hcl),
      Dat.leavesExact_idle (dat V c) 2 t (idle_sq t hcl) (keep_sq t hcl)]
    rw [acc_fst, acc_snd]
    by_cases hf : t.val = 0
    · have hcf : condFirst (grid1.coords t) := (condFirst_iff t).mpr hf
      rw [Phi_zero V c _ _ hf, PhiA_eq c, acc_zero_fst V c _ _ hf, acc_zero_snd V c _ _ hf]
      iintro ⟨⟨HS0, HS1, Hr⟩, Ho, ⟨%d0, H0⟩, ⟨%d1, H1⟩, ⟨%d2, H2⟩⟩
      iapply (kernel_first c (grid1.coords t) _ _ _ _ _ _ _ _ _ _ hcf hcl (iblk V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexists _; iexact H1
      iexists _; iexact H2
    · have hcf : ¬condFirst (grid1.coords t) := fun h => hf ((condFirst_iff t).mp h)
      rw [Phi_pos V c _ _ hf]
      iintro ⟨⟨HS0, HS1, Hr⟩, Ho, ⟨%d0, H0⟩, ⟨%d1, H1⟩, ⟨%d2, H2⟩⟩
      iapply (kernel_middle c (grid1.coords t) _ _ _ _ _ _ _ _ _ _ hcf hcl (iblk V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## Into the invariant and out of it -/

/-- What the launch hands the region — the generator register and the scoped buffers no window stages, the
    accumulators among them at anything — is the invariant before the first point. -/
theorem phi_in (c : Dev nD) :
    iprop((∃ r, prngReg c r) ∗ Pipeline.scopedRest (Ix := Unit) (Name := ℕ) (U := UR sig nD τ) (Lvl := ℕ) (Val := Elt F) spec1 c)
      ⊢ (dat (F := F) V c).Φ 0 := by
  rw [show (dat V c).Φ 0 = Phi V c 0 (Nat.zero_le _) from rfl, Phi_zero V c 0 _ rfl]; unfold Pipeline.ΦA
  iintro ⟨Hg, Hs⟩
  isplitl [Hs]; · iexact Hs
  iexact Hg

/-- After any point the invariant gives the class's back: the accumulators' named contents are forgotten. -/
theorem Phi_forget (c : Dev nD) (t : Fin (cfg1.N + 1)) (ht : t.val ≠ 0) : (dat V c).Φ t ⊢ Pipeline.ΦA spec1 c := by
  rw [show (dat V c).Φ t = Phi V c t.val (Nat.le_of_lt_succ t.isLt) from rfl, Phi_pos V c _ _ ht, PhiA_eq c]
  iintro ⟨HS0, HS1, Hr⟩
  isplitl [HS0]; · iexists _; iexact HS0
  isplitl [HS1]; · iexists _; iexact HS1
  iexact Hr

/-- So after the last point the region returns what it was handed. -/
theorem phi_out (c : Dev nD) :
    (dat (F := F) V c).Φ (Fin.last _)
      ⊢ iprop((∃ r, prngReg c r) ∗ Pipeline.scopedRest (Ix := Unit) (Name := ℕ) (U := UR sig nD τ) (Lvl := ℕ) (Val := Elt F) spec1 c) := by
  have h := Phi_forget V c (Fin.last cfg1.N) (by rw [Fin.val_last]; have : cfg1.N = 40 := N_1; omega)
  unfold Pipeline.ΦA at h
  iintro H
  ihave H' := h $$ H
  icases H' with ⟨Hs, Hg⟩
  isplitl [Hg]; · iexact Hg
  iexact Hs

end AtEntry

end Cert.Kernel.Reg1

end
-- ==== Proof.K.Region2.lean ====
/-
  The third region of the kernel program (the normalising kernel, a grid of 40 points), at an arbitrary
  contents `V` of the TensorCore's buffers when the region is entered.

  At a grid point the body is handed four buffers: a block of 20000 rows of the edge array, the 1 x 64 row of
  scales, the 1 x 64 row of shifts, and the output block of 20000 rows. It reads the first three whole, stretches
  the two rows over the 20000 rows of the block, multiplies the block by the stretched scales entry by entry, adds
  the stretched shifts, and writes the result over the whole output block (the output block is also read once,
  and that value is used nowhere). So what the body leaves in the output block is a function of the three input
  blocks alone — `normBlock` below: entry `(r, j)` is `e (r, j) * scale (0, j) + shift (0, j)`
  (`normBlock_apply`, over the extended reals) —, and what it finds in each input buffer is that window's block
  of the array as the region found it, whether the pipeline has just fetched it or fetched it at an earlier point
  (the two rows are fetched once, at the first point).
-/
import proofs.«127521_j53730040873189_2_alg».proof.Proof.Gen.Kernel.Launch
import proofs.«127521_j53730040873189_2_alg».proof.Proof.Gen.Kernel.Skeleton
import proofs.«127521_j53730040873189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

-- membership in a rectangle of 20000 rows: the elaborator's structural look recurses once per coordinate
set_option maxRecDepth 65536

noncomputable section

namespace Cert.Kernel.Reg2

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block's current staging buffer holds the block at every point, for any proof data over the entry
    arrays whose body leaves the block in place. -/
theorem before_edges_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row of scales is fetched at the first point only; its buffer holds it at every point all the same: the
    block index never moves. -/
theorem before_scale_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the row of shifts. -/
theorem before_shift_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 20000 x 64 block, as the rectangle the body loads and stores through. -/
abbrev rBlock : Rect S20000x64 := Rect.unit (s := S20000x64) ![0, 0] S20000x64.size inb_S20000x64_S20000x64_0_0
/-- The whole 1 x 64 row. -/
abbrev rRow : Rect S1x64 := Rect.unit (s := S1x64) ![0, 0] S1x64.size inb_S1x64_S1x64_0_0

/-! ## What the body leaves in the output block -/

/-- The output block after the body, from the three input blocks: its one store, of the generated payload at the
    three loaded values. -/
def normBlock (e0 : Vec F S20000x64 .f32) (s0 : Vec F S1x64 .f32) (t0 : Vec F S1x64 .f32) : Vec F S20000x64 .f32 :=
  View.canon [⟨rBlock, k2_pay1 (View.ld e0 rBlock) (View.ld s0 rRow) (View.ld t0 rRow)⟩]

/-- The one store is of the whole block, so it covers it. -/
theorem normBlock_cover (p0 : Vec F S20000x64 .f32) (y : S20000x64.Idx) :
    ∃ pc ∈ ([⟨rBlock, p0⟩] : List (View.Piece (Elt F) S20000x64 .f32)), y ∈ pc.1.set :=
  View.cover_of_tiled [⟨rBlock, p0⟩] S20000x64.size (by rfl) y

/-! ## The body's triple -/

set_option maxHeartbeats 1000000 in
/-- The body on whole staging memrefs — the three inputs' reading `e0`, `s0`, `t0`, the output's at anything — runs
    to the continuation with the inputs' as they were and the output's at `normBlock e0 s0 t0`: the printed function
    is its skeleton of four loads and one store; the load of the output buffer yields a value used nowhere. -/
theorem sound_kernel (c : Dev nD) (E : Set ℕ) (i : grid2.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S20000x64 .f32) (harg4 : arg4.IsWhole)
    (e0 : Vec F S20000x64 .f32) (s0 : Vec F S1x64 .f32) (t0 : Vec F S1x64 .f32) (K : PUnit → sProp 𝕄) :
    iprop(owns (c : Thread nD τ) arg1 fullShare e0 ∗ owns (c : Thread nD τ) arg2 fullShare s0 ∗ owns (c : Thread nD τ) arg3 fullShare t0
        ∗ (∃ d, owns (c : Thread nD τ) arg4 fullShare d)
        ∗ (iprop(owns (c : Thread nD τ) arg1 fullShare e0 ∗ owns (c : Thread nD τ) arg2 fullShare s0 ∗ owns (c : Thread nD τ) arg3 fullShare t0
            ∗ owns (c : Thread nD τ) arg4 fullShare (normBlock e0 s0 t0)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (normBlock_cover _)

/-! ## The region's proof data -/

/-- The proof data of the region's pipeline on core `c`: the arrays as the region finds them; after the body at
    point `t` each input's buffer at its block and the output's at `normBlock` of the three input blocks; the
    invariant that of a body keeping nothing from point to point (the scoped rest and the generator register,
    untouched); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => normBlock (iblk V c 0 t) (iblk V c 1 t) (iblk V c 2 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after_edges (c : Dev nD) (t : Fin cfg2.N) : (dat V c).after 0 t = iblk V c 0 t := by dsimp only [dat]
theorem after_scale (c : Dev nD) (t : Fin cfg2.N) : (dat V c).after 1 t = iblk V c 1 t := by dsimp only [dat]
theorem after_shift (c : Dev nD) (t : Fin cfg2.N) : (dat V c).after 2 t = iblk V c 2 t := by dsimp only [dat]
theorem after_out (c : Dev nD) (t : Fin cfg2.N) :
    (dat V c).after 3 t = normBlock (iblk V c 0 t) (iblk V c 1 t) (iblk V c 2 t) := by dsimp only [dat]

/-- Each input's current staging buffer holds its block at every point, fetched there or not. -/
theorem before_edges (c : Dev nD) (t : Fin cfg2.N) (d) : (dat V c).before 0 t d = iblk V c 0 t :=
  before_edges_of V (dat V c) (A_eq V c 0) (after_edges V c) t d
theorem before_scale (c : Dev nD) (t : Fin cfg2.N) (d) : (dat V c).before 1 t d = iblk V c 1 t :=
  before_scale_of V (dat V c) (A_eq V c 1) (after_scale V c) t d
theorem before_shift (c : Dev nD) (t : Fin cfg2.N) (d) : (dat V c).before 2 t d = iblk V c 2 t :=
  before_shift_of V (dat V c) (A_eq V c 2) (after_shift V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so `sound_kernel` applies; the invariant and
    the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_edges, before_scale, before_shift]
  rw [show (dat V c).Φ t.succ = (dat V c).Φ t.castSucc from rfl,
    show (dat V c).owesAt () t.succ = (dat V c).owesAt () t.castSucc from rfl,
    after_edges, after_scale, after_shift, after_out]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## The stored block, entry by entry, over the extended reals -/

/-- The two zero offsets of a whole-buffer rectangle, as the constant function. -/
theorem zero_offsets : (![0, 0] : Fin 2 → Nat) = fun _ => 0 := funext fun a => by fin_cases a <;> rfl

/-- Entry `(r, j)` of the block the body stores is the edge entry there times the scale of column `j` plus the
    shift of column `j`: the casts to the same shape are identities, a stretched row reads its one row at the
    column, and the product and the sum are entry by entry. -/
theorem normBlock_apply (e0 : Vec Ideal S20000x64 .f32) (s0 t0 : Vec Ideal S1x64 .f32) (r : Fin 20000) (j : Fin 64) :
    normBlock (F := Ideal) e0 s0 t0 (ix2 r j) = e0 (ix2 r j) * s0 (ix2 0 j) + t0 (ix2 0 j) := by
  unfold normBlock
  rw [View.canon_unit_zero zero_offsets]
  simp only [View.ld_unit_zero (S := S20000x64) zero_offsets, View.ld_unit_zero (S := S1x64) zero_offsets]
  unfold k2_pay1
  rw [addf_apply, mulf_apply, shapeCast_self, shapeCast_self, shapeCast_self,
    broadcastTo_1b_ab_apply, broadcastTo_1b_ab_apply]

end Cert.Kernel.Reg2

end
-- ==== Proof.K.Run.lean ====
/-
  The whole run of the program: three kernel regions between three stretches of host operations.

  Between two consecutive items every unscoped buffer of a core holds known contents: the launch memory, then after
  each host stretch the operations' values, then after each region its windows' arrays at what the region's write-backs
  leave and every other buffer unchanged. Each region is entered with its windows' arrays split out of those buffers and
  left with them put back; nothing is owed between cores and the kernels use no semaphore of their own, so the only state
  that rides beside the buffers is the generator register. Region 1 carries two accumulators from grid point to grid
  point; they live in scratch storage that the region allocates and forgets, so they enter and leave its invariant
  without appearing between items.

  From the last boundary's contents two things are read: each argument array is no item's output, so it walks back to
  the launch memory unchanged (the frame); and the result array is what region 2's write-backs leave.
-/
import proofs.«127521_j53730040873189_2_alg».proof.Proof.Gen.Kernel.Launch
import proofs.«127521_j53730040873189_2_alg».proof.Proof.Gen.Kernel.Skeleton
import proofs.«127521_j53730040873189_2_alg».proof.Proof.Gen.Kernel.Points
import proofs.«127521_j53730040873189_2_alg».proof.Proof.Gen.Kernel.Regions
import proofs.«127521_j53730040873189_2_alg».proof.Proof.K.Region0
import proofs.«127521_j53730040873189_2_alg».proof.Proof.K.Region1
import proofs.«127521_j53730040873189_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between a stretch of host operations and a kernel region -/

/-- The buffers at launch. -/
abbrev W0 : Dev nD → Valuation τ sig (Elt F) := fun c b => m ((c : Dev nD), b)
/-- After the first host stretch (the bias as a row): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The buffers at region 0's exit: its windows' arrays at what the write-backs leave, every other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the edges' averaged end features): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The buffers at region 1's exit: its windows' arrays at what the write-backs leave, every other buffer as entered. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (mean, variance, scale and shift): region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The buffers at region 2's exit: its windows' arrays at what the write-backs leave, every other buffer as entered. -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data of the three pipelines, each at its region's entry contents -/

def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 between the buffer contents at its entry and at its exit: its windows' arrays are split out of the
    unscoped buffers and put back at what the write-backs leave; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the buffer contents at its entry and at its exit: its windows' arrays are split out of the
    unscoped buffers and put back at what the write-backs leave; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V3 m) c).Φ 0 from rfl]
    iintro ⟨Hp, -, Hr⟩
    iapply (Reg1.phi_in (V3 m) c)
    isplitl [Hp]; · iexact Hp
    iexact Hr
  hout c := by
    rw [Pipeline.ownSems0_none, show (pdats m 1 c).Φ (Fin.last _) = (Reg1.dat (V3 m) c).Φ (Fin.last _) from rfl]
    iintro H
    ihave H' := (Reg1.phi_out (V3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the buffer contents at its entry and at its exit: its windows' arrays are split out of the
    unscoped buffers and put back at what the write-backs leave; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The arguments end as launched -/

/-- A buffer that no host stretch writes and that is no window's array of regions 1 and 2 walks back from the last
    boundary to the launch, given that region 0 leaves it as entered. -/
theorem W6_back (c : Dev nD) (b : Ref sig .tc) (h0 : b ∉ hostOps0_W) (h1 : b ∉ hostOps1_W) (h2 : b ∉ hostOps2_W)
    (hr0 : W2 m c (Proc.devRef .tc b) = W1 m c (Proc.devRef .tc b))
    (n1 : ∀ w, Pipeline.arrRef spec1 w ≠ b) (n2 : ∀ w, Pipeline.arrRef spec2 w ≠ b) :
    W6 m c (Proc.devRef .tc b) = m ((c : Thread nD τ).loc b) :=
  calc W6 m c (Proc.devRef .tc b) = W5 m c (Proc.devRef .tc b) := W6_of_ne m c b n2
    _ = W4 m c (Proc.devRef .tc b) := StableHlo.after_of_writes_sub hostOps2 _ hostOps2_writes h2
    _ = W3 m c (Proc.devRef .tc b) := W4_of_ne m c b n1
    _ = W2 m c (Proc.devRef .tc b) := StableHlo.after_of_writes_sub hostOps1 _ hostOps1_writes h1
    _ = W1 m c (Proc.devRef .tc b) := hr0
    _ = W0 m c (Proc.devRef .tc b) := StableHlo.after_of_writes_sub hostOps0 _ hostOps0_writes h0
    _ = m ((c : Thread nD τ).loc b) := rfl

/-- An input window's array of region 0 is left as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Reg0.dat (V1 m) c).arrAt_in w hw _).trans (Reg0.A_eq (V1 m) c w))

theorem W6_main_arg0 (c : Dev nD) : W6 m c (Proc.devRef .tc main_arg0) = m ((c : Thread nD τ).loc main_arg0) :=
  W6_back m c main_arg0 (by decide) (by decide) (by decide) (W2_in m c 0 rfl) (by decide) (by decide)
theorem W6_main_arg1 (c : Dev nD) : W6 m c (Proc.devRef .tc main_arg1) = m ((c : Thread nD τ).loc main_arg1) :=
  W6_back m c main_arg1 (by decide) (by decide) (by decide) (W2_of_ne m c main_arg1 (by decide)) (by decide) (by decide)
theorem W6_main_arg2 (c : Dev nD) : W6 m c (Proc.devRef .tc main_arg2) = m ((c : Thread nD τ).loc main_arg2) :=
  W6_back m c main_arg2 (by decide) (by decide) (by decide) (W2_of_ne m c main_arg2 (by decide)) (by decide) (by decide)
theorem W6_main_arg3 (c : Dev nD) : W6 m c (Proc.devRef .tc main_arg3) = m ((c : Thread nD τ).loc main_arg3) :=
  W6_back m c main_arg3 (by decide) (by decide) (by decide) (W2_in m c 1 rfl) (by decide) (by decide)
theorem W6_main_arg4 (c : Dev nD) : W6 m c (Proc.devRef .tc main_arg4) = m ((c : Thread nD τ).loc main_arg4) :=
  W6_back m c main_arg4 (by decide) (by decide) (by decide) (W2_of_ne m c main_arg4 (by decide)) (by decide) (by decide)
theorem W6_main_arg5 (c : Dev nD) : W6 m c (Proc.devRef .tc main_arg5) = m ((c : Thread nD τ).loc main_arg5) :=
  W6_back m c main_arg5 (by decide) (by decide) (by decide) (W2_of_ne m c main_arg5 (by decide)) (by decide) (by decide)
theorem W6_main_arg6 (c : Dev nD) : W6 m c (Proc.devRef .tc main_arg6) = m ((c : Thread nD τ).loc main_arg6) :=
  W6_back m c main_arg6 (by decide) (by decide) (by decide) (W2_of_ne m c main_arg6 (by decide)) (by decide) (by decide)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run m ρ)

/-- The result array after the run is what region 2's write-backs leave in its output window's array. -/
theorem W6_result (c : Dev nD) : W6 m c (Proc.devRef .tc main_v43) = (Reg2.dat (V5 m) c).arrAt 3 cfg2.N :=
  W6_arr m c 3

end Cert.Kernel.Run

end
-- ==== Proof.KI.Region0.lean ====
/-
  The first region of the kernel program: ten row blocks of 5000 nodes, each mapped affinely to 64 features
  (a block of `x` against the whole of `W`, plus the bias row) and cut off below at zero.

  Stated at the contents `V` the TensorCore's buffers hold when the region is entered, and at any float
  instance: the block each window stages at a grid point, the output block the body stores as a pure function
  of the three input blocks, the body's triple, the pipeline's proof data and its body obligation. At the
  extended reals the stored block is read index by index: entry `(r, j)` is the positive part of row `r` of
  the `x` block against column `j` of `W`, plus `b j`.
-/
import proofs.«127521_j53730040873189_2_alg».proof.Proof.Gen.KernelIdeal.Launch
import proofs.«127521_j53730040873189_2_alg».proof.Proof.Gen.KernelIdeal.Skeleton
import proofs.«127521_j53730040873189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

-- the rectangles of 5000 rows need a deeper structural recursion than the default
set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rows (or the whole) of its array, as the region finds the array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's current staging buffer holds its row block at every point, for any proof data over the
    region-entry arrays whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The `W` window is fetched once; its block index never moves, so its buffer holds the whole of `W` at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the bias row. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rectX : Rect S5000x256 := Rect.unit (s := S5000x256) ![0, 0] S5000x256.size inb_S5000x256_S5000x256_0_0
abbrev rectW : Rect S256x64 := Rect.unit (s := S256x64) ![0, 0] S256x64.size inb_S256x64_S256x64_0_0
abbrev rectB : Rect S1x64 := Rect.unit (s := S1x64) ![0, 0] S1x64.size inb_S1x64_S1x64_0_0
abbrev rectH : Rect S5000x64 := Rect.unit (s := S5000x64) ![0, 0] S5000x64.size inb_S5000x64_S5000x64_0_0

/-! ## What the body leaves in the output window's buffer -/

/-- The output buffer after the body, from the three input blocks: its one store, of the whole block. -/
def out_3 (x0 : Vec F S5000x256 .f32) (x1 : Vec F S256x64 .f32) (x2 : Vec F S1x64 .f32) : Vec F S5000x64 .f32 :=
  View.canon [⟨rectH, k0_pay1 (View.ld x0 rectX) (View.ld x1 rectW) (View.ld x2 rectB)⟩]

/-- The one store covers the buffer. -/
theorem cover_3 (p0 : Vec F S5000x64 .f32) (y : S5000x64.Idx) :
    ∃ pc ∈ ([⟨rectH, p0⟩] : List (View.Piece (Elt F) S5000x64 .f32)), y ∈ pc.1.set :=
  View.cover_of_tiled [⟨rectH, p0⟩] S5000x64.size (by rfl) y

/-! ## The body's triple -/

set_option maxHeartbeats 1000000 in
/-- The body on whole staging memrefs — the three inputs' at contents `x0 x1 x2`, the output's at anything — runs to
    the continuation holding the inputs' as they were and the output's at `out_3 x0 x1 x2`. -/
theorem sound_kernel (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_3 _)

/-! ## The pipeline's proof data -/

/-- The proof data of this pipeline on core `c`: the arrays as the region finds them; after the body at point `t`
    each input's buffer at its block and the output's at `out_3` of the three input blocks; the invariant that
    leaves the scoped rest and the generator register untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out_3 (iblk V c 0 t) (iblk V c 1 t) (iblk V c 2 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out_3 (iblk V c 0 t) (iblk V c 1 t) (iblk V c 2 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The stored block is the body's payload; its entries at the extended reals -/

section Entries

open Idealize.ShloMosaic.ValueIdx
open scoped BigOperators

theorem offsets_zero : (![0, 0] : Fin 2 → Nat) = fun _ => 0 := funext fun a => by fin_cases a <;> rfl

/-- Every access is of a whole buffer at offset zero, so the stored block is the payload of the three input blocks. -/
theorem out_3_eq_payload (x0 : Vec F S5000x256 .f32) (x1 : Vec F S256x64 .f32) (x2 : Vec F S1x64 .f32) :
    out_3 x0 x1 x2 = k0_pay1 x0 x1 x2 := by
  unfold out_3
  rw [View.canon_unit_zero offsets_zero, View.ld_unit_zero offsets_zero, View.ld_unit_zero offsets_zero, View.ld_unit_zero offsets_zero]

/-- The contraction of the block product: one axis of length 256. -/
abbrev prodDims : DotDims S5000x256 S256x64 S5000x64 := dot_S5000x256_S256x64_S5000x64_1_0_0_1_n_n

/-- The left operand's index under the contraction: the output's row, -/
theorem lhs_row (i : S5000x64.Idx) (q : prodDims.contr.Idx) : (prodDims.lhsIdx i q 0).val = (i 0).val := by
  unfold DotDims.lhsIdx
  rw [dif_neg (show ¬(0 : Fin S5000x256.rank) ∈ prodDims.lhsBatch by decide), dif_pos (show (0 : Fin S5000x256.rank) ∈ prodDims.lhsNonContracting by decide)]
  rfl
/-- and the contraction coordinate. -/
theorem lhs_contr (i : S5000x64.Idx) (q : prodDims.contr.Idx) : (prodDims.lhsIdx i q 1).val = (q ⟨0, by decide⟩).val :=
  prodDims.lhsIdx_val_of_single rfl i q
/-- The right operand's index: the contraction coordinate, -/
theorem rhs_contr (i : S5000x64.Idx) (q : prodDims.contr.Idx) : (prodDims.rhsIdx i q 0).val = (q ⟨0, by decide⟩).val :=
  prodDims.rhsIdx_val_of_single rfl i q
/-- and the output's column. -/
theorem rhs_col (i : S5000x64.Idx) (q : prodDims.contr.Idx) : (prodDims.rhsIdx i q 1).val = (i 1).val := by
  unfold DotDims.rhsIdx
  rw [dif_neg (show ¬(1 : Fin S256x64.rank) ∈ prodDims.rhsBatch by decide), dif_pos (show (1 : Fin S256x64.rank) ∈ prodDims.rhsNonContracting by decide)]
  rfl

/-- The block product into a zero accumulator, at an entry: row `r` of the left block against column `j` of the right. -/
theorem prod_apply (x0 : FVec Ideal S5000x256 .bf16) (w0 : FVec Ideal S256x64 .bf16) (r : Fin 5000) (j : Fin 64) :
    (matmul prodDims none x0 w0 (constant S5000x64 .f32 0x00000000#32) : FVec Ideal S5000x64 .f32) (ix2 r j)
      = ∑ k : Fin 256, x0 (ix2 r k) * w0 (ix2 k j) := by
  refine (Ideal.matmul_constant_zero_apply prodDims none x0 w0 (ix2 r j)).trans ?_
  rw [← Equiv.sum_comp (contrEquiv1 prodDims 256 rfl rfl).symm]
  refine Finset.sum_congr rfl fun k _ => ?_
  have hk := contrEquiv1_symm_val prodDims 256 rfl rfl k
  have el : prodDims.lhsIdx (ix2 r j) ((contrEquiv1 prodDims 256 rfl rfl).symm k) = ix2 r k := funext fun a => Fin.ext (by
    match a with
    | ⟨0, _⟩ => exact lhs_row _ _
    | ⟨1, _⟩ => exact (lhs_contr _ _).trans hk)
  have er : prodDims.rhsIdx (ix2 r j) ((contrEquiv1 prodDims 256 rfl rfl).symm k) = ix2 k j := funext fun a => Fin.ext (by
    match a with
    | ⟨0, _⟩ => exact (rhs_contr _ _).trans hk
    | ⟨1, _⟩ => exact rhs_col _ _)
  rw [el, er]

/-- Entry `(r, j)` of the stored block: the positive part of row `r` of the `x` block against column `j` of `W`, plus `b j`. -/
theorem out_3_apply (x0 : Vec Ideal S5000x256 .f32) (w0 : Vec Ideal S256x64 .f32) (b0 : Vec Ideal S1x64 .f32) (r : Fin 5000) (j : Fin 64) :
    out_3 (F := Ideal) x0 w0 b0 (ix2 r j) = max ((∑ k : Fin 256, x0 (ix2 r k) * w0 (ix2 k j)) + b0 (ix2 0 j)) 0 := by
  rw [out_3_eq_payload]
  unfold k0_pay1
  rw [maximumf_apply, addf_apply, broadcast_apply]
  have hprod := prod_apply (truncf .bf16 x0 bitsLt_bf16_f32) (truncf .bf16 w0 bitsLt_bf16_f32) r j
  simp only [truncf_apply] at hprod
  have hbias : broadcastTo S5000x64 (shapeCast S1x64 b0 shapeCasts_S1x64_S1x64) broadcasts_S1x64_S5000x64 (ix2 r j) = b0 (ix2 0 j) := by
    rw [shapeCast_self]
    exact broadcastTo_1b_ab_apply b0 broadcasts_S1x64_S5000x64 r j
  have hzero : (FloatOps.ofBits .f32 0x00000000#32 : Ideal .f32) = 0 := Ideal.ofBits_zero_f32
  refine (congrArg₂ max (congrArg₂ (· + ·) hprod hbias) hzero)

/-- The same at any index of the block. -/
theorem out_3_apply_idx (x0 : Vec Ideal S5000x256 .f32) (w0 : Vec Ideal S256x64 .f32) (b0 : Vec Ideal S1x64 .f32) (i : S5000x64.Idx) :
    out_3 (F := Ideal) x0 w0 b0 i
      = max ((∑ k : Fin 256, x0 (ix2 (⟨(i 0).val, (i 0).isLt⟩ : Fin 5000) k) * w0 (ix2 k (⟨(i 1).val, (i 1).isLt⟩ : Fin 64)))
          + b0 (ix2 0 (⟨(i 1).val, (i 1).isLt⟩ : Fin 64))) 0 := by
  obtain ⟨p, q, rfl⟩ : ∃ (p : Fin 5000) (q : Fin 64), i = ix2 p q := ⟨i 0, i 1, eq_ix2 i⟩
  exact out_3_apply x0 w0 b0 p q

end Entries

end Cert.KernelIdeal.Reg0

end
-- ==== Proof.KI.Region1.lean ====
/-
  The statistics kernel as one region of the program: a sequential grid of 40 points, each adding the column
  sums of one block of 20000 rows, and of the block's squares, into two accumulators that live beside the
  windows and are carried from point to point. The first point zeroes both accumulators before adding; the
  last point copies them into the two output blocks, which are written back only there.

  What is tracked: after `n` points the accumulators hold `acc n`, defined by recursion on `n` — the zero
  block, then one `add` of a block's column sums per point, in point order. The region invariant before
  point `n > 0` holds both accumulators at `acc n`; before the first point it asks nothing of them, since
  the body overwrites them before reading. Over the extended reals the recursion unrolls to the double sum
  over blocks and rows (the last section).
-/
import proofs.«127521_j53730040873189_2_alg».proof.Proof.Gen.KernelIdeal.Launch
import proofs.«127521_j53730040873189_2_alg».proof.Proof.Gen.KernelIdeal.Skeleton
import proofs.«127521_j53730040873189_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, over the point -/

theorem hz : (![0, 0] : Fin 2 → Nat) = fun _ => 0 := funext fun a => by fin_cases a <;> rfl

/-- The condition of the first conditional (reset the accumulators), from the grid coordinate. -/
abbrev condFirst (i : grid1.Coords) : Prop :=
  (Scalar.cmpi .ne (Scalar.extui (Scalar.cmpi .eq (BitVec.ofNat 32 (i 0).val) 0#32)) 0#32) = 1#1
/-- The condition of the second conditional (copy the accumulators out). -/
abbrev condLast (i : grid1.Coords) : Prop := k1_cond2 i = 1#1

/-- The first holds at point 0 only, -/
theorem condFirst_iff : ∀ t : Fin cfg1.N, condFirst (grid1.coords t) ↔ t.val = 0 :=
  (by decide +kernel : ∀ t : Fin grid1.N, condFirst (grid1.coords t) ↔ t.val = 0)
/-- the second at point 39 only. -/
theorem condLast_iff : ∀ t : Fin cfg1.N, condLast (grid1.coords t) ↔ t.val = 39 :=
  (by decide +kernel : ∀ t : Fin grid1.N, condLast (grid1.coords t) ↔ t.val = 39)

/-- The input window is live at every point. -/
theorem live_in : ∀ t : Fin cfg1.N, cfg1.idle 0 (grid1.coords t) = false := by decide +kernel
/-- Away from the last point the two output windows are idle and not written back; at it they are live. -/
theorem idle_sum : ∀ t : Fin cfg1.N, ¬condLast (grid1.coords t) → cfg1.idle 1 (grid1.coords t) = true := by decide +kernel
theorem keep_sum : ∀ t : Fin cfg1.N, ¬condLast (grid1.coords t) → (cfg1.win 1).flush t = false := by decide +kernel
theorem live_sum : ∀ t : Fin cfg1.N, condLast (grid1.coords t) → cfg1.idle 1 (grid1.coords t) = false := by decide +kernel
theorem idle_sq : ∀ t : Fin cfg1.N, ¬condLast (grid1.coords t) → cfg1.idle 2 (grid1.coords t) = true := by decide +kernel
theorem keep_sq : ∀ t : Fin cfg1.N, ¬condLast (grid1.coords t) → (cfg1.win 2).flush t = false := by decide +kernel
theorem live_sq : ∀ t : Fin cfg1.N, condLast (grid1.coords t) → cfg1.idle 2 (grid1.coords t) = false := by decide +kernel

/-! ## The body on any whole memrefs, one triple per control case

`x0` is the block of rows, `xs0` / `xs1` what the accumulators hold on entry, `xi1` / `xi2` what the output
buffers hold where the body leaves them alone. One point adds the block's column sums to the first accumulator
(`k1_pay4 x0 xs0`) and the column sums of its squares to the second (`k1_pay5 x0 xs1`). -/

set_option maxHeartbeats 1000000 in
/-- A middle point: neither conditional taken. -/
theorem kernel_middle (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬condFirst i) (hc1 : ¬condLast i)
    (x0 : Vec F S20000x64 .f32) (xs0 xs1 xi1 xi2 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

set_option maxHeartbeats 1000000 in
/-- The first point: the accumulators, at anything, are zeroed (`k1_pay1`, `k1_pay2`) and then added to. -/
theorem kernel_first (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : condFirst i) (hc1 : ¬condLast i)
    (x0 : Vec F S20000x64 .f32) (xi1 xi2 : Vec F S1x64 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

set_option maxHeartbeats 1000000 in
/-- The last point: after the addition the accumulators are copied into the two output buffers. -/
theorem kernel_last (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬condFirst i) (hc1 : condLast i)
    (x0 : Vec F S20000x64 .f32) (xs0 xs1 : Vec F S1x64 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k1_pay4 x0 xs0) ∗ owns (c : Thread nD τ) arg3 fullShare (k1_pay5 x0 xs1)
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  subst hf0; subst hfs0; subst hfs1
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  isplitl [H2]
  · iexists _; isplitr
    swap; · iexact H2
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  isplitl [HS0]
  · iexists _; isplitr
    swap; · iexact HS0
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]
  · iexists _; isplitr
    swap; · iexact HS1
    ipureintro
    sl_unfold_words
    rw [View.read_writes_eq_canon _ _ _ (fun y => ⟨_, List.mem_cons_self, View.mem_set_unit_zero hz inb_S1x64_S1x64_0_0 y⟩)]
    simp only [View.canon_cons_unit_zero (S := S1x64) hz, View.readCov_unit_zero (S := S1x64) _ hz, View.readAt_eq_ld,
      View.ld_unit_zero (S := S20000x64) hz, View.ld_unit_zero (S := S1x64) hz]

section AtEntry
-- the TensorCore's buffer contents when the region is entered: the parameter everything below is stated at
variable (V : (c : Dev nD) → (b : Ref sig .tc) → Buf (Elt F) ((c : Thread nD τ).loc b))

/-! ## The windows' blocks and the accumulators after each point -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the entry contents and whose body leaves the block in place. -/
theorem before_in_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- THE ACCUMULATION. What the two accumulators hold after `n` points: the zero blocks the first point stores, then,
    point by point, the column sums of that point's block added to the first and the column sums of its squares
    added to the second. -/
def acc (c : Dev nD) : (n : ℕ) → n ≤ cfg1.N → Vec F S1x64 .f32 × Vec F S1x64 .f32
  | 0, _ => (k1_pay1, k1_pay2)
  | n + 1, hn => (k1_pay4 (iblk V c 0 ⟨n, hn⟩) (acc c n (Nat.le_of_succ_le hn)).1,
                  k1_pay5 (iblk V c 0 ⟨n, hn⟩) (acc c n (Nat.le_of_succ_le hn)).2)

/-- The running column sums after `n` points, -/
abbrev scr0 (c : Dev nD) (n : ℕ) (h : n ≤ cfg1.N) : Vec F S1x64 .f32 := (acc V c n h).1
/-- and the running column sums of squares. -/
abbrev scr1 (c : Dev nD) (n : ℕ) (h : n ≤ cfg1.N) : Vec F S1x64 .f32 := (acc V c n h).2

theorem acc_fst (c : Dev nD) (t : Fin cfg1.N) :
    (acc V c (t.val + 1) t.isLt).1 = k1_pay4 (iblk V c 0 t) (acc V c t.val (Nat.le_of_lt t.isLt)).1 := rfl
theorem acc_snd (c : Dev nD) (t : Fin cfg1.N) :
    (acc V c (t.val + 1) t.isLt).2 = k1_pay5 (iblk V c 0 t) (acc V c t.val (Nat.le_of_lt t.isLt)).2 := rfl
theorem acc_zero_fst (c : Dev nD) (n : ℕ) (h : n ≤ cfg1.N) (hn : n = 0) : (acc V c n h).1 = k1_pay1 := by subst hn; rfl
theorem acc_zero_snd (c : Dev nD) (n : ℕ) (h : n ≤ cfg1.N) (hn : n = 0) : (acc V c n h).2 = k1_pay2 := by subst hn; rfl

/-! ## The region invariant -/

/-- The two accumulators: whole scoped buffers of the kernel's own, passed beside the windows. -/
abbrev scM0 : Memref sig .tc .vmem S1x64 .f32 := Memref.whole cc1_scratch0
abbrev scM1 : Memref sig .tc .vmem S1x64 .f32 := Memref.whole cc1_scratch1

/-- The core's other scoped buffers that this region stages nothing through (the other two regions' staging
    buffers), each whole at some contents, and the generator register at some state: untouched by the body. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ r, prngReg c r))

/-- The class's invariant — every scoped buffer that is no staging buffer of this region at some contents, and the
    generator register — with the two accumulators taken out in front. -/
theorem PhiA_eq (c : Dev nD) :
    (Pipeline.ΦA spec1 c : sProp 𝕄)
      = iprop((∃ d, owns (c : Thread nD τ) scM0 fullShare d) ∗ (∃ d, owns (c : Thread nD τ) scM1 fullShare d) ∗ others c) := by
  unfold Pipeline.ΦA others; rw [scopedRest1_eq]; simp only [scM0, scM1, owns_whole]
  refine BI.equiv_iff.mp ⟨?_, ?_⟩
  · show (_ : sProp 𝕄) ⊢ _
    iintro ⟨⟨A1, A2, A3, A4, A5, A6, S0, S1, B1, B2, B3, B4, B5, B6⟩, G⟩
    isplitl [S0]; · iexact S0
    isplitl [S1]; · iexact S1
    isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    isplitl [B6]; · iexact B6
    iexact G
  · show (_ : sProp 𝕄) ⊢ _
    iintro ⟨S0, S1, A1, A2, A3, A4, A5, A6, B1, B2, B3, B4, B5, B6, G⟩
    isplitr [G]
    swap; · iexact G
    isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [B1]; · iexact B1
    isplitl [B2]; · iexact B2
    isplitl [B3]; · iexact B3
    isplitl [B4]; · iexact B4
    isplitl [B5]; · iexact B5
    iexact B6

/-- The invariant before position `n`: before the first point the class's (the accumulators at anything: the body
    overwrites them before reading); afterwards the accumulators at `acc n` and the rest untouched. -/
def Phi (c : Dev nD) : (n : ℕ) → n ≤ cfg1.N → sProp 𝕄
  | 0, _ => Pipeline.ΦA spec1 c
  | n + 1, hn => iprop(owns (c : Thread nD τ) scM0 fullShare (acc V c (n + 1) hn).1
      ∗ owns (c : Thread nD τ) scM1 fullShare (acc V c (n + 1) hn).2 ∗ others c)

theorem Phi_zero (c : Dev nD) (n : ℕ) (h : n ≤ cfg1.N) (hn : n = 0) : Phi V c n h = Pipeline.ΦA spec1 c := by
  subst hn; rfl
theorem Phi_pos (c : Dev nD) (n : ℕ) (h : n ≤ cfg1.N) (hn : n ≠ 0) :
    Phi V c n h = iprop(owns (c : Thread nD τ) scM0 fullShare (acc V c n h).1
      ∗ owns (c : Thread nD τ) scM1 fullShare (acc V c n h).2 ∗ others c) := by
  cases n with
  | zero => exact absurd rfl hn
  | succ n => rfl

/-! ## The proof data -/

/-- The proof data of this pipeline on core `c`: the arrays as the region finds them; after the body at point `t`
    the input's buffer at its block and the two outputs' at the accumulators after that point (which the body
    copies there at the last point, the only one where the outputs are live); the invariant `Phi`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => (acc V c (t.val + 1) t.isLt).1
    | ⟨2, _⟩ => (acc V c (t.val + 1) t.isLt).2
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_in (c : Dev nD) (t : Fin cfg1.N) : (dat V c).after 0 t = iblk V c 0 t := by dsimp only [dat]
theorem after_sum (c : Dev nD) (t : Fin cfg1.N) : (dat V c).after 1 t = (acc V c (t.val + 1) t.isLt).1 := by dsimp only [dat]
theorem after_sq (c : Dev nD) (t : Fin cfg1.N) : (dat V c).after 2 t = (acc V c (t.val + 1) t.isLt).2 := by dsimp only [dat]
theorem before_in (c : Dev nD) (t : Fin cfg1.N) (d) : (dat V c).before 0 t d = iblk V c 0 t :=
  before_in_of V (dat V c) (A_eq V c 0) (after_in V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's memref holds its block; the closed forms of the two conditions say which of
    the three cases the point is in; the invariant hands the body the accumulators at what the point before left
    (at anything, at the first point) and takes them back at this point's; away from the last point the output
    buffers go back as they came, at the last point they hold the accumulators; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in]
  rw [show (dat V c).owesAt () t.succ = (dat V c).owesAt () t.castSucc from rfl]
  rw [show (dat V c).Φ t.succ = Phi V c (t.val + 1) t.isLt from rfl, Phi_pos V c _ _ (Nat.succ_ne_zero _)]
  rw [show (dat V c).leavesExact 0 t = owns (c : Thread nD τ) (st1_0 t) fullShare ((dat V c).after 0 t) from by
    unfold Dat.leavesExact; rw [live_in t], after_in]
  rw [Phi_castSucc]
  have hN : t.val < 40 := lt_of_lt_of_eq t.isLt (show cfg1.N = 40 from N_1)
  by_cases hl : t.val = 39
  · have hf : ¬t.val = 0 := by omega
    have hcf : ¬condFirst (grid1.coords t) := fun h => hf ((condFirst_iff t).mp h)
    have hcl : condLast (grid1.coords t) := (condLast_iff t).mpr hl
    rw [show (dat V c).leavesExact 1 t = owns (c : Thread nD τ) (st1_1 t) fullShare ((dat V c).after 1 t) from by
      unfold Dat.leavesExact; rw [live_sum t hcl], after_sum]
    rw [show (dat V c).leavesExact 2 t = owns (c : Thread nD τ) (st1_2 t) fullShare ((dat V c).after 2 t) from by
      unfold Dat.leavesExact; rw [live_sq t hcl], after_sq]
    rw [acc_fst, acc_snd, Phi_pos V c _ _ hf]
    iintro ⟨⟨HS0, HS1, Hr⟩, Ho, ⟨%d0, H0⟩, ⟨%d1, H1⟩, ⟨%d2, H2⟩⟩
    iapply (kernel_last c (grid1.coords t) _ _ _ _ _ _ _ _ _ _ hcf hcl (iblk V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    iexact H2
  · have hcl : ¬condLast (grid1.coords t) := fun h => hl ((condLast_iff t).mp h)
    rw [Dat.leavesExact_idle (dat V c) 1 t (idle_sum t hcl) (keep_sum t hcl),
      Dat.leavesExact_idle (dat V c) 2 t (idle_sq t hcl) (keep_sq t hcl)]
    rw [acc_fst, acc_snd]
    by_cases hf : t.val = 0
    · have hcf : condFirst (grid1.coords t) := (condFirst_iff t).mpr hf
      rw [Phi_zero V c _ _ hf, PhiA_eq c, acc_zero_fst V c _ _ hf, acc_zero_snd V c _ _ hf]
      iintro ⟨⟨HS0, HS1, Hr⟩, Ho, ⟨%d0, H0⟩, ⟨%d1, H1⟩, ⟨%d2, H2⟩⟩
      iapply (kernel_first c (grid1.coords t) _ _ _ _ _ _ _ _ _ _ hcf hcl (iblk V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexists _; iexact H1
      iexists _; iexact H2
    · have hcf : ¬condFirst (grid1.coords t) := fun h => hf ((condFirst_iff t).mp h)
      rw [Phi_pos V c _ _ hf]
      iintro ⟨⟨HS0, HS1, Hr⟩, Ho, ⟨%d0, H0⟩, ⟨%d1, H1⟩, ⟨%d2, H2⟩⟩
      iapply (kernel_middle c (grid1.coords t) _ _ _ _ _ _ _ _ _ _ hcf hcl (iblk V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## Into the invariant and out of it -/

/-- What the launch hands the region — the generator register and the scoped buffers no window stages, the
    accumulators among them at anything — is the invariant before the first point. -/
theorem phi_in (c : Dev nD) :
    iprop((∃ r, prngReg c r) ∗ Pipeline.scopedRest (Ix := Unit) (Name := ℕ) (U := UR sig nD τ) (Lvl := ℕ) (Val := Elt F) spec1 c)
      ⊢ (dat (F := F) V c).Φ 0 := by
  rw [show (dat V c).Φ 0 = Phi V c 0 (Nat.zero_le _) from rfl, Phi_zero V c 0 _ rfl]; unfold Pipeline.ΦA
  iintro ⟨Hg, Hs⟩
  isplitl [Hs]; · iexact Hs
  iexact Hg

/-- After any point the invariant gives the class's back: the accumulators' named contents are forgotten. -/
theorem Phi_forget (c : Dev nD) (t : Fin (cfg1.N + 1)) (ht : t.val ≠ 0) : (dat V c).Φ t ⊢ Pipeline.ΦA spec1 c := by
  rw [show (dat V c).Φ t = Phi V c t.val (Nat.le_of_lt_succ t.isLt) from rfl, Phi_pos V c _ _ ht, PhiA_eq c]
  iintro ⟨HS0, HS1, Hr⟩
  isplitl [HS0]; · iexists _; iexact HS0
  isplitl [HS1]; · iexists _; iexact HS1
  iexact Hr

/-- So after the last point the region returns what it was handed. -/
theorem phi_out (c : Dev nD) :
    (dat (F := F) V c).Φ (Fin.last _)
      ⊢ iprop((∃ r, prngReg c r) ∗ Pipeline.scopedRest (Ix := Unit) (Name := ℕ) (U := UR sig nD τ) (Lvl := ℕ) (Val := Elt F) spec1 c) := by
  have h := Phi_forget V c (Fin.last cfg1.N) (by rw [Fin.val_last]; have : cfg1.N = 40 := N_1; omega)
  unfold Pipeline.ΦA at h
  iintro H
  ihave H' := h $$ H
  icases H' with ⟨Hs, Hg⟩
  isplitl [Hg]; · iexact Hg
  iexact Hs

end AtEntry

end Cert.KernelIdeal.Reg1

end
-- ==== Proof.KI.Region2.lean ====
/-
  The third region of the kernel program (the normalising kernel, a grid of 40 points), at an arbitrary
  contents `V` of the TensorCore's buffers when the region is entered.

  At a grid point the body is handed four buffers: a block of 20000 rows of the edge array, the 1 x 64 row of
  scales, the 1 x 64 row of shifts, and the output block of 20000 rows. It reads the first three whole, stretches
  the two rows over the 20000 rows of the block, multiplies the block by the stretched scales entry by entry, adds
  the stretched shifts, and writes the result over the whole output block (the output block is also read once,
  and that value is used nowhere). So what the body leaves in the output block is a function of the three input
  blocks alone — `normBlock` below: entry `(r, j)` is `e (r, j) * scale (0, j) + shift (0, j)`
  (`normBlock_apply`, over the extended reals) —, and what it finds in each input buffer is that window's block
  of the array as the region found it, whether the pipeline has just fetched it or fetched it at an earlier point
  (the two rows are fetched once, at the first point).
-/
import proofs.«127521_j53730040873189_2_alg».proof.Proof.Gen.KernelIdeal.Launch
import proofs.«127521_j53730040873189_2_alg».proof.Proof.Gen.KernelIdeal.Skeleton
import proofs.«127521_j53730040873189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

-- membership in a rectangle of 20000 rows: the elaborator's structural look recurses once per coordinate
set_option maxRecDepth 65536

noncomputable section

namespace Cert.KernelIdeal.Reg2

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block's current staging buffer holds the block at every point, for any proof data over the entry
    arrays whose body leaves the block in place. -/
theorem before_edges_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row of scales is fetched at the first point only; its buffer holds it at every point all the same: the
    block index never moves. -/
theorem before_scale_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Likewise the row of shifts. -/
theorem before_shift_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 20000 x 64 block, as the rectangle the body loads and stores through. -/
abbrev rBlock : Rect S20000x64 := Rect.unit (s := S20000x64) ![0, 0] S20000x64.size inb_S20000x64_S20000x64_0_0
/-- The whole 1 x 64 row. -/
abbrev rRow : Rect S1x64 := Rect.unit (s := S1x64) ![0, 0] S1x64.size inb_S1x64_S1x64_0_0

/-! ## What the body leaves in the output block -/

/-- The output block after the body, from the three input blocks: its one store, of the generated payload at the
    three loaded values. -/
def normBlock (e0 : Vec F S20000x64 .f32) (s0 : Vec F S1x64 .f32) (t0 : Vec F S1x64 .f32) : Vec F S20000x64 .f32 :=
  View.canon [⟨rBlock, k2_pay1 (View.ld e0 rBlock) (View.ld s0 rRow) (View.ld t0 rRow)⟩]

/-- The one store is of the whole block, so it covers it. -/
theorem normBlock_cover (p0 : Vec F S20000x64 .f32) (y : S20000x64.Idx) :
    ∃ pc ∈ ([⟨rBlock, p0⟩] : List (View.Piece (Elt F) S20000x64 .f32)), y ∈ pc.1.set :=
  View.cover_of_tiled [⟨rBlock, p0⟩] S20000x64.size (by rfl) y

/-! ## The body's triple -/

set_option maxHeartbeats 1000000 in
/-- The body on whole staging memrefs — the three inputs' reading `e0`, `s0`, `t0`, the output's at anything — runs
    to the continuation with the inputs' as they were and the output's at `normBlock e0 s0 t0`: the printed function
    is its skeleton of four loads and one store; the load of the output buffer yields a value used nowhere. -/
theorem sound_kernel (c : Dev nD) (E : Set ℕ) (i : grid2.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S20000x64 .f32) (harg4 : arg4.IsWhole)
    (e0 : Vec F S20000x64 .f32) (s0 : Vec F S1x64 .f32) (t0 : Vec F S1x64 .f32) (K : PUnit → sProp 𝕄) :
    iprop(owns (c : Thread nD τ) arg1 fullShare e0 ∗ owns (c : Thread nD τ) arg2 fullShare s0 ∗ owns (c : Thread nD τ) arg3 fullShare t0
        ∗ (∃ d, owns (c : Thread nD τ) arg4 fullShare d)
        ∗ (iprop(owns (c : Thread nD τ) arg1 fullShare e0 ∗ owns (c : Thread nD τ) arg2 fullShare s0 ∗ owns (c : Thread nD τ) arg3 fullShare t0
            ∗ owns (c : Thread nD τ) arg4 fullShare (normBlock e0 s0 t0)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (normBlock_cover _)

/-! ## The region's proof data -/

/-- The proof data of the region's pipeline on core `c`: the arrays as the region finds them; after the body at
    point `t` each input's buffer at its block and the output's at `normBlock` of the three input blocks; the
    invariant that of a body keeping nothing from point to point (the scoped rest and the generator register,
    untouched); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => normBlock (iblk V c 0 t) (iblk V c 1 t) (iblk V c 2 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after_edges (c : Dev nD) (t : Fin cfg2.N) : (dat V c).after 0 t = iblk V c 0 t := by dsimp only [dat]
theorem after_scale (c : Dev nD) (t : Fin cfg2.N) : (dat V c).after 1 t = iblk V c 1 t := by dsimp only [dat]
theorem after_shift (c : Dev nD) (t : Fin cfg2.N) : (dat V c).after 2 t = iblk V c 2 t := by dsimp only [dat]
theorem after_out (c : Dev nD) (t : Fin cfg2.N) :
    (dat V c).after 3 t = normBlock (iblk V c 0 t) (iblk V c 1 t) (iblk V c 2 t) := by dsimp only [dat]

/-- Each input's current staging buffer holds its block at every point, fetched there or not. -/
theorem before_edges (c : Dev nD) (t : Fin cfg2.N) (d) : (dat V c).before 0 t d = iblk V c 0 t :=
  before_edges_of V (dat V c) (A_eq V c 0) (after_edges V c) t d
theorem before_scale (c : Dev nD) (t : Fin cfg2.N) (d) : (dat V c).before 1 t d = iblk V c 1 t :=
  before_scale_of V (dat V c) (A_eq V c 1) (after_scale V c) t d
theorem before_shift (c : Dev nD) (t : Fin cfg2.N) (d) : (dat V c).before 2 t d = iblk V c 2 t :=
  before_shift_of V (dat V c) (A_eq V c 2) (after_shift V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so `sound_kernel` applies; the invariant and
    the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_edges, before_scale, before_shift]
  rw [show (dat V c).Φ t.succ = (dat V c).Φ t.castSucc from rfl,
    show (dat V c).owesAt () t.succ = (dat V c).owesAt () t.castSucc from rfl,
    after_edges, after_scale, after_shift, after_out]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## The stored block, entry by entry, over the extended reals -/

/-- The two zero offsets of a whole-buffer rectangle, as the constant function. -/
theorem zero_offsets : (![0, 0] : Fin 2 → Nat) = fun _ => 0 := funext fun a => by fin_cases a <;> rfl

/-- Entry `(r, j)` of the block the body stores is the edge entry there times the scale of column `j` plus the
    shift of column `j`: the casts to the same shape are identities, a stretched row reads its one row at the
    column, and the product and the sum are entry by entry. -/
theorem normBlock_apply (e0 : Vec Ideal S20000x64 .f32) (s0 t0 : Vec Ideal S1x64 .f32) (r : Fin 20000) (j : Fin 64) :
    normBlock (F := Ideal) e0 s0 t0 (ix2 r j) = e0 (ix2 r j) * s0 (ix2 0 j) + t0 (ix2 0 j) := by
  unfold normBlock
  rw [View.canon_unit_zero zero_offsets]
  simp only [View.ld_unit_zero (S := S20000x64) zero_offsets, View.ld_unit_zero (S := S1x64) zero_offsets]
  unfold k2_pay1
  rw [addf_apply, mulf_apply, shapeCast_self, shapeCast_self, shapeCast_self,
    broadcastTo_1b_ab_apply, broadcastTo_1b_ab_apply]

end Cert.KernelIdeal.Reg2

end
-- ==== Proof.KI.Run.lean ====
/-
  The whole run of the program: three kernel regions between three stretches of host operations.

  Between two consecutive items every unscoped buffer of a core holds known contents: the launch memory, then after
  each host stretch the operations' values, then after each region its windows' arrays at what the region's write-backs
  leave and every other buffer unchanged. Each region is entered with its windows' arrays split out of those buffers and
  left with them put back; nothing is owed between cores and the kernels use no semaphore of their own, so the only state
  that rides beside the buffers is the generator register. Region 1 carries two accumulators from grid point to grid
  point; they live in scratch storage that the region allocates and forgets, so they enter and leave its invariant
  without appearing between items.

  From the last boundary's contents two things are read: each argument array is no item's output, so it walks back to
  the launch memory unchanged (the frame); and the result array is what region 2's write-backs leave.
-/
import proofs.«127521_j53730040873189_2_alg».proof.Proof.Gen.KernelIdeal.Launch
import proofs.«127521_j53730040873189_2_alg».proof.Proof.Gen.KernelIdeal.Skeleton
import proofs.«127521_j53730040873189_2_alg».proof.Proof.Gen.KernelIdeal.Points
import proofs.«127521_j53730040873189_2_alg».proof.Proof.Gen.KernelIdeal.Regions
import proofs.«127521_j53730040873189_2_alg».proof.Proof.KI.Region0
import proofs.«127521_j53730040873189_2_alg».proof.Proof.KI.Region1
import proofs.«127521_j53730040873189_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between a stretch of host operations and a kernel region -/

/-- The buffers at launch. -/
abbrev W0 : Dev nD → Valuation τ sig (Elt F) := fun c b => m ((c : Dev nD), b)
/-- After the first host stretch (the bias as a row): region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The buffers at region 0's exit: its windows' arrays at what the write-backs leave, every other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the edges' averaged end features): region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The buffers at region 1's exit: its windows' arrays at what the write-backs leave, every other buffer as entered. -/
def W4 (c : Dev nD) : Valuation τ sig (Elt F) :=
  Pipeline.withArrays spec1 c (W3 m c) fun w => (Reg1.dat (V3 m) c).arrAt w cfg1.N
theorem W4_arr (c : Dev nD) (w : Fin cfg1.W) :
    W4 m c (Proc.devRef .tc (Pipeline.arrRef spec1 w)) = (Reg1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (mean, variance, scale and shift): region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The buffers at region 2's exit: its windows' arrays at what the write-backs leave, every other buffer as entered. -/
def W6 (c : Dev nD) : Valuation τ sig (Elt F) :=
  Pipeline.withArrays spec2 c (W5 m c) fun w => (Reg2.dat (V5 m) c).arrAt w cfg2.N
theorem W6_arr (c : Dev nD) (w : Fin cfg2.W) :
    W6 m c (Proc.devRef .tc (Pipeline.arrRef spec2 w)) = (Reg2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data of the three pipelines, each at its region's entry contents -/

def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 between the buffer contents at its entry and at its exit: its windows' arrays are split out of the
    unscoped buffers and put back at what the write-backs leave; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the buffer contents at its entry and at its exit: its windows' arrays are split out of the
    unscoped buffers and put back at what the write-backs leave; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (V3 m) c).Φ 0 from rfl]
    iintro ⟨Hp, -, Hr⟩
    iapply (Reg1.phi_in (V3 m) c)
    isplitl [Hp]; · iexact Hp
    iexact Hr
  hout c := by
    rw [Pipeline.ownSems0_none, show (pdats m 1 c).Φ (Fin.last _) = (Reg1.dat (V3 m) c).Φ (Fin.last _) from rfl]
    iintro H
    ihave H' := (Reg1.phi_out (V3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the buffer contents at its entry and at its exit: its windows' arrays are split out of the
    unscoped buffers and put back at what the write-backs leave; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and in every
    final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The arguments end as launched -/

/-- A buffer that no host stretch writes and that is no window's array of regions 1 and 2 walks back from the last
    boundary to the launch, given that region 0 leaves it as entered. -/
theorem W6_back (c : Dev nD) (b : Ref sig .tc) (h0 : b ∉ hostOps0_W) (h1 : b ∉ hostOps1_W) (h2 : b ∉ hostOps2_W)
    (hr0 : W2 m c (Proc.devRef .tc b) = W1 m c (Proc.devRef .tc b))
    (n1 : ∀ w, Pipeline.arrRef spec1 w ≠ b) (n2 : ∀ w, Pipeline.arrRef spec2 w ≠ b) :
    W6 m c (Proc.devRef .tc b) = m ((c : Thread nD τ).loc b) :=
  calc W6 m c (Proc.devRef .tc b) = W5 m c (Proc.devRef .tc b) := W6_of_ne m c b n2
    _ = W4 m c (Proc.devRef .tc b) := StableHlo.after_of_writes_sub hostOps2 _ hostOps2_writes h2
    _ = W3 m c (Proc.devRef .tc b) := W4_of_ne m c b n1
    _ = W2 m c (Proc.devRef .tc b) := StableHlo.after_of_writes_sub hostOps1 _ hostOps1_writes h1
    _ = W1 m c (Proc.devRef .tc b) := hr0
    _ = W0 m c (Proc.devRef .tc b) := StableHlo.after_of_writes_sub hostOps0 _ hostOps0_writes h0
    _ = m ((c : Thread nD τ).loc b) := rfl

/-- An input window's array of region 0 is left as entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Reg0.dat (V1 m) c).arrAt_in w hw _).trans (Reg0.A_eq (V1 m) c w))

theorem W6_main_arg0 (c : Dev nD) : W6 m c (Proc.devRef .tc main_arg0) = m ((c : Thread nD τ).loc main_arg0) :=
  W6_back m c main_arg0 (by decide) (by decide) (by decide) (W2_in m c 0 rfl) (by decide) (by decide)
theorem W6_main_arg1 (c : Dev nD) : W6 m c (Proc.devRef .tc main_arg1) = m ((c : Thread nD τ).loc main_arg1) :=
  W6_back m c main_arg1 (by decide) (by decide) (by decide) (W2_of_ne m c main_arg1 (by decide)) (by decide) (by decide)
theorem W6_main_arg2 (c : Dev nD) : W6 m c (Proc.devRef .tc main_arg2) = m ((c : Thread nD τ).loc main_arg2) :=
  W6_back m c main_arg2 (by decide) (by decide) (by decide) (W2_of_ne m c main_arg2 (by decide)) (by decide) (by decide)
theorem W6_main_arg3 (c : Dev nD) : W6 m c (Proc.devRef .tc main_arg3) = m ((c : Thread nD τ).loc main_arg3) :=
  W6_back m c main_arg3 (by decide) (by decide) (by decide) (W2_in m c 1 rfl) (by decide) (by decide)
theorem W6_main_arg4 (c : Dev nD) : W6 m c (Proc.devRef .tc main_arg4) = m ((c : Thread nD τ).loc main_arg4) :=
  W6_back m c main_arg4 (by decide) (by decide) (by decide) (W2_of_ne m c main_arg4 (by decide)) (by decide) (by decide)
theorem W6_main_arg5 (c : Dev nD) : W6 m c (Proc.devRef .tc main_arg5) = m ((c : Thread nD τ).loc main_arg5) :=
  W6_back m c main_arg5 (by decide) (by decide) (by decide) (W2_of_ne m c main_arg5 (by decide)) (by decide) (by decide)
theorem W6_main_arg6 (c : Dev nD) : W6 m c (Proc.devRef .tc main_arg6) = m ((c : Thread nD τ).loc main_arg6) :=
  W6_back m c main_arg6 (by decide) (by decide) (by decide) (W2_of_ne m c main_arg6 (by decide)) (by decide) (by decide)

/-- The frame: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run m ρ)

/-- The result array after the run is what region 2's write-backs leave in its output window's array. -/
theorem W6_result (c : Dev nD) : W6 m c (Proc.devRef .tc main_v43) = (Reg2.dat (V5 m) c).arrAt 3 cfg2.N :=
  W6_arr m c 3

end Cert.KernelIdeal.Run

end
-- ==== Proof.KI.Blocks0.lean ====
/-
  From the blocks of the first region to its whole output array, over the extended reals.

  The region's ten grid points each write back one block of 5000 rows; block `t` holds rows `5000 t … 5000 t + 4999`.
  Entry `(r, j)` of the block written at point `t` is the positive part of row `r` of the `x` block staged there
  — row `5000 t + r` of `x` — against column `j` of `W`, plus `b j`. Every row `n < 50000` lies in the block of
  point `n / 5000`, so after the last point the array holds, at `(n, j)`, the positive part of row `n` of `x` against
  column `j` of `W`, plus `b j`.
-/
import proofs.«127521_j53730040873189_2_alg».proof.Proof.KI.Region0
import Idealize.ShloMosaic.Lib.Pipeline.Value

noncomputable section

namespace Cert.KernelIdeal.Blocks0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the TensorCore's buffer contents when the region is entered, over the extended reals
variable (V : (c : Dev nD) → (b : Ref sig .tc) → Buf (Elt Ideal) ((c : Thread nD τ).loc b))

/-- The node features as one array: entry `(n, j)` is the positive part of row `n` of `X` against column `j` of `W`, plus `B j`. -/
def nodes (X : S50000x256.Idx → EReal) (W : S256x64.Idx → EReal) (B : S1x64.Idx → EReal) : S50000x64.Idx → EReal :=
  fun i => max ((∑ k : Fin 256, X (ix2 (⟨(i 0).val, (i 0).isLt⟩ : Fin 50000) k) * W (ix2 k (⟨(i 1).val, (i 1).isLt⟩ : Fin 64)))
    + B (ix2 0 (⟨(i 1).val, (i 1).isLt⟩ : Fin 64))) 0

/-- The block index maps over the grid: the `x` and output windows move one block of rows per point; `W` and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem x_block_apply (c : Dev nD) (t : Fin cfg0.N) (r : Fin 5000) (k : Fin 256) (n : Fin 50000) (hn : n.val = t.val * 5000 + r.val) :
    Reg0.iblk V c 0 t (ix2 r k) = (V c main_arg0 : S50000x256.Idx → EReal) (ix2 n k) := by
  show (V c main_arg0 : S50000x256.Idx → EReal) (((cfg0.win 0).blk t).view.emb (ix2 r k)) = _
  refine congrArg (V c main_arg0 : S50000x256.Idx → EReal) (funext fun a => Fin.ext ?_)
  obtain ⟨e0, e1, -⟩ := idx_facts t
  match a with
  | ⟨0, _⟩ => show win0_0.index t (0 : Fin 2) * 5000 + 1 * r.val = n.val; omega
  | ⟨1, _⟩ => show win0_0.index t (1 : Fin 2) * 256 + 1 * k.val = k.val; omega

/-- The `W` window's block is the whole of `W`, -/
theorem w_block_apply (c : Dev nD) (t : Fin cfg0.N) (k : Fin 256) (j : Fin 64) :
    Reg0.iblk V c 1 t (ix2 k j) = (V c main_arg3 : S256x64.Idx → EReal) (ix2 k j) := by
  show (V c main_arg3 : S256x64.Idx → EReal) (((cfg0.win 1).blk t).view.emb (ix2 k j)) = _
  refine congrArg (V c main_arg3 : S256x64.Idx → EReal) (funext fun a => Fin.ext ?_)
  obtain ⟨-, -, e2, e3, -⟩ := idx_facts t
  match a with
  | ⟨0, _⟩ => show win0_1.index t (0 : Fin 2) * 256 + 1 * k.val = k.val; omega
  | ⟨1, _⟩ => show win0_1.index t (1 : Fin 2) * 64 + 1 * j.val = j.val; omega

/-- and the bias window's the whole bias row. -/
theorem b_block_apply (c : Dev nD) (t : Fin cfg0.N) (z : Fin 1) (j : Fin 64) :
    Reg0.iblk V c 2 t (ix2 z j) = (V c main_v0 : S1x64.Idx → EReal) (ix2 z j) := by
  show (V c main_v0 : S1x64.Idx → EReal) (((cfg0.win 2).blk t).view.emb (ix2 z j)) = _
  refine congrArg (V c main_v0 : S1x64.Idx → EReal) (funext fun a => Fin.ext ?_)
  obtain ⟨-, -, -, -, e4, e5, -⟩ := idx_facts t
  match a with
  | ⟨0, _⟩ => show win0_2.index t (0 : Fin 2) * 1 + 1 * z.val = z.val; omega
  | ⟨1, _⟩ => show win0_2.index t (1 : Fin 2) * 64 + 1 * j.val = j.val; omega

/-- The node features at an index whose coordinates are `n` and `j`. -/
theorem nodes_apply (X : S50000x256.Idx → EReal) (W : S256x64.Idx → EReal) (B : S1x64.Idx → EReal) (i : S50000x64.Idx)
    (n : Fin 50000) (j : Fin 64) (hn : (i 0).val = n.val) (hj : (i 1).val = j.val) :
    nodes X W B i = max ((∑ k : Fin 256, X (ix2 n k) * W (ix2 k j)) + B (ix2 0 j)) 0 := by
  have e0 : (⟨(i 0).val, (i 0).isLt⟩ : Fin 50000) = n := Fin.ext hn
  have e1 : (⟨(i 1).val, (i 1).isLt⟩ : Fin 64) = j := Fin.ext hj
  show max ((∑ k : Fin 256, X (ix2 (⟨(i 0).val, (i 0).isLt⟩ : Fin 50000) k) * W (ix2 k (⟨(i 1).val, (i 1).isLt⟩ : Fin 64)))
    + B (ix2 0 (⟨(i 1).val, (i 1).isLt⟩ : Fin 64))) 0 = _
  rw [e0, e1]

/-- What point `t` writes back is block `t` of the node features of the region-entry arrays. -/
theorem flushed_eq (c : Dev nD) (t : Fin cfg0.N) :
    (Reg0.dat V c).flushed 3 t
      = ((cfg0.win 3).blk t).view.read (Elt Ideal) (nodes (V c main_arg0) (V c main_arg3) (V c main_v0)) := by
  show (cfg0.win 3).cut (grid0.coords t) ((Reg0.dat V c).after 3 t) = _
  rw [Reg0.after_3]
  funext y
  show Reg0.out_3 (Reg0.iblk V c 0 t) (Reg0.iblk V c 1 t) (Reg0.iblk V c 2 t) y
    = nodes (V c main_arg0) (V c main_arg3) (V c main_v0) (((cfg0.win 3).blk t).view.emb y)
  obtain ⟨r, j, rfl⟩ : ∃ (r : Fin 5000) (j : Fin 64), y = ix2 r j := ⟨y 0, y 1, eq_ix2 y⟩
  have ht : t.val < 10 := (show t.val < grid0.N from t.isLt).trans_eq N_0
  obtain ⟨-, -, -, -, -, -, e6, e7⟩ := idx_facts t
  have hrow : ((((cfg0.win 3).blk t).view.emb (ix2 r j)) 0).val = t.val * 5000 + r.val := by
    show win0_3.index t (0 : Fin 2) * 5000 + 1 * r.val = _; omega
  have hcol : ((((cfg0.win 3).blk t).view.emb (ix2 r j)) 1).val = j.val := by
    show win0_3.index t (1 : Fin 2) * 64 + 1 * j.val = _; omega
  have hr : r.val < 5000 := r.isLt
  rw [Reg0.out_3_apply, nodes_apply _ _ _ _ (⟨t.val * 5000 + r.val, by omega⟩ : Fin 50000) j hrow hcol]
  exact congrArg₂ max (congrArg₂ (· + ·) (Finset.sum_congr rfl fun k _ =>
    congrArg₂ (· * ·) (x_block_apply V c t r k _ rfl) (w_block_apply V c t k j)) (b_block_apply V c t 0 j)) rfl

/-- An index of the array is in point `t`'s block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every index of the array is in the block of some point, and every point writes its block back: row `n` is in
    the block of point `n / 5000`. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hlt : (i 0).val / 5000 < grid0.N := by rw [N_0]; omega
  obtain ⟨t, htv⟩ : ∃ t : Fin cfg0.N, t.val = (i 0).val / 5000 := ⟨⟨(i 0).val / 5000, hlt⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region's last point the output array holds the node features of the region-entry arrays. -/
theorem nodes_array (c : Dev nD) :
    (Reg0.dat V c).arrAt 3 cfg0.N = nodes (V c main_arg0) (V c main_arg3) (V c main_v0) :=
  (Reg0.dat V c).arrAt_eq_of_cover 3 _ (fun t _ => flushed_eq V c t) covered

/-- The three arrays the region reads, as it finds them, -/
abbrev xAt (c : Dev nD) : S50000x256.Idx → EReal := V c main_arg0
abbrev wAt (c : Dev nD) : S256x64.Idx → EReal := V c main_arg3
abbrev bAt (c : Dev nD) : S1x64.Idx → EReal := V c main_v0
/-- and the array it writes, after its last point. -/
abbrev hAt (c : Dev nD) : S50000x64.Idx → EReal := (Reg0.dat V c).arrAt 3 cfg0.N

/-- Entry `(n, j)` of the written array: the positive part of row `n` of `x` against column `j` of `W`, plus `b j`. -/
theorem nodes_final (c : Dev nD) (n : Fin 50000) (j : Fin 64) :
    hAt V c (ix2 n j) = max ((∑ k : Fin 256, xAt V c (ix2 n k) * wAt V c (ix2 k j)) + bAt V c (ix2 0 j)) 0 :=
  (congrFun (nodes_array V c) (ix2 n j)).trans (nodes_apply _ _ _ _ n j rfl rfl)

end Cert.KernelIdeal.Blocks0

end
-- ==== Proof.Spec.lean ====
/-
  The mathematics both programs compute, as functions of the argument arrays over the extended reals, index by index.

  Nodes: 50000 rows of 256 features are mapped affinely to 64 features and the positive part is taken (`nodeFeat`).
  Edges: each of the 800000 edges averages the features of its two end nodes (that step is the same host text in both
  programs and is not restated here); `e` below is the resulting 800000 x 64 array.
  Normalisation over the edge axis, per feature column `j`: with the column mean `μ = (Σ_t e t j) / 800000`,
    * one program forms the variance as `(Σ_t (e t j)²) / 800000 − μ²`, folds the scale `γ · rsqrt (var + ε)` and the
      shift `β − μ · scale`, and stores `e · scale + shift` (`normFolded`);
    * the other forms the variance as `(Σ_t (e t j − μ)²) / 800000` and stores `((e − μ) · rsqrt (var + ε)) · γ + β`
      (`normCentred`).
  Over finite entries the two variances are one real number (the sum of squared deviations is the sum of squares less
  the count times the squared mean), it is non-negative, so `var + ε` is positive and its inverse root a real number,
  and the two stored values are equal by distributivity.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arrays, spelt as the programs spell them. -/
abbrev SX : Shape := ⟨2, ![50000, 256]⟩
abbrev SW : Shape := ⟨2, ![256, 64]⟩
abbrev SV : Shape := ⟨1, ![64]⟩
abbrev SH : Shape := ⟨2, ![50000, 64]⟩
abbrev SE : Shape := ⟨2, ![800000, 64]⟩

/-- Feature `j` of node `n`: the positive part of row `n` of `x` against column `j` of `W`, plus the bias. -/
def nodeFeat (x : SX.Idx → EReal) (W : SW.Idx → EReal) (b : SV.Idx → EReal) (n : Fin 50000) (j : Fin 64) : EReal :=
  max ((∑ k : Fin 256, x (ix2 n k) * W (ix2 k j)) + b (ix1 j)) 0

/-- The number of edges, 800000, as the single-precision word both programs divide by. -/
abbrev edgeCount : EReal := Ideal.ofBits .f32 0x49435000#32
/-- The variance offset ε, the single-precision word nearest 1e-5, as both programs add it. -/
abbrev varEps : EReal := Ideal.ofBits .f32 0x3727C5AC#32

/-- The sum of column `j` over all edges. -/
def colSum (e : SE.Idx → EReal) (j : Fin 64) : EReal := ∑ t : Fin 800000, e (ix2 t j)
/-- The sum of the squares of column `j` over all edges. -/
def colSumSq (e : SE.Idx → EReal) (j : Fin 64) : EReal := ∑ t : Fin 800000, e (ix2 t j) * e (ix2 t j)
/-- The mean of column `j`. -/
def colMean (e : SE.Idx → EReal) (j : Fin 64) : EReal := Ideal.div (colSum e j) edgeCount
/-- The sum of the squared deviations of column `j` from its mean. -/
def colSumDev (e : SE.Idx → EReal) (j : Fin 64) : EReal :=
  ∑ t : Fin 800000, (e (ix2 t j) - colMean e j) * (e (ix2 t j) - colMean e j)

/-- The variance as mean of squares less squared mean. -/
def varFolded (e : SE.Idx → EReal) (j : Fin 64) : EReal :=
  Ideal.div (colSumSq e j) edgeCount - colMean e j * colMean e j
/-- The folded scale `γ · rsqrt (var + ε)`. -/
def scaleFolded (e : SE.Idx → EReal) (γ : SV.Idx → EReal) (j : Fin 64) : EReal :=
  γ (ix1 j) * Ideal.rsqrt (varFolded e j + varEps)
/-- The folded shift `β − μ · scale`. -/
def shiftFolded (e : SE.Idx → EReal) (γ β : SV.Idx → EReal) (j : Fin 64) : EReal :=
  β (ix1 j) - colMean e j * scaleFolded e γ j
/-- The normalised entry in the folded arrangement: `e · scale + shift`. -/
def normFolded (e : SE.Idx → EReal) (γ β : SV.Idx → EReal) (t : Fin 800000) (j : Fin 64) : EReal :=
  e (ix2 t j) * scaleFolded e γ j + shiftFolded e γ β j

/-- The variance as mean of squared deviations. -/
def varCentred (e : SE.Idx → EReal) (j : Fin 64) : EReal := Ideal.div (colSumDev e j) edgeCount
/-- The normalised entry in the centred arrangement: `((e − μ) · rsqrt (var + ε)) · γ + β`. -/
def normCentred (e : SE.Idx → EReal) (γ β : SV.Idx → EReal) (t : Fin 800000) (j : Fin 64) : EReal :=
  ((e (ix2 t j) - colMean e j) * Ideal.rsqrt (varCentred e j + varEps)) * γ (ix1 j) + β (ix1 j)

end Cert.Spec

end
-- ==== Proof.BlockSums.lean ====
/-
  Sums over the edge axis taken block by block.

  The 800000 edges are cut into 40 consecutive blocks of 20000 rows (and the 50000 nodes into 10 blocks of 5000).
  A sum over all rows is the sum over the blocks of the sums inside each block: the pair (block, row inside the block)
  runs over the rows exactly once, row `p * n + r` for block `p` and inner row `r`. An accumulator that starts at zero
  and adds one block's sum per step therefore ends, after the last block, at the sum over all rows. Nothing here needs
  the entries to be finite: sums are taken in a commutative additive monoid.
-/
import Mathlib.Algebra.BigOperators.Fin
import Mathlib.Logic.Equiv.Fin.Basic
import proofs.«127521_j53730040873189_2_alg».proof.Proof.Spec

noncomputable section

open scoped BigOperators

namespace Cert.BlockSums

open Idealize.ShloMosaic Idealize.ShloMosaic.ValueIdx

/-! ## Rows as (block, inner row) -/

/-- Row `p * n + r` of block `p < N` and inner row `r < n` is one of the `N * n` rows. -/
theorem blk_lt {N n : ℕ} (p : Fin N) (r : Fin n) : p.val * n + r.val < N * n :=
  calc p.val * n + r.val < p.val * n + n := Nat.add_lt_add_left r.isLt _
    _ = (p.val + 1) * n := (Nat.succ_mul _ _).symm
    _ ≤ N * n := Nat.mul_le_mul_right _ p.isLt

/-- A row below `N * n` is row `t % n` of block `t / n`. -/
theorem split_row {N n t : ℕ} (hn : 0 < n) (ht : t < N * n) :
    t = (t / n) * n + t % n ∧ t / n < N ∧ t % n < n :=
  ⟨(Nat.div_add_mod' t n).symm, (Nat.div_lt_iff_lt_mul hn).mpr ht, Nat.mod_lt _ hn⟩

/-- The pair (block, inner row) of a row is unique. -/
theorem row_unique {n p r p' r' : ℕ} (hr : r < n) (hr' : r' < n) (h : p * n + r = p' * n + r') :
    p = p' ∧ r = r' := by
  have hn : 0 < n := Nat.lt_of_le_of_lt (Nat.zero_le _) hr
  have hp : p = p' := by
    have h1 : (p * n + r) / n = p := by
      rw [Nat.mul_comm, Nat.mul_add_div hn, Nat.div_eq_of_lt hr, Nat.add_zero]
    have h2 : (p' * n + r') / n = p' := by
      rw [Nat.mul_comm, Nat.mul_add_div hn, Nat.div_eq_of_lt hr', Nat.add_zero]
    rw [← h1, ← h2, h]
  subst hp
  exact ⟨rfl, Nat.add_left_cancel h⟩

/-- Ten blocks of 5000 rows: a row below 50000. -/
theorem split_5000 (t : ℕ) (ht : t < 50000) : t = (t / 5000) * 5000 + t % 5000 ∧ t / 5000 < 10 ∧ t % 5000 < 5000 :=
  split_row (N := 10) (by norm_num) ht

/-- Forty blocks of 20000 rows: a row below 800000. -/
theorem split_20000 (t : ℕ) (ht : t < 800000) :
    t = (t / 20000) * 20000 + t % 20000 ∧ t / 20000 < 40 ∧ t % 20000 < 20000 :=
  split_row (N := 40) (by norm_num) ht

/-- Every node row lies in one of the ten blocks. -/
theorem exists_block_5000 (t : Fin 50000) : ∃ (p : Fin 10) (r : Fin 5000), t.val = p.val * 5000 + r.val :=
  ⟨⟨t.val / 5000, (split_5000 t.val t.isLt).2.1⟩, ⟨t.val % 5000, (split_5000 t.val t.isLt).2.2⟩,
    (split_5000 t.val t.isLt).1⟩

/-- Every edge row lies in one of the forty blocks. -/
theorem exists_block_20000 (t : Fin 800000) : ∃ (p : Fin 40) (r : Fin 20000), t.val = p.val * 20000 + r.val :=
  ⟨⟨t.val / 20000, (split_20000 t.val t.isLt).2.1⟩, ⟨t.val % 20000, (split_20000 t.val t.isLt).2.2⟩,
    (split_20000 t.val t.isLt).1⟩

/-! ## The sum over all rows, block by block -/

section
variable {M : Type*} [AddCommMonoid M]

/-- The sum over `N` blocks of the sums over the `n` rows of each block is the sum over all `N * n` rows. -/
theorem sum_blocks_mul (N n : ℕ) (f : Fin (N * n) → M) :
    ∑ p : Fin N, ∑ r : Fin n, f ⟨p.val * n + r.val, blk_lt p r⟩ = ∑ t : Fin (N * n), f t := by
  rw [← Equiv.sum_comp finProdFinEquiv f, Fintype.sum_prod_type]
  refine Finset.sum_congr rfl fun p _ => Finset.sum_congr rfl fun r _ => congrArg f (Fin.ext ?_)
  show p.val * n + r.val = r.val + n * p.val
  rw [Nat.add_comm, Nat.mul_comm]

/-- The same with the number of rows given as a number `T = N * n`. -/
theorem sum_blocks_of_eq {N n T : ℕ} (hT : N * n = T) (f : Fin T → M) :
    ∑ p : Fin N, ∑ r : Fin n, f ⟨p.val * n + r.val, hT ▸ blk_lt p r⟩ = ∑ t : Fin T, f t := by
  subst hT
  exact sum_blocks_mul N n f

/-! ## The accumulator -/

/-- An accumulator that starts at zero and adds `g k` at step `k` holds, after `k ≤ N` steps, the sum of the first `k`
    terms. -/
theorem fold_partial {N : ℕ} (g : Fin N → M) (a : ℕ → M) (h0 : a 0 = 0)
    (hs : ∀ (k : ℕ) (h : k < N), a (k + 1) = a k + g ⟨k, h⟩) (k : ℕ) (hk : k ≤ N) :
    a k = ∑ i ∈ Finset.range k, (if h : i < N then g ⟨i, h⟩ else 0) := by
  induction k with
  | zero => rw [h0, Finset.range_zero, Finset.sum_empty]
  | succ k ih =>
    have hlt : k < N := Nat.lt_of_succ_le hk
    rw [Finset.sum_range_succ, ← ih (Nat.le_of_lt hlt), hs k hlt, dif_pos hlt]

/-- After all `N` steps the accumulator holds the sum of all terms. -/
theorem fold_eq_sum {N : ℕ} (g : Fin N → M) (a : ℕ → M) (h0 : a 0 = 0)
    (hs : ∀ (k : ℕ) (h : k < N), a (k + 1) = a k + g ⟨k, h⟩) : a N = ∑ p : Fin N, g p := by
  rw [fold_partial g a h0 hs N (Nat.le_refl N),
    ← Fin.sum_univ_eq_sum_range (fun i => if h : i < N then g ⟨i, h⟩ else 0) N]
  exact Finset.sum_congr rfl fun p _ => dif_pos p.isLt

/-- The accumulator as a function of the step count: zero, then one more term per step (nothing past the last). -/
def acc {N : ℕ} (g : Fin N → M) : ℕ → M
  | 0 => 0
  | k + 1 => acc g k + (if h : k < N then g ⟨k, h⟩ else 0)

theorem acc_zero {N : ℕ} (g : Fin N → M) : acc g 0 = 0 := rfl

theorem acc_succ {N : ℕ} (g : Fin N → M) (k : ℕ) :
    acc g (k + 1) = acc g k + (if h : k < N then g ⟨k, h⟩ else 0) := rfl

/-- After `N` steps the accumulator is the sum of all `N` terms. -/
theorem acc_full {N : ℕ} (g : Fin N → M) : acc g N = ∑ p : Fin N, g p :=
  fold_eq_sum g (acc g) rfl fun k h => by rw [acc_succ, dif_pos h]

end

/-! ## Forty blocks of 20000 edges -/

/-- The sum over the 800000 edges, block by block. -/
theorem sum_blocks (f : Fin 800000 → EReal) :
    ∑ p : Fin 40, ∑ r : Fin 20000, f ⟨p.val * 20000 + r.val, by omega⟩ = ∑ t : Fin 800000, f t :=
  sum_blocks_of_eq (N := 40) (n := 20000) (by norm_num) f

/-- The accumulator over forty terms. -/
theorem acc_forty (g : Fin 40 → EReal) : acc g 40 = ∑ p : Fin 40, g p := acc_full g

/-- The column sum of the edge features is the sum over the blocks of the column sums of each block. -/
theorem colSum_blocks (e : Cert.Spec.SE.Idx → EReal) (j : Fin 64) :
    ∑ p : Fin 40, ∑ r : Fin 20000, e (ix2 (⟨p.val * 20000 + r.val, by omega⟩ : Fin 800000) j)
      = Cert.Spec.colSum e j :=
  sum_blocks fun t => e (ix2 t j)

/-- The column sum of the squared edge features, block by block. -/
theorem colSumSq_blocks (e : Cert.Spec.SE.Idx → EReal) (j : Fin 64) :
    ∑ p : Fin 40, ∑ r : Fin 20000,
        e (ix2 (⟨p.val * 20000 + r.val, by omega⟩ : Fin 800000) j)
          * e (ix2 (⟨p.val * 20000 + r.val, by omega⟩ : Fin 800000) j)
      = Cert.Spec.colSumSq e j :=
  sum_blocks fun t => e (ix2 t j) * e (ix2 t j)

end Cert.BlockSums

end
-- ==== Proof.KI.Blocks1.lean ====
/-
  What the statistics region leaves in its arrays.

  The region's grid has 40 points; the two output arrays, one row of 64 entries each, are written back at the last
  point only, and the block written there is the whole row. So each output array ends holding what the body left
  in that output's buffer at the last point. The edge array is an input and is never written back.

  Over the extended reals: an accumulator that starts at the zero row and at each point adds, column by column,
  the sum of the point's block of 20000 rows (of the entries, or of their squares) holds after the 40 points the
  column sums over all 800000 rows — the blocks are consecutive runs of rows, row `20000 p + r` for block `p` and
  inner row `r`, and they exhaust the rows.
-/
import proofs.«127521_j53730040873189_2_alg».proof.Proof.Gen.KernelIdeal.Launch
import proofs.«127521_j53730040873189_2_alg».proof.Proof.Gen.KernelIdeal.Skeleton
import proofs.«127521_j53730040873189_2_alg».proof.Proof.Gen.KernelIdeal.Points
import proofs.«127521_j53730040873189_2_alg».proof.Proof.Spec
import proofs.«127521_j53730040873189_2_alg».proof.Proof.BlockSums
import proofs.«127521_j53730040873189_2_alg».proof.Proof.KI.Region1
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

section AnyFloats

variable {F : FTy → Type} [FloatOps F]
variable {c : Dev nD} (dat : Dat τ (Elt F) Unit ℕ (UR sig nD τ) ℕ cfg1 c)

/-- The last of the 40 points. -/
def lastPoint : Fin cfg1.N := ⟨39, by rw [show cfg1.N = 40 from N_1]; decide⟩

/-- The one write-back of the row of sums, at the last point, writes the whole row the body left there. -/
theorem flushed_sum_eq (X : Vec F S1x64 .f32) (hX : dat.after 1 lastPoint = X) (t : Fin cfg1.N) (hf : (cfg1.win 1).flush t = true) :
    dat.flushed 1 t = ((cfg1.win 1).blk t).view.read (Elt F) X := by
  have hN : cfg1.N = 40 := N_1
  have h1 : t.val = 39 := by have := (flush1_1 t).mp hf; have := t.isLt; omega
  obtain rfl : t = lastPoint := Fin.ext h1
  show (cfg1.win 1).cut (grid1.coords lastPoint) (dat.after 1 lastPoint) = _
  rw [hX]
  have hz' : (fun a => win1_1.index lastPoint a * main_v23_0.ty.shape.size a) = fun _ => 0 := funext fun a => by fin_cases a <;> decide
  exact (Memref.read_access_unit_zero (Elt F) main_v23_0 hz' (fun a => by rw [congrFun hz' a]; simp) X).symm

/-- Likewise the row of sums of squares. -/
theorem flushed_sq_eq (X : Vec F S1x64 .f32) (hX : dat.after 2 lastPoint = X) (t : Fin cfg1.N) (hf : (cfg1.win 2).flush t = true) :
    dat.flushed 2 t = ((cfg1.win 2).blk t).view.read (Elt F) X := by
  have hN : cfg1.N = 40 := N_1
  have h1 : t.val = 39 := by have := (flush1_2 t).mp hf; have := t.isLt; omega
  obtain rfl : t = lastPoint := Fin.ext h1
  show (cfg1.win 2).cut (grid1.coords lastPoint) (dat.after 2 lastPoint) = _
  rw [hX]
  have hz' : (fun a => win1_2.index lastPoint a * main_v23_1.ty.shape.size a) = fun _ => 0 := funext fun a => by fin_cases a <;> decide
  exact (Memref.read_access_unit_zero (Elt F) main_v23_1 hz' (fun a => by rw [congrFun hz' a]; simp) X).symm

/-- The last point's block of the row of sums is the whole row. -/
theorem sum_row_covered (i : S1x64.Idx) :
    ∃ t : Fin cfg1.N, (cfg1.win 1).flush t = true ∧ i ∈ ((cfg1.win 1).blk t).view.set := by
  refine ⟨lastPoint, (flush1_1 lastPoint).mpr rfl, ?_⟩
  show i ∈ ((View.whole main_v23_0).slice (win1_1.rect lastPoint)).set
  rw [View.set_slice_whole, Rect.mem_set_unit]
  have h0 : (i 0).val < 1 := (i 0).isLt
  have h1 : (i 1).val < 64 := (i 1).isLt
  intro a
  match a with
  | ⟨0, _⟩ =>
    show win1_1.index lastPoint (0 : Fin 2) * 1 ≤ (i 0).val ∧ (i 0).val < win1_1.index lastPoint (0 : Fin 2) * 1 + 1
    rw [show win1_1.index lastPoint (0 : Fin 2) = 0 from by decide +kernel]; omega
  | ⟨1, _⟩ =>
    show win1_1.index lastPoint (1 : Fin 2) * 64 ≤ (i 1).val ∧ (i 1).val < win1_1.index lastPoint (1 : Fin 2) * 64 + 64
    rw [show win1_1.index lastPoint (1 : Fin 2) = 0 from by decide +kernel]; omega

/-- Likewise of the row of sums of squares. -/
theorem sq_row_covered (i : S1x64.Idx) :
    ∃ t : Fin cfg1.N, (cfg1.win 2).flush t = true ∧ i ∈ ((cfg1.win 2).blk t).view.set := by
  refine ⟨lastPoint, (flush1_2 lastPoint).mpr rfl, ?_⟩
  show i ∈ ((View.whole main_v23_1).slice (win1_2.rect lastPoint)).set
  rw [View.set_slice_whole, Rect.mem_set_unit]
  have h0 : (i 0).val < 1 := (i 0).isLt
  have h1 : (i 1).val < 64 := (i 1).isLt
  intro a
  match a with
  | ⟨0, _⟩ =>
    show win1_2.index lastPoint (0 : Fin 2) * 1 ≤ (i 0).val ∧ (i 0).val < win1_2.index lastPoint (0 : Fin 2) * 1 + 1
    rw [show win1_2.index lastPoint (0 : Fin 2) = 0 from by decide +kernel]; omega
  | ⟨1, _⟩ =>
    show win1_2.index lastPoint (1 : Fin 2) * 64 ≤ (i 1).val ∧ (i 1).val < win1_2.index lastPoint (1 : Fin 2) * 64 + 64
    rw [show win1_2.index lastPoint (1 : Fin 2) = 0 from by decide +kernel]; omega

/-- THE ROW OF SUMS after the region is what the body left in its buffer at the last point. -/
theorem arrAt_sum (X : Vec F S1x64 .f32) (hX : dat.after 1 lastPoint = X) : dat.arrAt 1 cfg1.N = X :=
  dat.arrAt_eq_of_cover 1 X (flushed_sum_eq dat X hX) sum_row_covered

/-- THE ROW OF SUMS OF SQUARES after the region, likewise. -/
theorem arrAt_sq (X : Vec F S1x64 .f32) (hX : dat.after 2 lastPoint = X) : dat.arrAt 2 cfg1.N = X :=
  dat.arrAt_eq_of_cover 2 X (flushed_sq_eq dat X hX) sq_row_covered

/-- The edge array is an input of the region: never written back, it stays what the proof data's array is. -/
theorem arrAt_edges (n : Nat) : dat.arrAt 0 n = dat.A 0 := dat.arrAt_in 0 rfl n

end AnyFloats

section ExtendedReals

/-- The row both accumulators start from is the zero row. -/
theorem zeroSum_apply (j : Fin 64) : k1_pay1 (F := Ideal) (ix2 0 j) = 0 := by
  unfold k1_pay1
  rw [shapeCast_self, broadcast_apply]
  exact Ideal.ofBits_zero_f32

theorem zeroSq_apply (j : Fin 64) : k1_pay2 (F := Ideal) (ix2 0 j) = 0 := by
  unfold k1_pay2
  rw [shapeCast_self, broadcast_apply]
  exact Ideal.ofBits_zero_f32

/-- The sum of a block of 20000 rows over the row axis, at column `j`: the sum of the column's 20000 entries. -/
theorem blockColSum_apply (x : FVec Ideal S20000x64 .f32) (j : Fin 64) :
    multiReduction (F := Ideal) .add [0] S64 x 0x00000000#32 reduces_S20000x64_S64 (.inl rfl) rfl (ix1 j)
      = ∑ r : Fin 20000, x (ix2 r j) := by
  refine (Ideal.multiReduction_add_single x 0x00000000#32 reduces_S20000x64_S64 (.inl rfl) rfl (ix1 j)).trans ?_
  refine Finset.sum_congr rfl fun r _ => congrArg x ?_
  funext a; apply Fin.ext
  match a with
  | ⟨0, _⟩ => rfl
  | ⟨1, _⟩ => rfl

/-- The coordinates of `(0, j)` after the leading one are those of `(j)`. -/
theorem succ_coords (j : Fin 64) : (fun a : Fin 1 => (ix2 (0 : Fin 1) j) a.succ) = ix1 j :=
  funext fun a => by fin_cases a; rfl

/-- One point's step of the accumulator of sums: column `j` gains the sum of the block's column `j`. -/
theorem sumStep_apply (blk : Vec Ideal S20000x64 .f32) (a : Vec Ideal S1x64 .f32) (j : Fin 64) :
    k1_pay4 (F := Ideal) blk a (ix2 0 j) = a (ix2 0 j) + ∑ r : Fin 20000, blk (ix2 r j) := by
  unfold k1_pay4 k1_pay3
  rw [shapeCast_self, addf_apply, shapeCast_self]
  congr 1
  refine (shapeCast_addUnit_apply ![64] _ shapeCasts_S64_S1x64 (ix2 0 j)).trans ?_
  exact (congrArg _ (succ_coords j)).trans (blockColSum_apply blk j)

/-- One point's step of the accumulator of squares: column `j` gains the sum of the squares of the block's column `j`. -/
theorem sqStep_apply (blk : Vec Ideal S20000x64 .f32) (a : Vec Ideal S1x64 .f32) (j : Fin 64) :
    k1_pay5 (F := Ideal) blk a (ix2 0 j) = a (ix2 0 j) + ∑ r : Fin 20000, blk (ix2 r j) * blk (ix2 r j) := by
  unfold k1_pay5 k1_pay3
  rw [shapeCast_self, addf_apply, shapeCast_self]
  congr 1
  refine (shapeCast_addUnit_apply ![64] _ shapeCasts_S64_S1x64 (ix2 0 j)).trans ?_
  exact (congrArg _ (succ_coords j)).trans (blockColSum_apply (mulf blk blk) j)

/-! ## Forty steps of the accumulators are the column sums -/

/-- An accumulator that starts at the zero row and at step `k` adds the column sums of block `k` — block `p` being
    rows `20000 p … 20000 p + 19999` of the edge array `E` — holds after the 40 steps the column sums of `E`. -/
theorem colSum_of_steps (E : Cert.Spec.SE.Idx → EReal) (blk : Fin 40 → Vec Ideal S20000x64 .f32)
    (hblk : ∀ (p : Fin 40) (r : Fin 20000) (j : Fin 64),
      blk p (ix2 r j) = E (ix2 (⟨p.val * 20000 + r.val, by omega⟩ : Fin 800000) j))
    (a : ℕ → Vec Ideal S1x64 .f32) (h0 : a 0 = k1_pay1 (F := Ideal))
    (hs : ∀ (k : ℕ) (h : k < 40), a (k + 1) = k1_pay4 (blk ⟨k, h⟩) (a k)) (j : Fin 64) :
    a 40 (ix2 0 j) = Cert.Spec.colSum E j := by
  have hfold := Cert.BlockSums.fold_eq_sum (N := 40)
    (fun p : Fin 40 => ∑ r : Fin 20000, E (ix2 (⟨p.val * 20000 + r.val, by omega⟩ : Fin 800000) j))
    (fun k => a k (ix2 0 j)) (by show a 0 (ix2 0 j) = 0; rw [h0]; exact zeroSum_apply j)
    (fun k h => by
      show a (k + 1) (ix2 0 j) = a k (ix2 0 j) + _
      rw [hs k h, sumStep_apply]
      exact congrArg _ (Finset.sum_congr rfl fun r _ => hblk ⟨k, h⟩ r j))
  exact hfold.trans (Cert.BlockSums.colSum_blocks E j)

/-- Likewise the accumulator of squares holds the column sums of the squares. -/
theorem colSumSq_of_steps (E : Cert.Spec.SE.Idx → EReal) (blk : Fin 40 → Vec Ideal S20000x64 .f32)
    (hblk : ∀ (p : Fin 40) (r : Fin 20000) (j : Fin 64),
      blk p (ix2 r j) = E (ix2 (⟨p.val * 20000 + r.val, by omega⟩ : Fin 800000) j))
    (a : ℕ → Vec Ideal S1x64 .f32) (h0 : a 0 = k1_pay2 (F := Ideal))
    (hs : ∀ (k : ℕ) (h : k < 40), a (k + 1) = k1_pay5 (blk ⟨k, h⟩) (a k)) (j : Fin 64) :
    a 40 (ix2 0 j) = Cert.Spec.colSumSq E j := by
  have hfold := Cert.BlockSums.fold_eq_sum (N := 40)
    (fun p : Fin 40 => ∑ r : Fin 20000, E (ix2 (⟨p.val * 20000 + r.val, by omega⟩ : Fin 800000) j)
      * E (ix2 (⟨p.val * 20000 + r.val, by omega⟩ : Fin 800000) j))
    (fun k => a k (ix2 0 j)) (by show a 0 (ix2 0 j) = 0; rw [h0]; exact zeroSq_apply j)
    (fun k h => by
      show a (k + 1) (ix2 0 j) = a k (ix2 0 j) + _
      rw [hs k h, sqStep_apply]
      exact congrArg _ (Finset.sum_congr rfl fun r _ => by rw [hblk ⟨k, h⟩ r j]))
  exact hfold.trans (Cert.BlockSums.colSumSq_blocks E j)

end ExtendedReals

end Cert.KernelIdeal.Blocks1

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

/-! ## The region's own proof data -/

section RegionAnyFloats

variable {F : FTy → Type} [FloatOps F]
variable (V : (c : Dev nD) → (b : Ref sig .tc) → Buf (Elt F) ((c : Thread nD τ).loc b))

/-- THE ROW OF SUMS after the region: the first accumulator after all 40 points. -/
theorem arrAt_sum_acc (c : Dev nD) :
    (Reg1.dat V c).arrAt 1 cfg1.N = (Reg1.acc V c cfg1.N (Nat.le_refl _)).1 :=
  arrAt_sum (Reg1.dat V c) _ (by rw [Reg1.after_sum]; rfl)

/-- THE ROW OF SUMS OF SQUARES after the region: the second accumulator after all 40 points. -/
theorem arrAt_sq_acc (c : Dev nD) :
    (Reg1.dat V c).arrAt 2 cfg1.N = (Reg1.acc V c cfg1.N (Nat.le_refl _)).2 :=
  arrAt_sq (Reg1.dat V c) _ (by rw [Reg1.after_sq]; rfl)

/-- The edge array stays as the region found it. -/
theorem arrAt_edges_entry (c : Dev nD) (n : Nat) : (Reg1.dat V c).arrAt 0 n = V c main_v22 :=
  (arrAt_edges (Reg1.dat V c) n).trans (Reg1.A_eq V c 0)

end RegionAnyFloats

section RegionExtendedReals

variable (V : (c : Dev nD) → (b : Ref sig .tc) → Buf (Elt Ideal) ((c : Thread nD τ).loc b))

/-- The edge array as the region finds it, as a function of its 800000 x 64 indices. -/
def edges (c : Dev nD) : Cert.Spec.SE.Idx → EReal := V c main_v22

/-- The edge block at point `t` is block `t` of the rows and the one block of columns. -/
theorem edge_block_index : ∀ t : Fin cfg1.N, win1_0.index t (0 : Fin 2) = t.val ∧ win1_0.index t (1 : Fin 2) = 0 :=
  (by decide +kernel : ∀ t : Fin grid1.N, _)

/-- Row `r` of the edge block at point `t` is row `20000 t + r` of the edge array. -/
theorem edge_block_apply (c : Dev nD) (t : Fin cfg1.N) (r : Fin 20000) (j : Fin 64) (h : t.val * 20000 + r.val < 800000) :
    Reg1.iblk V c 0 t (ix2 r j) = edges V c (ix2 (⟨t.val * 20000 + r.val, h⟩ : Fin 800000) j) := by
  obtain ⟨q0, q1⟩ := edge_block_index t
  show edges V c (((cfg1.win 0).blk t).view.emb (ix2 r j)) = _
  refine congrArg (edges V c) (funext fun a => Fin.ext ?_)
  match a with
  | ⟨0, _⟩ => show win1_0.index t (0 : Fin 2) * 20000 + 1 * r.val = t.val * 20000 + r.val; omega
  | ⟨1, _⟩ => show win1_0.index t (1 : Fin 2) * 64 + 1 * j.val = j.val; omega

/-- The grid has 40 points. -/
theorem forty : cfg1.N = 40 := N_1

/-- The two accumulators after `k` points, as sequences over all `k` (the zero rows past the grid). -/
def sumSeq (c : Dev nD) (k : ℕ) : Vec Ideal S1x64 .f32 :=
  if h : k ≤ cfg1.N then (Reg1.acc V c k h).1 else k1_pay1 (F := Ideal)
def sqSeq (c : Dev nD) (k : ℕ) : Vec Ideal S1x64 .f32 :=
  if h : k ≤ cfg1.N then (Reg1.acc V c k h).2 else k1_pay2 (F := Ideal)

/-- The edge blocks, indexed by the forty points. -/
def edgeBlock (c : Dev nD) (p : Fin 40) : Vec Ideal S20000x64 .f32 := Reg1.iblk V c 0 ⟨p.val, by rw [forty]; exact p.isLt⟩

theorem edgeBlock_apply (c : Dev nD) (p : Fin 40) (r : Fin 20000) (j : Fin 64) :
    edgeBlock V c p (ix2 r j) = edges V c (ix2 (⟨p.val * 20000 + r.val, by omega⟩ : Fin 800000) j) :=
  edge_block_apply V c _ r j _

theorem sumSeq_zero (c : Dev nD) : sumSeq V c 0 = k1_pay1 (F := Ideal) := by
  unfold sumSeq; rw [dif_pos (Nat.zero_le _)]; rfl
theorem sqSeq_zero (c : Dev nD) : sqSeq V c 0 = k1_pay2 (F := Ideal) := by
  unfold sqSeq; rw [dif_pos (Nat.zero_le _)]; rfl

theorem sumSeq_succ (c : Dev nD) (k : ℕ) (h : k < 40) :
    sumSeq V c (k + 1) = k1_pay4 (edgeBlock V c ⟨k, h⟩) (sumSeq V c k) := by
  have h1 : k + 1 ≤ cfg1.N := by rw [forty]; omega
  unfold sumSeq; rw [dif_pos h1, dif_pos (Nat.le_of_succ_le h1)]; rfl
theorem sqSeq_succ (c : Dev nD) (k : ℕ) (h : k < 40) :
    sqSeq V c (k + 1) = k1_pay5 (edgeBlock V c ⟨k, h⟩) (sqSeq V c k) := by
  have h1 : k + 1 ≤ cfg1.N := by rw [forty]; omega
  unfold sqSeq; rw [dif_pos h1, dif_pos (Nat.le_of_succ_le h1)]; rfl

theorem sumSeq_forty (c : Dev nD) : sumSeq V c 40 = (Reg1.acc V c cfg1.N (Nat.le_refl _)).1 := by
  unfold sumSeq; rw [dif_pos (by rw [forty] : 40 ≤ cfg1.N)]; rfl
theorem sqSeq_forty (c : Dev nD) : sqSeq V c 40 = (Reg1.acc V c cfg1.N (Nat.le_refl _)).2 := by
  unfold sqSeq; rw [dif_pos (by rw [forty] : 40 ≤ cfg1.N)]; rfl

/-- After the 40 points the first accumulator holds the column sums of the edge array, -/
theorem acc_sum_apply (c : Dev nD) (j : Fin 64) :
    (Reg1.acc V c cfg1.N (Nat.le_refl _)).1 (ix2 0 j) = Cert.Spec.colSum (edges V c) j := by
  rw [← sumSeq_forty]
  exact colSum_of_steps (edges V c) (edgeBlock V c) (edgeBlock_apply V c) (sumSeq V c) (sumSeq_zero V c) (sumSeq_succ V c) j

/-- and the second the column sums of its squares. -/
theorem acc_sq_apply (c : Dev nD) (j : Fin 64) :
    (Reg1.acc V c cfg1.N (Nat.le_refl _)).2 (ix2 0 j) = Cert.Spec.colSumSq (edges V c) j := by
  rw [← sqSeq_forty]
  exact colSumSq_of_steps (edges V c) (edgeBlock V c) (edgeBlock_apply V c) (sqSeq V c) (sqSeq_zero V c) (sqSeq_succ V c) j

/-- THE ROW OF SUMS after the region holds the column sums of the edge array as the region found it, -/
theorem arrAt_sum_apply (c : Dev nD) (j : Fin 64) :
    ((Reg1.dat V c).arrAt 1 cfg1.N : Vec Ideal S1x64 .f32) (ix2 0 j) = Cert.Spec.colSum (edges V c) j := by
  rw [arrAt_sum_acc]; exact acc_sum_apply V c j

/-- and THE ROW OF SUMS OF SQUARES the column sums of its squares. -/
theorem arrAt_sq_apply (c : Dev nD) (j : Fin 64) :
    ((Reg1.dat V c).arrAt 2 cfg1.N : Vec Ideal S1x64 .f32) (ix2 0 j) = Cert.Spec.colSumSq (edges V c) j := by
  rw [arrAt_sq_acc]; exact acc_sq_apply V c j

end RegionExtendedReals

end Cert.KernelIdeal.Blocks1

end
-- ==== Proof.KI.Blocks2.lean ====
/-
  From the blocks the third region writes back to the whole output array.

  The output array has 800000 rows of 64 entries and the grid has 40 points; point `t` writes back rows
  `20000 t … 20000 t + 19999`, all 64 columns. Every row `r` therefore lies in exactly the block of point
  `r / 20000`, the blocks cover the array, and if what each point writes back is its block of ONE function `G` of the
  whole array, the array ends holding `G`. Over the extended reals that function is: entry `(r, j)` is the edge
  entry `(r, j)` times the scale of column `j` plus the shift of column `j` — because the block of the edge array
  at point `t` is the same rows as the output's, and the scale and shift rows are the same whole rows at every point.
-/
import proofs.«127521_j53730040873189_2_alg».proof.Proof.KI.Region2
import Idealize.ShloMosaic.Lib.Pipeline.Value

set_option maxRecDepth 65536

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

section AnyFloats

variable {F : FTy → Type} [FloatOps F]
variable (V : (c : Dev nD) → (b : Ref sig .tc) → Buf (Elt F) ((c : Thread nD τ).loc b))

/-- What point `t` writes back to the output array: the block the body stored, of the three input blocks there. -/
theorem flushed_out (c : Dev nD) (t : Fin cfg2.N) :
    (dat V c).flushed 3 t = (cfg2.win 3).cut (grid2.coords t) (normBlock (iblk V c 0 t) (iblk V c 1 t) (iblk V c 2 t)) := by
  show (cfg2.win 3).cut (grid2.coords t) ((dat V c).after 3 t) = _
  rw [after_out]

/-- The block indices at point `t`: the edge block and the output block are block `t` of the rows and the one
    block of columns; the scale and shift rows are the one block of their arrays. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An index of the output array is in point `t`'s block iff each coordinate is in the block's range on its axis. -/
theorem mem_out_block (t : Fin cfg2.N) (i : S800000x64.Idx) :
    i ∈ ((cfg2.win 3).blk t).view.set ↔ ∀ a : Fin 2, win2_3.index t a * S20000x64.size a ≤ (i a).val ∧ (i a).val < win2_3.index t a * S20000x64.size a + S20000x64.size a := by
  show i ∈ ((View.whole main_v43).slice (win2_3.rect t)).set ↔ _
  rw [View.set_slice_whole, Rect.mem_set_unit]
  exact Iff.rfl

/-- Every index of the output array is in the block of the point its row falls in: row `r` in point `r / 20000`. -/
theorem rows_covered (i : S800000x64.Idx) :
    ∃ t : Fin cfg2.N, (cfg2.win 3).flush t = true ∧ i ∈ ((cfg2.win 3).blk t).view.set := by
  have hi0 : (i 0).val < 800000 := (i 0).isLt
  have hi1 : (i 1).val < 64 := (i 1).isLt
  have hN : cfg2.N = 40 := N_2
  have hlt : (i 0).val / 20000 < cfg2.N := by rw [hN]; omega
  refine ⟨⟨(i 0).val / 20000, hlt⟩, flush2_3 _, ?_⟩
  rw [mem_out_block]
  obtain ⟨-, -, -, -, -, -, q0, q1⟩ := block_indices ⟨(i 0).val / 20000, hlt⟩
  intro a
  match a with
  | ⟨0, _⟩ =>
    show win2_3.index ⟨(i 0).val / 20000, hlt⟩ (0 : Fin 2) * 20000 ≤ (i 0).val ∧ (i 0).val < win2_3.index ⟨(i 0).val / 20000, hlt⟩ (0 : Fin 2) * 20000 + 20000
    rw [q0]; show (i 0).val / 20000 * 20000 ≤ (i 0).val ∧ (i 0).val < (i 0).val / 20000 * 20000 + 20000
    omega
  | ⟨1, _⟩ =>
    show win2_3.index ⟨(i 0).val / 20000, hlt⟩ (1 : Fin 2) * 64 ≤ (i 1).val ∧ (i 1).val < win2_3.index ⟨(i 0).val / 20000, hlt⟩ (1 : Fin 2) * 64 + 64
    rw [q1]; omega

/-- THE OUTPUT ARRAY after the region: if what every point writes back is its block of one whole-array contents
    `G`, the array ends holding `G`. -/
theorem arrAt_out_of_blocks (c : Dev nD) (G : Buf (Elt F) ((cfg2.win 3).arr.view.loc (c.tc : Thread nD τ)))
    (hG : ∀ t : Fin cfg2.N, (dat V c).flushed 3 t = ((cfg2.win 3).blk t).view.read (Elt F) G) :
    (dat V c).arrAt 3 cfg2.N = G :=
  (dat V c).arrAt_eq_of_cover 3 G (fun t _ => hG t) rows_covered

/-- An input window's array is never written back: after the region it is as the region found it. -/
theorem arrAt_input (c : Dev nD) (w : Fin cfg2.W) (hw : (cfg2.win w).isOut = false) (n : Nat) :
    (dat V c).arrAt w n = V c (Pipeline.arrRef spec2 w) :=
  ((dat V c).arrAt_in w hw n).trans (A_eq V c w)

end AnyFloats

section ExtendedReals

variable (V : (c : Dev nD) → (b : Ref sig .tc) → Buf (Elt Ideal) ((c : Thread nD τ).loc b))

/-- The normalised array of an edge array, a row of scales and a row of shifts: entry `(r, j)` is the edge entry
    times the scale of column `j` plus the shift of column `j`. -/
def normArray (E : S800000x64.Idx → EReal) (S T : S1x64.Idx → EReal) : S800000x64.Idx → EReal :=
  fun i => E i * S (ix2 0 (i 1)) + T (ix2 0 (i 1))

/-- At the rows and columns spelt out. -/
theorem normArray_apply (E : S800000x64.Idx → EReal) (S T : S1x64.Idx → EReal) (r : Fin 800000) (j : Fin 64) :
    normArray E S T (ix2 r j) = E (ix2 r j) * S (ix2 0 j) + T (ix2 0 j) := rfl

/-- An entry of the normalised array from the three entries read where the indices agree. -/
theorem normArray_of_reads (E : S800000x64.Idx → EReal) (S T : S1x64.Idx → EReal) (i i0 : S800000x64.Idx) (k1 k2 : S1x64.Idx)
    (h0 : i0 = i) (h1 : k1 = ix2 (0 : Fin 1) (i 1)) (h2 : k2 = ix2 (0 : Fin 1) (i 1)) :
    E i0 * S k1 + T k2 = normArray E S T i := by
  subst h0 h1 h2; rfl

/-- WHAT POINT `t` WRITES BACK is block `t` of the normalised array of the three arrays as the region finds them. -/
theorem flushed_out_eq (c : Dev nD) (t : Fin cfg2.N) :
    (dat V c).flushed 3 t = ((cfg2.win 3).blk t).view.read (Elt Ideal)
      (normArray (V c main_v22) (V c main_v41) (V c main_v42)) := by
  rw [flushed_out]
  obtain ⟨e0, e1, s0, s1, u0, u1, o0, o1⟩ := block_indices t
  funext y
  obtain ⟨p, q, rfl⟩ : ∃ (p : Fin 20000) (q : Fin 64), y = ix2 p q := ⟨y 0, y 1, eq_ix2 y⟩
  show normBlock (F := Ideal) (iblk V c 0 t) (iblk V c 1 t) (iblk V c 2 t) (ix2 p q) = _
  rw [normBlock_apply]
  have h0 : ((cfg2.win 0).blk t).view.emb (ix2 p q) = ((cfg2.win 3).blk t).view.emb (ix2 p q) := by
    funext a; apply Fin.ext
    match a with
    | ⟨0, _⟩ => show win2_0.index t (0 : Fin 2) * 20000 + 1 * p.val = win2_3.index t (0 : Fin 2) * 20000 + 1 * p.val; omega
    | ⟨1, _⟩ => show win2_0.index t (1 : Fin 2) * 64 + 1 * q.val = win2_3.index t (1 : Fin 2) * 64 + 1 * q.val; omega
  have h1 : ((cfg2.win 1).blk t).view.emb (ix2 (0 : Fin 1) q) = ix2 (0 : Fin 1) ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_3.index t (1 : Fin 2) * 64 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  exact normArray_of_reads (V c main_v22) (V c main_v41) (V c main_v42) (((cfg2.win 3).blk t).view.emb (ix2 p q))
    (((cfg2.win 0).blk t).view.emb (ix2 p q)) (((cfg2.win 1).blk t).view.emb (ix2 (0 : Fin 1) q))
    (((cfg2.win 2).blk t).view.emb (ix2 (0 : Fin 1) q)) h0 h1 h2

/-- THE OUTPUT ARRAY after the region, over the extended reals: the normalised array of the edge array, the row of
    scales and the row of shifts as the region finds them. -/
theorem arrAt_out (c : Dev nD) :
    (dat V c).arrAt 3 cfg2.N = normArray (V c main_v22) (V c main_v41) (V c main_v42) :=
  arrAt_out_of_blocks V c _ (flushed_out_eq V c)

end ExtendedReals

end Cert.KernelIdeal.Reg2

end
-- ==== Proof.KI.HostVals.lean ====
/-
  The host arithmetic between the three grid computations, read off at the extended reals, for an arbitrary valuation W
  of the buffers.

  * Before the first grid: the bias vector of 64 entries is viewed as one row of 64; entry (0, j) of the row is entry j.
  * Between the first and the second grid: the edge array.  Each of the two rows of the edge index, with 50000 added to
    its negative entries, selects rows of the node features; the two selections are added and halved.
  * After the second grid: from the row s of column sums and the row q of column sums of squares,
        mean = s / N,   var = q / N − mean · mean,   scale = γ · rsqrt (var + ε),   shift = β − mean · scale,
    each entry by entry; the views between 64 entries and one row of 64 move no entry.  When s and q are the column sums
    and sums of squares of an edge array e, these are the specification's folded scale and folded shift.
-/
import proofs.«127521_j53730040873189_2_alg».proof.Proof.Gen.KernelIdeal.Launch
import proofs.«127521_j53730040873189_2_alg».proof.Proof.Gen.KernelIdeal.Regions
import proofs.«127521_j53730040873189_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.ValueIdx

variable (W : Valuation τ sig (Elt Ideal))

/-! ### The bias row: a vector of 64 entries read as one row of 64 -/

theorem bias_row (j : Fin 64) :
    (StableHlo.after (hostOps0 (F := Ideal)) W (Proc.devRef .tc main_v0) : S1x64.Idx → EReal) (ix2 0 j)
      = (W (Proc.devRef .tc main_arg4) : S64.Idx → EReal) (ix1 j) := by
  have e : (StableHlo.after (hostOps0 (F := Ideal)) W (Proc.devRef .tc main_v0) : S1x64.Idx → EReal)
      = shapeCast S1x64 (W (Proc.devRef .tc main_arg4) : S64.Idx → EReal) shapeCasts_S64_S1x64 := by
    after_results; rfl
  rw [e]; exact shapeCast_a_1a_apply _ _ 0 j

/-- The buffers the host operations read, at their array types. -/
abbrev sumRow : FVec Ideal S1x64 .f32 := W (Proc.devRef .tc main_v23_0)
abbrev sqRow : FVec Ideal S1x64 .f32 := W (Proc.devRef .tc main_v23_1)
abbrev gammaVec : FVec Ideal S64 .f32 := W (Proc.devRef .tc main_arg5)
abbrev betaVec : FVec Ideal S64 .f32 := W (Proc.devRef .tc main_arg6)

/-! ### The folded scale and shift rows -/

/-- The divisor word and the offset word, broadcast along a row. -/
abbrev countRow : FVec Ideal S1x64 .f32 := broadcastInDim S1x64 ![] bcast_S_S1x64 (constant (F := Ideal) S_ .f32 0x49435000#32)
abbrev epsRow : FVec Ideal S1x64 .f32 := broadcastInDim S1x64 ![] bcast_S_S1x64 (constant (F := Ideal) S_ .f32 0x3727C5AC#32)

/-- The scale, as a vector of 64 entries, as the host operations compose it from the sum row s, the sum-of-squares
    row q and the weight γ. -/
def scaleFlat (s q : FVec Ideal S1x64 .f32) (γ : FVec Ideal S64 .f32) : FVec Ideal S64 .f32 :=
  shapeCast S64
    (mulf (shapeCast S1x64 γ shapeCasts_S64_S1x64)
      (Host.rsqrt (addf (subf (Host.divf q countRow) (mulf (Host.divf s countRow) (Host.divf s countRow))) epsRow)))
    shapeCasts_S1x64_S64

/-- The scale row. -/
def scaleVec (s q : FVec Ideal S1x64 .f32) (γ : FVec Ideal S64 .f32) : FVec Ideal S1x64 .f32 :=
  shapeCast S1x64 (scaleFlat s q γ) shapeCasts_S64_S1x64

/-- The shift row:  β − mean · scale. -/
def shiftVec (s q : FVec Ideal S1x64 .f32) (γ β : FVec Ideal S64 .f32) : FVec Ideal S1x64 .f32 :=
  shapeCast S1x64
    (shapeCast S64
      (subf (shapeCast S1x64 β shapeCasts_S64_S1x64)
        (mulf (Host.divf s countRow) (shapeCast S1x64 (scaleFlat s q γ) shapeCasts_S64_S1x64)))
      shapeCasts_S1x64_S64)
    shapeCasts_S64_S1x64

theorem scale_vec :
    (StableHlo.after (hostOps2 (F := Ideal)) W (Proc.devRef .tc main_v41) : S1x64.Idx → EReal)
      = scaleVec (W (Proc.devRef .tc main_v23_0)) (W (Proc.devRef .tc main_v23_1)) (W (Proc.devRef .tc main_arg5)) := by
  after_results; rfl

theorem shift_vec :
    (StableHlo.after (hostOps2 (F := Ideal)) W (Proc.devRef .tc main_v42) : S1x64.Idx → EReal)
      = shiftVec (W (Proc.devRef .tc main_v23_0)) (W (Proc.devRef .tc main_v23_1)) (W (Proc.devRef .tc main_arg5))
          (W (Proc.devRef .tc main_arg6)) := by
  after_results_simp; rfl

/-- The value of the scale at column j, in closed form. -/
def scaleAt (s q : FVec Ideal S1x64 .f32) (γ : FVec Ideal S64 .f32) (j : Fin 64) : EReal :=
  γ (ix1 j) * Ideal.rsqrt ((Ideal.div (q (ix2 0 j)) Cert.Spec.edgeCount
      - Ideal.div (s (ix2 0 j)) Cert.Spec.edgeCount * Ideal.div (s (ix2 0 j)) Cert.Spec.edgeCount) + Cert.Spec.varEps)

theorem scaleFlat_apply (s q : FVec Ideal S1x64 .f32) (γ : FVec Ideal S64 .f32) (j : Fin 64) :
    scaleFlat s q γ (ix1 j) = scaleAt s q γ j := by
  rw [scaleFlat, shapeCast_1a_a_apply]
  show shapeCast S1x64 γ shapeCasts_S64_S1x64 (ix2 0 j) * _ = _
  rw [shapeCast_a_1a_apply]; rfl

theorem scaleVec_apply (s q : FVec Ideal S1x64 .f32) (γ : FVec Ideal S64 .f32) (j : Fin 64) :
    scaleVec s q γ (ix2 0 j) = scaleAt s q γ j := by
  rw [scaleVec, shapeCast_a_1a_apply, scaleFlat_apply]

theorem shiftVec_apply (s q : FVec Ideal S1x64 .f32) (γ β : FVec Ideal S64 .f32) (j : Fin 64) :
    shiftVec s q γ β (ix2 0 j) = β (ix1 j) - Ideal.div (s (ix2 0 j)) Cert.Spec.edgeCount * scaleAt s q γ j := by
  rw [shiftVec, shapeCast_a_1a_apply, shapeCast_1a_a_apply]
  show shapeCast S1x64 β shapeCasts_S64_S1x64 (ix2 0 j)
      - Ideal.div (s (ix2 0 j)) Cert.Spec.edgeCount * shapeCast S1x64 (scaleFlat s q γ) shapeCasts_S64_S1x64 (ix2 0 j) = _
  rw [shapeCast_a_1a_apply, shapeCast_a_1a_apply, scaleFlat_apply]

theorem scale_row (j : Fin 64) :
    (StableHlo.after (hostOps2 (F := Ideal)) W (Proc.devRef .tc main_v41) : S1x64.Idx → EReal) (ix2 0 j)
      = scaleAt (sumRow W) (sqRow W) (gammaVec W) j :=
  (congrFun (scale_vec W) (ix2 0 j)).trans (scaleVec_apply _ _ _ j)

theorem shift_row (j : Fin 64) :
    (StableHlo.after (hostOps2 (F := Ideal)) W (Proc.devRef .tc main_v42) : S1x64.Idx → EReal) (ix2 0 j)
      = betaVec W (ix1 j) - Ideal.div (sumRow W (ix2 0 j)) Cert.Spec.edgeCount * scaleAt (sumRow W) (sqRow W) (gammaVec W) j :=
  (congrFun (shift_vec W) (ix2 0 j)).trans (shiftVec_apply _ _ _ _ j)

/-- In the specification's words: when the two rows hold the column sums and the column sums of squares of e,
    the scale is the folded scale and the shift the folded shift. -/
theorem scaleAt_eq_spec (e : Cert.Spec.SE.Idx → EReal) (s q : FVec Ideal S1x64 .f32) (γ : FVec Ideal S64 .f32) (j : Fin 64)
    (hs : s (ix2 0 j) = Cert.Spec.colSum e j) (hq : q (ix2 0 j) = Cert.Spec.colSumSq e j) :
    scaleAt s q γ j = Cert.Spec.scaleFolded e γ j := by
  rw [scaleAt, hs, hq]; rfl

theorem shiftAt_eq_spec (e : Cert.Spec.SE.Idx → EReal) (s q : FVec Ideal S1x64 .f32) (γ β : FVec Ideal S64 .f32) (j : Fin 64)
    (hs : s (ix2 0 j) = Cert.Spec.colSum e j) (hq : q (ix2 0 j) = Cert.Spec.colSumSq e j) :
    β (ix1 j) - Ideal.div (s (ix2 0 j)) Cert.Spec.edgeCount * scaleAt s q γ j = Cert.Spec.shiftFolded e γ β j := by
  rw [scaleAt_eq_spec e s q γ j hs hq, hs]; rfl

theorem scale_row_spec (e : Cert.Spec.SE.Idx → EReal) (j : Fin 64)
    (hs : sumRow W (ix2 0 j) = Cert.Spec.colSum e j) (hq : sqRow W (ix2 0 j) = Cert.Spec.colSumSq e j) :
    (StableHlo.after (hostOps2 (F := Ideal)) W (Proc.devRef .tc main_v41) : S1x64.Idx → EReal) (ix2 0 j)
      = Cert.Spec.scaleFolded e (gammaVec W) j :=
  (scale_row W j).trans (scaleAt_eq_spec e _ _ _ j hs hq)

theorem shift_row_spec (e : Cert.Spec.SE.Idx → EReal) (j : Fin 64)
    (hs : sumRow W (ix2 0 j) = Cert.Spec.colSum e j) (hq : sqRow W (ix2 0 j) = Cert.Spec.colSumSq e j) :
    (StableHlo.after (hostOps2 (F := Ideal)) W (Proc.devRef .tc main_v42) : S1x64.Idx → EReal) (ix2 0 j)
      = Cert.Spec.shiftFolded e (gammaVec W) (betaVec W) j :=
  (shift_row W j).trans (shiftAt_eq_spec e _ _ _ _ j hs hq)

/-! ### The edge features: the average of the two end nodes' features -/

/-- The edge array as the host operations compose it from the node features h and the edge index ei: each of the two
    rows of ei, with 50000 added to the negative entries, gathers rows of h; the two gathered arrays are added and
    multiplied by the half word. -/
def edgeTermK (h : FVec Ideal S50000x64 .f32) (ei : IVec S2x800000 32) : FVec Ideal S800000x64 .f32 :=
  mulf
    (addf
      (Host.gather gather_S50000x64_S800000x1_S800000x64_1_0_n_n_0_1_164 h
        (broadcastInDim S800000x1 ![0] bcast_S800000_S800000x1_0
          (select
            (cmpi .slt
              (shapeCast S800000 (extractStridedSlice S1x800000 ![0, 0] ei slices_S2x800000_S1x800000_0_0) shapeCasts_S1x800000_S800000)
              (broadcastInDim S800000 ![] bcast_S_S800000 (constantI S_ 32 0#32)))
            (addi
              (shapeCast S800000 (extractStridedSlice S1x800000 ![0, 0] ei slices_S2x800000_S1x800000_0_0) shapeCasts_S1x800000_S800000)
              (broadcastInDim S800000 ![] bcast_S_S800000 (constantI S_ 32 50000#32)))
            (shapeCast S800000 (extractStridedSlice S1x800000 ![0, 0] ei slices_S2x800000_S1x800000_0_0) shapeCasts_S1x800000_S800000))))
      (Host.gather gather_S50000x64_S800000x1_S800000x64_1_0_n_n_0_1_164 h
        (broadcastInDim S800000x1 ![0] bcast_S800000_S800000x1_0
          (select
            (cmpi .slt
              (shapeCast S800000 (extractStridedSlice S1x800000 ![1, 0] ei slices_S2x800000_S1x800000_1_0) shapeCasts_S1x800000_S800000)
              (broadcastInDim S800000 ![] bcast_S_S800000 (constantI S_ 32 0#32)))
            (addi
              (shapeCast S800000 (extractStridedSlice S1x800000 ![1, 0] ei slices_S2x800000_S1x800000_1_0) shapeCasts_S1x800000_S800000)
              (broadcastInDim S800000 ![] bcast_S_S800000 (constantI S_ 32 50000#32)))
            (shapeCast S800000 (extractStridedSlice S1x800000 ![1, 0] ei slices_S2x800000_S1x800000_1_0) shapeCasts_S1x800000_S800000)))))
    (broadcastInDim S800000x64 ![] bcast_S_S800000x64 (constant (F := Ideal) S_ .f32 0x3F000000#32))

theorem edges_eq :
    (StableHlo.after (hostOps1 (F := Ideal)) W (Proc.devRef .tc main_v22) : S800000x64.Idx → EReal)
      = edgeTermK (W (Proc.devRef .tc main_v1)) (W (Proc.devRef .tc main_arg1)) := by
  after_results_simp; rfl

/-! ### What a stretch of host operations leaves alone -/

theorem keep0 (r : Ref sig .tc) (h : r ∉ hostOps0_W) :
    StableHlo.after (hostOps0 (F := Ideal)) W (Proc.devRef .tc r) = W (Proc.devRef .tc r) :=
  StableHlo.after_of_writes_sub hostOps0 _ hostOps0_writes h
theorem keep1 (r : Ref sig .tc) (h : r ∉ hostOps1_W) :
    StableHlo.after (hostOps1 (F := Ideal)) W (Proc.devRef .tc r) = W (Proc.devRef .tc r) :=
  StableHlo.after_of_writes_sub hostOps1 _ hostOps1_writes h
theorem keep2 (r : Ref sig .tc) (h : r ∉ hostOps2_W) :
    StableHlo.after (hostOps2 (F := Ideal)) W (Proc.devRef .tc r) = W (Proc.devRef .tc r) :=
  StableHlo.after_of_writes_sub hostOps2 _ hostOps2_writes h

theorem keep2_v22 : StableHlo.after (hostOps2 (F := Ideal)) W (Proc.devRef .tc main_v22) = W (Proc.devRef .tc main_v22) :=
  keep2 W main_v22 (by decide)

end Cert.KernelIdeal.HostVals

end
-- ==== Proof.RefSide.lean ====
/-
  The reference program read back as the shared specification.

  Its run ends with the result array at one composed term of the arguments. Read index by index that term is:
  the node features `nodeFeat` (a row of `x` against a column of `W`, plus the bias, positive part), gathered at the
  two end nodes of every edge and averaged (`edgeTerm`), then normalised per feature column in the centred
  arrangement `normCentred`: the column mean is the column sum over the edge count, the variance the mean of the
  squared deviations, and the stored entry `((e - mean) * rsqrt (var + eps)) * gamma + beta`.
-/
import proofs.«127521_j53730040873189_2_alg».proof.Proof.Gen.ReferenceIdeal.Read
import proofs.«127521_j53730040873189_2_alg».proof.Proof.Spec

noncomputable section

open scoped BigOperators

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## Node features -/

/-- The node features as the reference computes them: the product `x W`, the bias added to every row, and the
    positive part taken against a zero array. -/
def nodeStage (x : FVec Ideal S50000x256 .f32) (W : FVec Ideal S256x64 .f32) (b : FVec Ideal S64 .f32) :
    FVec Ideal S50000x64 .f32 :=
  val_main_v4 (F := Ideal) x W b

/-- Entry `(n, j)` of the node features is `max (Σ_k x n k * W k j + b j) 0`. -/
theorem nodeStage_apply (x : FVec Ideal S50000x256 .f32) (W : FVec Ideal S256x64 .f32) (b : FVec Ideal S64 .f32)
    (n : Fin 50000) (j : Fin 64) :
    nodeStage x W b (ix2 n j) = Cert.Spec.nodeFeat x W b n j := by
  have el : ∀ k : Fin 256, lidx_main_v0 (ix2 n j) k = ix2 n k := fun k =>
    funext fun a => Fin.ext (by match a with | ⟨0, _⟩ => rfl | ⟨1, _⟩ => rfl)
  have er : ∀ k : Fin 256, ridx_main_v0 (ix2 n j) k = ix2 k j := fun k =>
    funext fun a => Fin.ext (by match a with | ⟨0, _⟩ => rfl | ⟨1, _⟩ => rfl)
  have eb : idx_main_v1 (idx_main_v2 (ix2 n j)) = ix1 j :=
    funext fun a => Fin.ext (by match a with | ⟨0, _⟩ => rfl)
  unfold nodeStage Cert.Spec.nodeFeat
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def, Ideal.ofBits_zero_f32]

/-! ## Edge features -/

/-- The edge features as the reference computes them from the node features `h` and the edge list `ei`: each of the
    two rows of `ei` is cut out and flattened, a negative entry is shifted up by the node count, the rows of `h` at
    those entries are gathered, and the two gathered arrays are added and halved. -/
def edgeTerm (h : FVec Ideal S50000x64 .f32) (ei : IVec S2x800000 32) : FVec Ideal S800000x64 .f32 :=
  mulf
    (addf
      (Host.gather gather_S50000x64_S800000x1_S800000x64_1_0_n_n_0_1_164 h
        (broadcastInDim S800000x1 ![0] bcast_S800000_S800000x1_0
          (select
            (cmpi .slt
              (shapeCast _ (extractStridedSlice S1x800000 ![0, 0] ei slices_S2x800000_S1x800000_0_0) shapeCasts_S1x800000_S800000)
              (broadcastInDim S800000 ![] bcast_S_S800000 (constantI S_ 32 0#32)))
            (addi
              (shapeCast _ (extractStridedSlice S1x800000 ![0, 0] ei slices_S2x800000_S1x800000_0_0) shapeCasts_S1x800000_S800000)
              (broadcastInDim S800000 ![] bcast_S_S800000 (constantI S_ 32 50000#32)))
            (shapeCast _ (extractStridedSlice S1x800000 ![0, 0] ei slices_S2x800000_S1x800000_0_0) shapeCasts_S1x800000_S800000))))
      (Host.gather gather_S50000x64_S800000x1_S800000x64_1_0_n_n_0_1_164 h
        (broadcastInDim S800000x1 ![0] bcast_S800000_S800000x1_0
          (select
            (cmpi .slt
              (shapeCast _ (extractStridedSlice S1x800000 ![1, 0] ei slices_S2x800000_S1x800000_1_0) shapeCasts_S1x800000_S800000)
              (broadcastInDim S800000 ![] bcast_S_S800000 (constantI S_ 32 0#32)))
            (addi
              (shapeCast _ (extractStridedSlice S1x800000 ![1, 0] ei slices_S2x800000_S1x800000_1_0) shapeCasts_S1x800000_S800000)
              (broadcastInDim S800000 ![] bcast_S_S800000 (constantI S_ 32 50000#32)))
            (shapeCast _ (extractStridedSlice S1x800000 ![1, 0] ei slices_S2x800000_S1x800000_1_0) shapeCasts_S1x800000_S800000)))))
    (broadcastInDim S800000x64 ![] bcast_S_S800000x64 (constant (F := Ideal) S_ .f32 0x3F000000#32))

/-- The reference's edge stage is this term of its node stage and the edge list. -/
theorem val_edge_eq (x : FVec Ideal S50000x256 .f32) (ei : IVec S2x800000 32) (W : FVec Ideal S256x64 .f32)
    (b : FVec Ideal S64 .f32) :
    val_main_v25 (F := Ideal) x ei W b = edgeTerm (nodeStage x W b) ei := rfl

/-- The single-precision word the sum of the two gathered arrays is multiplied by is the real number one half. -/
theorem ofBits_half : Ideal.ofBits .f32 0x3F000000#32 = ((1 / 2 : ℝ) : EReal) := by
  simp [Ideal.ofBits, Ideal.ieee, -EReal.coe_mul]; norm_num

/-- Every entry of a gathered array is an entry of the operand, so real node features give real edge features:
    an edge feature is the sum of two node features times one half. -/
theorem edgeTerm_real (h : FVec Ideal S50000x64 .f32) (ei : IVec S2x800000 32)
    (hh : ∀ i, ∃ r : ℝ, h i = (r : EReal)) : ∀ i, ∃ r : ℝ, edgeTerm h ei i = (r : EReal) := by
  intro i
  have key : ∀ A B : IVec S800000x1 32, ∃ r : ℝ,
      mulf (addf (Host.gather gather_S50000x64_S800000x1_S800000x64_1_0_n_n_0_1_164 h A)
          (Host.gather gather_S50000x64_S800000x1_S800000x64_1_0_n_n_0_1_164 h B))
        (broadcastInDim S800000x64 ![] bcast_S_S800000x64 (constant (F := Ideal) S_ .f32 0x3F000000#32)) i = (r : EReal) := by
    intro A B
    obtain ⟨r1, h1⟩ := hh (gather_S50000x64_S800000x1_S800000x64_1_0_n_n_0_1_164.operandIdx i A)
    obtain ⟨r2, h2⟩ := hh (gather_S50000x64_S800000x1_S800000x64_1_0_n_n_0_1_164.operandIdx i B)
    refine ⟨(r1 + r2) * (1 / 2), ?_⟩
    show (h (gather_S50000x64_S800000x1_S800000x64_1_0_n_n_0_1_164.operandIdx i A)
        + h (gather_S50000x64_S800000x1_S800000x64_1_0_n_n_0_1_164.operandIdx i B)) * Ideal.ofBits .f32 0x3F000000#32 = _
    rw [h1, h2, ofBits_half, ← EReal.coe_add, ← EReal.coe_mul]
  exact key _ _

/-! ## The normalisation -/

section Norm

variable (x : FVec Ideal S50000x256 .f32) (ei : IVec S2x800000 32) (W : FVec Ideal S256x64 .f32)
  (b γ β : FVec Ideal S64 .f32)

/-- The reference's mean stage at column `j` is the column sum of the edge features over the edge count: the float sum
    starts from a zero word, which is the real zero. -/
theorem mean_apply (j : Fin 64) :
    val_main_v28 (F := Ideal) x ei W b (ix1 j) = Cert.Spec.colMean (edgeTerm (nodeStage x W b) ei) j := by
  have e26 : ∀ k : Fin 800000, idx_main_v26 (ix1 j) k = ix2 k j := fun k =>
    funext fun a => Fin.ext (by match a with | ⟨0, _⟩ => rfl | ⟨1, _⟩ => rfl)
  unfold Cert.Spec.colMean Cert.Spec.colSum
  rw [val_main_v28_apply, val_main_v26_apply, val_main_v27_apply, val_main_cst_4_apply, val_main_cst_3_apply,
    val_edge_eq]
  simp only [e26, Ideal.hostDivf_def, Ideal.ofBits_def, Ideal.ofBits_zero_f32, zero_add]

/-- The reference's deviation stage at `(t, j)` is the edge feature less its column mean. -/
theorem dev_apply (t : Fin 800000) (j : Fin 64) :
    val_main_v31 (F := Ideal) x ei W b (ix2 t j)
      = edgeTerm (nodeStage x W b) ei (ix2 t j) - Cert.Spec.colMean (edgeTerm (nodeStage x W b) ei) j := by
  have e30 : idx_main_v29 (idx_main_v30 (ix2 t j)) = ix1 j :=
    funext fun a => Fin.ext (by match a with | ⟨0, _⟩ => rfl)
  rw [val_main_v31_apply, val_main_v30_apply, val_main_v29_apply, e30, mean_apply, val_edge_eq]
  rfl

/-- The reference's variance stage at column `j` is the sum of the squared deviations over the edge count. -/
theorem var_apply (j : Fin 64) :
    val_main_v35 (F := Ideal) x ei W b (ix1 j) = Cert.Spec.varCentred (edgeTerm (nodeStage x W b) ei) j := by
  have e33 : ∀ k : Fin 800000, idx_main_v33 (ix1 j) k = ix2 k j := fun k =>
    funext fun a => Fin.ext (by match a with | ⟨0, _⟩ => rfl | ⟨1, _⟩ => rfl)
  unfold Cert.Spec.varCentred Cert.Spec.colSumDev
  rw [val_main_v35_apply, val_main_v33_apply, val_main_v34_apply, val_main_cst_6_apply, val_main_cst_5_apply]
  simp only [e33, val_main_v32_apply, dev_apply, Ideal.hostDivf_def, Ideal.mulf_def, Ideal.ofBits_def,
    Ideal.ofBits_zero_f32, zero_add]

/-- The reference's last stage at `(t, j)` is the centred normalisation of the edge features. -/
theorem stage_apply (t : Fin 800000) (j : Fin 64) :
    val_main_v50 (F := Ideal) x ei W b γ β (ix2 t j)
      = Cert.Spec.normCentred (edgeTerm (nodeStage x W b) ei) γ β t j := by
  have e37 : idx_main_v36 (idx_main_v37 (ix2 t j)) = ix1 j :=
    funext fun a => Fin.ext (by match a with | ⟨0, _⟩ => rfl)
  have e43 : idx_main_v42 (idx_main_v43 (ix2 t j)) = ix1 j :=
    funext fun a => Fin.ext (by match a with | ⟨0, _⟩ => rfl)
  have e46 : idx_main_v45 (idx_main_v46 (ix2 t j)) = ix1 j :=
    funext fun a => Fin.ext (by match a with | ⟨0, _⟩ => rfl)
  have e49 : idx_main_v48 (idx_main_v49 (ix2 t j)) = ix1 j :=
    funext fun a => Fin.ext (by match a with | ⟨0, _⟩ => rfl)
  unfold Cert.Spec.normCentred
  rw [val_main_v50_apply, val_main_v47_apply, val_main_v44_apply, val_main_v38_apply, val_main_v37_apply,
    val_main_v36_apply, e37, mean_apply, val_main_v43_apply, val_main_v42_apply, e43, val_main_v41_apply,
    val_main_v40_apply, var_apply, val_main_v39_apply, val_main_cst_7_apply, val_main_v46_apply, val_main_v45_apply,
    e46, val_main_v49_apply, val_main_v48_apply, e49, val_edge_eq]
  rfl

end Norm

/-! ## The run -/

/-- The array the reference stores, as a function of the six arguments it reads: entry `(t, j)` is the centred
    normalisation of the edge features. -/
def refOut (x : FVec Ideal S50000x256 .f32) (ei : IVec S2x800000 32) (W : FVec Ideal S256x64 .f32)
    (b γ β : FVec Ideal S64 .f32) : FVec Ideal S800000x64 .f32 :=
  fun i => Cert.Spec.normCentred (edgeTerm (nodeStage x W b) ei) γ β (i 0) (i 1)

theorem refOut_apply (x : FVec Ideal S50000x256 .f32) (ei : IVec S2x800000 32) (W : FVec Ideal S256x64 .f32)
    (b γ β : FVec Ideal S64 .f32) (t : Fin 800000) (j : Fin 64) :
    refOut x ei W b γ β (ix2 t j) = Cert.Spec.normCentred (edgeTerm (nodeStage x W b) ei) γ β t j := rfl

/-- The result term of the reference's run, read at `(t, j)`. -/
theorem result_apply (m : (ℓ : Loc nD τ sig) → Buf (Elt Ideal) ℓ) (c : Dev nD) (t : Fin 800000) (j : Fin 64) :
    Cert.ReferenceIdeal.Value.res_main_v50 (F := Ideal) m c (ix2 t j)
      = Cert.Spec.normCentred
          (edgeTerm (nodeStage (m ((c.tc : Thread nD τ).loc main_arg0)) (m ((c.tc : Thread nD τ).loc main_arg3))
            (m ((c.tc : Thread nD τ).loc main_arg4))) (m ((c.tc : Thread nD τ).loc main_arg1)))
          (m ((c.tc : Thread nD τ).loc main_arg5)) (m ((c.tc : Thread nD τ).loc main_arg6)) t j := by
  rw [val_main_v50_eq]
  exact stage_apply _ _ _ _ _ _ t j

/-- The result term of the reference's run is the stored array. -/
theorem result_eq (m : (ℓ : Loc nD τ sig) → Buf (Elt Ideal) ℓ) (c : Dev nD) :
    Cert.ReferenceIdeal.Value.res_main_v50 (F := Ideal) m c
      = refOut (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  funext i
  obtain ⟨t, j, rfl⟩ : ∃ (t : Fin 800000) (j : Fin 64), i = ix2 t j := ⟨i 0, i 1, eq_ix2 i⟩
  exact result_apply m c t j

/-- The reference's run: it terminates with the result buffer at the stored array of the arguments' launch contents
    and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
        = refOut (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq m c), (h c).2⟩)
    (Cert.ReferenceIdeal.Value.run (F := Ideal) m ρ)

end Cert.RefSide

end
-- ==== Proof.NormLaw.lean ====
/-
  The normalisation law: over finite entries the folded arrangement  e · scale + shift  and the centred arrangement
  ((e − μ) · rsqrt (var + ε)) · γ + β  of the per-column normalisation store the same extended real.

  The argument is carried out in ℝ.  For a finite family a of N reals with mean μ = (Σ a) / N,
      Σ (a − μ)² = Σ a² − 2 μ Σ a + N μ² = Σ a² − N μ²,
  so the mean of squares less the squared mean is the mean of squared deviations; that number is a sum of squares over a
  positive count, hence non-negative, and adding a positive offset makes it positive, where the inverse square root is the
  real (√·)⁻¹.  With one real ρ for that inverse root on both sides,  a γ ρ + (β − μ γ ρ) = (a − μ) ρ γ + β  is
  distributivity.  The extended-real statement follows by writing every entry as the coercion of a real and pushing the
  coercion outwards through sums, products, differences and the division by the (nonzero, real) count.
-/
import proofs.«127521_j53730040873189_2_alg».proof.Proof.Spec

noncomputable section

open scoped BigOperators

namespace Cert.NormLaw

open Idealize.ShloMosaic Idealize.ShloMosaic.ValueIdx Cert.Spec

/-! ### The two constants -/

/-- The divisor word denotes the real 800000: exponent field 146, fraction 4411392, so
    (2^23 + 4411392) · 2^(146 − 127 − 23) = 12800000 / 16. -/
theorem edgeCount_eq : edgeCount = ((800000 : ℝ) : EReal) := by
  simp [Ideal.ofBits, Ideal.ieee, -EReal.coe_mul]; norm_num

/-- The offset word denotes a positive real (a normal number with sign bit clear). -/
theorem varEps_pos : ∃ ε : ℝ, 0 < ε ∧ varEps = (ε : EReal) := by
  refine ⟨_, ?_, by simp [Ideal.ofBits, Ideal.ieee, -EReal.coe_mul]; rfl⟩
  positivity

/-! ### The algebra over the reals, for an abstract finite index type -/

section Reals

variable {ι : Type*} [Fintype ι]

/-- The sum of squared deviations from the mean is the sum of squares less the count times the squared mean. -/
theorem sum_dev_sq (a : ι → ℝ) (N : ℝ) (hcard : (Fintype.card ι : ℝ) = N) (hN : N ≠ 0) :
    ∑ t, (a t - (∑ s, a s) * (1 / N)) * (a t - (∑ s, a s) * (1 / N))
      = (∑ t, a t * a t) - N * (((∑ s, a s) * (1 / N)) * ((∑ s, a s) * (1 / N))) := by
  set μ : ℝ := (∑ s, a s) * (1 / N) with hμ
  have hS : (∑ s, a s) = N * μ := by rw [hμ]; field_simp
  have h1 : ∀ t, (a t - μ) * (a t - μ) = a t * a t - 2 * μ * a t + μ * μ := fun t => by ring
  rw [Finset.sum_congr rfl (fun t _ => h1 t), Finset.sum_add_distrib, Finset.sum_sub_distrib, ← Finset.mul_sum,
    Finset.sum_const, Finset.card_univ, nsmul_eq_mul, hcard, hS]
  ring

/-- The two forms of the variance are one real number. -/
theorem var_forms (a : ι → ℝ) (N : ℝ) (hcard : (Fintype.card ι : ℝ) = N) (hN : N ≠ 0) :
    (∑ t, a t * a t) * (1 / N) - ((∑ s, a s) * (1 / N)) * ((∑ s, a s) * (1 / N))
      = (∑ t, (a t - (∑ s, a s) * (1 / N)) * (a t - (∑ s, a s) * (1 / N))) * (1 / N) := by
  rw [sum_dev_sq a N hcard hN]; field_simp

/-- The mean of squared deviations is non-negative. -/
theorem var_nonneg (a : ι → ℝ) (μ N : ℝ) (hN : 0 < N) : 0 ≤ (∑ t, (a t - μ) * (a t - μ)) * (1 / N) :=
  mul_nonneg (Finset.sum_nonneg fun t _ => mul_self_nonneg _) (one_div_pos.2 hN).le

/-- Distributivity: the folded and the centred arrangement of one normalised entry. -/
theorem norm_forms (a μ ρ g b : ℝ) : a * (g * ρ) + (b - μ * (g * ρ)) = ((a - μ) * ρ) * g + b := by ring

end Reals

/-! ### Coercions: sums, division by the count, the inverse root -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of a real by the edge count is the product with the real reciprocal of 800000. -/
theorem div_edgeCount (r : ℝ) : Ideal.div (r : EReal) edgeCount = ((r * (1 / 800000) : ℝ) : EReal) := by
  rw [edgeCount_eq, Ideal.div_coe (by norm_num), ← EReal.coe_mul]

/-- The inverse square root of a positive real is the real inverse of its square root. -/
theorem rsqrt_of_pos {r : ℝ} (hr : 0 < r) : Ideal.rsqrt (r : EReal) = (((Real.sqrt r)⁻¹ : ℝ) : EReal) := by
  rw [Ideal.rsqrt_coe, if_neg (not_lt.2 hr.le), if_neg hr.ne']

/-! ### The specification's quantities at coerced reals -/

section Coe

variable (a : SE.Idx → ℝ) (j : Fin 64)

theorem colSum_coe : colSum (fun i => (a i : EReal)) j = ((∑ t : Fin 800000, a (ix2 t j) : ℝ) : EReal) := by
  rw [colSum, coe_sum]

theorem colSumSq_coe :
    colSumSq (fun i => (a i : EReal)) j = ((∑ t : Fin 800000, a (ix2 t j) * a (ix2 t j) : ℝ) : EReal) := by
  rw [colSumSq]; simp only [← EReal.coe_mul]; rw [coe_sum]

theorem colMean_coe :
    colMean (fun i => (a i : EReal)) j = (((∑ t : Fin 800000, a (ix2 t j)) * (1 / 800000) : ℝ) : EReal) := by
  rw [colMean, colSum_coe, div_edgeCount]

theorem colSumDev_coe :
    colSumDev (fun i => (a i : EReal)) j
      = ((∑ t : Fin 800000, (a (ix2 t j) - (∑ s : Fin 800000, a (ix2 s j)) * (1 / 800000))
            * (a (ix2 t j) - (∑ s : Fin 800000, a (ix2 s j)) * (1 / 800000)) : ℝ) : EReal) := by
  rw [colSumDev, colMean_coe]; simp only [← EReal.coe_sub, ← EReal.coe_mul]; rw [coe_sum]

theorem varCentred_coe :
    varCentred (fun i => (a i : EReal)) j
      = (((∑ t : Fin 800000, (a (ix2 t j) - (∑ s : Fin 800000, a (ix2 s j)) * (1 / 800000))
            * (a (ix2 t j) - (∑ s : Fin 800000, a (ix2 s j)) * (1 / 800000))) * (1 / 800000) : ℝ) : EReal) := by
  rw [varCentred, colSumDev_coe, div_edgeCount]

/-- The count of the edge axis, as a real. -/
theorem card_edges : (Fintype.card (Fin 800000) : ℝ) = 800000 := by
  rw [Fintype.card_fin]; norm_num

theorem varFolded_coe :
    varFolded (fun i => (a i : EReal)) j
      = (((∑ t : Fin 800000, (a (ix2 t j) - (∑ s : Fin 800000, a (ix2 s j)) * (1 / 800000))
            * (a (ix2 t j) - (∑ s : Fin 800000, a (ix2 s j)) * (1 / 800000))) * (1 / 800000) : ℝ) : EReal) := by
  rw [varFolded, colSumSq_coe, colMean_coe, div_edgeCount, ← EReal.coe_mul, ← EReal.coe_sub,
    var_forms (fun t : Fin 800000 => a (ix2 t j)) 800000 card_edges (by norm_num)]

end Coe

/-! ### The law -/

theorem norm_eq (e : SE.Idx → EReal) (γ β : SV.Idx → EReal)
    (he : ∀ i, ∃ r : ℝ, e i = (r : EReal)) (hγ : ∀ i, ∃ r : ℝ, γ i = (r : EReal)) (hβ : ∀ i, ∃ r : ℝ, β i = (r : EReal))
    (t : Fin 800000) (j : Fin 64) : normFolded e γ β t j = normCentred e γ β t j := by
  choose a ha using he
  choose g hg using hγ
  choose b hb using hβ
  obtain rfl : e = fun i => (a i : EReal) := funext ha
  obtain ⟨ε, hε, hεeq⟩ := varEps_pos
  set μ : ℝ := (∑ s : Fin 800000, a (ix2 s j)) * (1 / 800000) with hμ
  set v : ℝ := (∑ t : Fin 800000, (a (ix2 t j) - μ) * (a (ix2 t j) - μ)) * (1 / 800000) with hv
  have hpos : 0 < v + ε := add_pos_of_nonneg_of_pos (var_nonneg _ μ 800000 (by norm_num)) hε
  rw [normFolded, normCentred, shiftFolded, scaleFolded, varFolded_coe, varCentred_coe, colMean_coe, hg, hb, hεeq,
    ← hμ, ← hv, ← EReal.coe_add, rsqrt_of_pos hpos]
  simp only [← EReal.coe_mul, ← EReal.coe_sub, ← EReal.coe_add]
  rw [norm_forms]

/-! ### Node features of finite inputs are finite -/

/-- The positive part of a real, taken in the extended reals, is the coerced positive part. -/
theorem max_coe_zero (r : ℝ) : max (r : EReal) 0 = ((max r 0 : ℝ) : EReal) := by
  rw [← EReal.coe_zero]; exact (EReal.coe_strictMono.monotone.map_max).symm

/-- A node feature is a finite sum of products of reals plus a real, cut off at zero: a real. -/
theorem nodeFeat_real (x : SX.Idx → EReal) (W : SW.Idx → EReal) (b : SV.Idx → EReal)
    (hx : ∀ i, ∃ r : ℝ, x i = (r : EReal)) (hW : ∀ i, ∃ r : ℝ, W i = (r : EReal)) (hb : ∀ i, ∃ r : ℝ, b i = (r : EReal))
    (n : Fin 50000) (j : Fin 64) : ∃ r : ℝ, nodeFeat x W b n j = (r : EReal) := by
  choose x' hx' using hx
  choose W' hW' using hW
  choose b' hb' using hb
  refine ⟨max ((∑ k : Fin 256, x' (ix2 n k) * W' (ix2 k j)) + b' (ix1 j)) 0, ?_⟩
  rw [nodeFeat, hb']
  simp only [hx', hW', ← EReal.coe_mul]
  rw [coe_sum, ← EReal.coe_add, max_coe_zero]

/-! ### Reals are closed under the edge average -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The word 0x3F000000 (exponent field 126, fraction 0) denotes the real one half. -/
theorem half_eq : Ideal.ofBits .f32 0x3F000000#32 = (((1 : ℝ) / 2 : ℝ) : EReal) := by
  simp [Ideal.ofBits, Ideal.ieee, -EReal.coe_mul]; norm_num

/-- The average of two reals, formed as the sum times the half word, is a real. -/
theorem edgeAvg_real {x y : EReal} (hx : ∃ r : ℝ, x = (r : EReal)) (hy : ∃ r : ℝ, y = (r : EReal)) :
    ∃ r : ℝ, (x + y) * Ideal.ofBits .f32 0x3F000000#32 = (r : EReal) :=
  real_mul (real_add hx hy) ⟨_, half_eq⟩

end Cert.NormLaw

end
-- ==== Proof.Glue.lean ====
/-
  Two closing steps of the kernel's side.

  An array that agrees entry by entry with the node features of the specification is the reference's node stage. An
  array whose entries are the folded normalisation of the edge features is the array the reference stores: over real
  inputs the node features are real, so are the edge features (each is half the sum of two node features), and on real
  entries the folded and the centred normalisation are one number.
-/
import proofs.«127521_j53730040873189_2_alg».proof.Proof.RefSide
import proofs.«127521_j53730040873189_2_alg».proof.Proof.NormLaw

noncomputable section

namespace Cert.Glue

open Cert.ReferenceIdeal Idealize.ShloMosaic Idealize.ShloMosaic.ValueIdx

/-- An array equal, entry by entry, to the specification's node features is the reference's node stage. -/
theorem nodes_eq (x : FVec Ideal S50000x256 .f32) (W : FVec Ideal S256x64 .f32) (b : FVec Ideal S64 .f32)
    (hK : FVec Ideal S50000x64 .f32)
    (h : ∀ (n : Fin 50000) (j : Fin 64), hK (ix2 n j) = Cert.Spec.nodeFeat x W b n j) :
    hK = Cert.RefSide.nodeStage x W b := by
  funext i
  obtain ⟨n, j, rfl⟩ : ∃ (n : Fin 50000) (j : Fin 64), i = ix2 n j := ⟨i 0, i 1, eq_ix2 i⟩
  rw [h n j, Cert.RefSide.nodeStage_apply]

/-- Over real inputs every entry of the reference's node stage is a real. -/
theorem nodeStage_real (x : FVec Ideal S50000x256 .f32) (W : FVec Ideal S256x64 .f32) (b : FVec Ideal S64 .f32)
    (hx : ∀ i, ∃ r : ℝ, x i = (r : EReal)) (hW : ∀ i, ∃ r : ℝ, W i = (r : EReal))
    (hb : ∀ i, ∃ r : ℝ, b i = (r : EReal)) : ∀ i, ∃ r : ℝ, Cert.RefSide.nodeStage x W b i = (r : EReal) := by
  intro i
  obtain ⟨n, j, rfl⟩ : ∃ (n : Fin 50000) (j : Fin 64), i = ix2 n j := ⟨i 0, i 1, eq_ix2 i⟩
  rw [Cert.RefSide.nodeStage_apply]
  exact Cert.NormLaw.nodeFeat_real x W b hx hW hb n j

/-- Over real inputs every entry of the edge features is a real. -/
theorem edge_real (x : FVec Ideal S50000x256 .f32) (ei : IVec S2x800000 32) (W : FVec Ideal S256x64 .f32)
    (b : FVec Ideal S64 .f32) (hx : ∀ i, ∃ r : ℝ, x i = (r : EReal)) (hW : ∀ i, ∃ r : ℝ, W i = (r : EReal))
    (hb : ∀ i, ∃ r : ℝ, b i = (r : EReal)) :
    ∀ i, ∃ r : ℝ, Cert.RefSide.edgeTerm (Cert.RefSide.nodeStage x W b) ei i = (r : EReal) :=
  Cert.RefSide.edgeTerm_real _ ei (nodeStage_real x W b hx hW hb)

/-- An array whose entries are the folded normalisation of the edge features is, over real inputs, the array the
    reference stores. -/
theorem out_eq (x : FVec Ideal S50000x256 .f32) (ei : IVec S2x800000 32) (W : FVec Ideal S256x64 .f32)
    (b γ β : FVec Ideal S64 .f32)
    (hx : ∀ i, ∃ r : ℝ, x i = (r : EReal)) (hW : ∀ i, ∃ r : ℝ, W i = (r : EReal))
    (hb : ∀ i, ∃ r : ℝ, b i = (r : EReal)) (hγ : ∀ i, ∃ r : ℝ, γ i = (r : EReal))
    (hβ : ∀ i, ∃ r : ℝ, β i = (r : EReal)) (out : FVec Ideal S800000x64 .f32)
    (h : ∀ (t : Fin 800000) (j : Fin 64), out (ix2 t j)
      = Cert.Spec.normFolded (Cert.RefSide.edgeTerm (Cert.RefSide.nodeStage x W b) ei) γ β t j) :
    out = Cert.RefSide.refOut x ei W b γ β := by
  funext i
  obtain ⟨t, j, rfl⟩ : ∃ (t : Fin 800000) (j : Fin 64), i = ix2 t j := ⟨i 0, i 1, eq_ix2 i⟩
  rw [h t j, Cert.RefSide.refOut_apply]
  exact Cert.NormLaw.norm_eq _ γ β (edge_real x ei W b hx hW hb) hγ hβ t j

end Cert.Glue

end
-- ==== Proof.KI.Bridge.lean ====
/-
  The kernel program's result over the extended reals, read through its run.

  Following the buffer contents from item to item: region 0 leaves the node features (each output block is the positive
  part of the block's rows against W plus the bias row, and the blocks tile the array); the host averages the end nodes'
  features into the edge features e — the same operations the reference applies, so the two terms are one; region 1 leaves
  the column sums of e and of e² (an accumulator over the 40 blocks is the sum over all 800000 rows); the host forms
  mean, variance, scale and shift from them; region 2 stores e · scale + shift block by block. So the result array is
  the folded normalisation of e, which over real inputs is the centred normalisation the reference computes.
-/
import proofs.«127521_j53730040873189_2_alg».proof.Proof.KI.Run
import proofs.«127521_j53730040873189_2_alg».proof.Proof.KI.Blocks0
import proofs.«127521_j53730040873189_2_alg».proof.Proof.KI.Blocks1
import proofs.«127521_j53730040873189_2_alg».proof.Proof.KI.Blocks2
import proofs.«127521_j53730040873189_2_alg».proof.Proof.KI.HostVals
import proofs.«127521_j53730040873189_2_alg».proof.Proof.Glue

set_option maxRecDepth 16384

noncomputable section

namespace Cert.KernelIdeal.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Run
open scoped BigOperators

variable (m : (ℓ : Loc nD τ sig) → Buf (Elt Ideal) ℓ)

/-! ## The argument arrays, as arrays of extended reals -/

abbrev xOf (c : Dev nD) : FVec Ideal S50000x256 .f32 := m ((c.tc : Thread nD τ).loc main_arg0)
abbrev eiOf (c : Dev nD) : IVec S2x800000 32 := m ((c.tc : Thread nD τ).loc main_arg1)
abbrev wOf (c : Dev nD) : FVec Ideal S256x64 .f32 := m ((c.tc : Thread nD τ).loc main_arg3)
abbrev bOf (c : Dev nD) : FVec Ideal S64 .f32 := m ((c.tc : Thread nD τ).loc main_arg4)
abbrev gOf (c : Dev nD) : FVec Ideal S64 .f32 := m ((c.tc : Thread nD τ).loc main_arg5)
abbrev btOf (c : Dev nD) : FVec Ideal S64 .f32 := m ((c.tc : Thread nD τ).loc main_arg6)
/-- The edge features: the average of the two end nodes' features, as both programs' host text computes it. -/
abbrev eOf (c : Dev nD) : FVec Ideal S800000x64 .f32 :=
  Cert.RefSide.edgeTerm (Cert.RefSide.nodeStage (xOf m c) (wOf m c) (bOf m c)) (eiOf m c)

/-! ## Region 0: the node features -/

theorem W1_x (c : Dev nD) : W1 m c (Proc.devRef .tc main_arg0) = xOf m c := HostVals.keep0 (W0 m c) main_arg0 (by decide)
theorem W1_w (c : Dev nD) : W1 m c (Proc.devRef .tc main_arg3) = wOf m c := HostVals.keep0 (W0 m c) main_arg3 (by decide)

/-- After region 0 the node-feature array holds, at node `n` and feature `j`, the positive part of the affine map. -/
theorem W2_nodes (c : Dev nD) :
    (W2 m c (Proc.devRef .tc main_v1) : FVec Ideal S50000x64 .f32) = Cert.RefSide.nodeStage (xOf m c) (wOf m c) (bOf m c) := by
  refine Cert.Glue.nodes_eq _ _ _ _ fun n j => ?_
  have h := Blocks0.nodes_final (V1 m) c n j
  have e3 : W2 m c (Proc.devRef .tc main_v1) = Blocks0.hAt (V1 m) c := W2_arr m c 3
  rw [e3, h]
  unfold Cert.Spec.nodeFeat
  have ex : Blocks0.xAt (V1 m) c = xOf m c := W1_x m c
  have ew : Blocks0.wAt (V1 m) c = wOf m c := W1_w m c
  have eb : Blocks0.bAt (V1 m) c (ix2 0 j) = bOf m c (ix1 j) := HostVals.bias_row (W0 m c) j
  rw [ex, ew, eb]

theorem W2_ei (c : Dev nD) : W2 m c (Proc.devRef .tc main_arg1) = eiOf m c :=
  (W2_of_ne m c main_arg1 (by decide)).trans (HostVals.keep0 (W0 m c) main_arg1 (by decide))

/-! ## The host stretch between regions 0 and 1: the edge features -/

theorem W3_edges (c : Dev nD) : (W3 m c (Proc.devRef .tc main_v22) : FVec Ideal S800000x64 .f32) = eOf m c := by
  have h := HostVals.edges_eq (W2 m c)
  rw [W2_nodes m c, W2_ei m c] at h
  exact h

/-! ## Region 1: the column sums -/

theorem W4_edges (c : Dev nD) : (W4 m c (Proc.devRef .tc main_v22) : FVec Ideal S800000x64 .f32) = eOf m c :=
  (W4_arr m c 0).trans ((((Reg1.dat (V3 m) c).arrAt_in 0 rfl _).trans (Reg1.A_eq (V3 m) c 0)).trans (W3_edges m c))

/-- After region 1 the first output row holds, at column `j`, the sum of that column of the edge features over all edges:
    the accumulator starts at zero, each grid point adds its block's column sums, and the last point writes it back. -/
theorem W4_sum (c : Dev nD) (j : Fin 64) :
    HostVals.sumRow (W4 m c) (ix2 0 j) = Cert.Spec.colSum (eOf m c) j := by
  have e1 : HostVals.sumRow (W4 m c) = ((Reg1.dat (V3 m) c).arrAt 1 cfg1.N : Vec Ideal S1x64 .f32) := W4_arr m c 1
  have ee : Blocks1.edges (V3 m) c = eOf m c := W3_edges m c
  rw [e1, Blocks1.arrAt_sum_apply (V3 m) c j, ee]
/-- Likewise the second output row holds the column sums of the squares. -/
theorem W4_sq (c : Dev nD) (j : Fin 64) :
    HostVals.sqRow (W4 m c) (ix2 0 j) = Cert.Spec.colSumSq (eOf m c) j := by
  have e1 : HostVals.sqRow (W4 m c) = ((Reg1.dat (V3 m) c).arrAt 2 cfg1.N : Vec Ideal S1x64 .f32) := W4_arr m c 2
  have ee : Blocks1.edges (V3 m) c = eOf m c := W3_edges m c
  rw [e1, Blocks1.arrAt_sq_apply (V3 m) c j, ee]

theorem W4_gamma (c : Dev nD) : HostVals.gammaVec (W4 m c) = gOf m c :=
  (W4_of_ne m c main_arg5 (by decide)).trans ((HostVals.keep1 (W2 m c) main_arg5 (by decide)).trans
    ((W2_of_ne m c main_arg5 (by decide)).trans (HostVals.keep0 (W0 m c) main_arg5 (by decide))))
theorem W4_beta (c : Dev nD) : HostVals.betaVec (W4 m c) = btOf m c :=
  (W4_of_ne m c main_arg6 (by decide)).trans ((HostVals.keep1 (W2 m c) main_arg6 (by decide)).trans
    ((W2_of_ne m c main_arg6 (by decide)).trans (HostVals.keep0 (W0 m c) main_arg6 (by decide))))

/-! ## The host stretch between regions 1 and 2: scale and shift -/

theorem W5_edges (c : Dev nD) : (W5 m c (Proc.devRef .tc main_v22) : FVec Ideal S800000x64 .f32) = eOf m c :=
  (HostVals.keep2_v22 (W4 m c)).trans (W4_edges m c)
theorem W5_scale (c : Dev nD) (j : Fin 64) :
    (W5 m c (Proc.devRef .tc main_v41) : S1x64.Idx → EReal) (ix2 0 j) = Cert.Spec.scaleFolded (eOf m c) (gOf m c) j := by
  have h := HostVals.scale_row_spec (W4 m c) (eOf m c) j (W4_sum m c j) (W4_sq m c j)
  rw [W4_gamma m c] at h
  exact h
theorem W5_shift (c : Dev nD) (j : Fin 64) :
    (W5 m c (Proc.devRef .tc main_v42) : S1x64.Idx → EReal) (ix2 0 j) = Cert.Spec.shiftFolded (eOf m c) (gOf m c) (btOf m c) j := by
  have h := HostVals.shift_row_spec (W4 m c) (eOf m c) j (W4_sum m c j) (W4_sq m c j)
  rw [W4_gamma m c, W4_beta m c] at h
  exact h

/-! ## Region 2: the normalised entries -/

theorem W6_out (c : Dev nD) (t : Fin 800000) (j : Fin 64) :
    (W6 m c (Proc.devRef .tc main_v43) : FVec Ideal S800000x64 .f32) (ix2 t j)
      = Cert.Spec.normFolded (eOf m c) (gOf m c) (btOf m c) t j := by
  have e3 : W6 m c (Proc.devRef .tc main_v43) = Reg2.normArray (V5 m c main_v22) (V5 m c main_v41) (V5 m c main_v42) :=
    (W6_arr m c 3).trans (Reg2.arrAt_out (V5 m) c)
  rw [e3, Reg2.normArray_apply]
  unfold Cert.Spec.normFolded
  have ee : (V5 m c main_v22 : S800000x64.Idx → EReal) = eOf m c := W5_edges m c
  have es : (V5 m c main_v41 : S1x64.Idx → EReal) (ix2 0 j) = Cert.Spec.scaleFolded (eOf m c) (gOf m c) j := W5_scale m c j
  have et : (V5 m c main_v42 : S1x64.Idx → EReal) (ix2 0 j) = Cert.Spec.shiftFolded (eOf m c) (gOf m c) (btOf m c) j := W5_shift m c j
  rw [ee, es, et]

/-- Over real inputs the kernel program's result array is the centred normalisation of the edge features: the array the
    reference computes. -/
theorem result_eq (c : Dev nD) (hx : ∀ i, ∃ r : ℝ, xOf m c i = (r : EReal)) (hw : ∀ i, ∃ r : ℝ, wOf m c i = (r : EReal))
    (hb : ∀ i, ∃ r : ℝ, bOf m c i = (r : EReal)) (hg : ∀ i, ∃ r : ℝ, gOf m c i = (r : EReal)) (hbt : ∀ i, ∃ r : ℝ, btOf m c i = (r : EReal)) :
    (W6 m c (Proc.devRef .tc main_v43) : FVec Ideal S800000x64 .f32)
      = Cert.RefSide.refOut (xOf m c) (eiOf m c) (wOf m c) (bOf m c) (gOf m c) (btOf m c) :=
  Cert.Glue.out_eq _ _ _ _ _ _ hx hw hb hg hbt _ fun t j => W6_out m c t j

variable (ρ : Dev nD → PrngReg)

/-- The kernel program's run over real inputs: it terminates, nothing faulting, with the result array at the reference's
    function of the arguments and the arguments as launched. -/
theorem run_out
    (hx : ∀ c : Dev nD, ∀ i, ∃ r : ℝ, m ((c.tc : Thread nD τ).loc main_arg0) i = (r : EReal))
    (hw : ∀ c : Dev nD, ∀ i, ∃ r : ℝ, m ((c.tc : Thread nD τ).loc main_arg3) i = (r : EReal))
    (hb : ∀ c : Dev nD, ∀ i, ∃ r : ℝ, m ((c.tc : Thread nD τ).loc main_arg4) i = (r : EReal))
    (hg : ∀ c : Dev nD, ∀ i, ∃ r : ℝ, m ((c.tc : Thread nD τ).loc main_arg5) i = (r : EReal))
    (hbt : ∀ c : Dev nD, ∀ i, ∃ r : ℝ, m ((c.tc : Thread nD τ).loc main_arg6) i = (r : EReal)) :
    θ_run (defs (F := Ideal)) (onTc (τ := τ) (main (F := Ideal))) ⟨m, fun _ => 0, ρ⟩ (fun r => ∀ c : Dev nD,
      r.2.mem ((c.tc : Thread nD τ).loc main_v43) = Cert.RefSide.refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v43 (by decide))).trans (result_eq m c (hx c) (hw c) (hb c) (hg c) (hbt c)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run m ρ)

end Cert.KernelIdeal.Bridge

end
-- ==== Proof.FiniteInputs.lean ====
/-
  Finite inputs.  The precondition compares, entry by entry, the absolute value of each floating-point argument with +∞
  (strictly less), takes the conjunction over every entry of each argument, and the conjunction of the five results.
  If the outcome is true, every comparison was true; an extended real whose absolute value max x (−x) lies strictly below
  ⊤ is neither ⊤ (whose absolute value is ⊤) nor ⊥ (whose negation is ⊤), hence is a real number.
-/
import proofs.«127521_j53730040873189_2_alg».proof.Pre_finite_inputs
import proofs.«127521_j53730040873189_2_alg».proof.Proof.Gen.Pre_finite_inputs
import Idealize.ShloMosaic.Lib.ReduceAll
import Idealize.ShloMosaic.PureOps.Ideal
import Idealize.ShloMosaic.Lib.ValueIdx

noncomputable section

namespace Cert.FiniteInputs

open Idealize.ShloMosaic Cert.Pre_finite_inputs

/-- The rank-0 shape has exactly one index. -/
instance subsingleton_rank0 : Subsingleton S_.Idx := ⟨fun a b => funext fun d => d.elim0⟩

/-- The word 0x7F800000 (exponent all ones, fraction zero, sign clear) denotes +∞. -/
theorem ofBits_inf : Ideal.ofBits .f32 0x7F800000#32 = (⊤ : EReal) := by
  simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One argument: if the conjunction over all entries of |a| < +∞ is true, every entry of a is a real. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf a) (broadcastInDim s ![] hb (constant S_ .f32 0x7F800000#32)))
          (constantI S_ 1 1#1) hr hu j = 1#1) (i : s.Idx) : ∃ r : ℝ, a i = (r : EReal) :=
  real_of_abs_lt (a i) (Host.reduce_andi_all _ _ hr hu j h i)

/-- Every entry of each of the five floating-point arguments is a real when the precondition evaluates to true. -/
theorem finite_inputs [Facts] (a0 : FVec Ideal S50000x256 .f32) (a1 : IVec S2x800000 32) (a2 : IVec S50000 32)
    (a3 : FVec Ideal S256x64 .f32) (a4 a5 a6 : FVec Ideal S64 .f32)
    (h : fn (F := Ideal) a0 a1 a2 a3 a4 a5 a6 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h0 := congrFun h ValueIdx.ix0
  dsimp only [fn, fn_part1, andi] at h0
  obtain ⟨h1, h6⟩ := IntOp.andi_eq_one.1 h0
  obtain ⟨h2, h5⟩ := IntOp.andi_eq_one.1 h1
  obtain ⟨h3, h4⟩ := IntOp.andi_eq_one.1 h2
  obtain ⟨h30, h33⟩ := IntOp.andi_eq_one.1 h3
  exact ⟨all_real a0 _ _ _ _ h30, all_real a3 _ _ _ _ h33, all_real a4 _ _ _ _ h4, all_real a5 _ _ _ _ h5,
    all_real a6 _ _ _ _ h6⟩

end Cert.FiniteInputs

end
-- ==== Proof.lean ====
/-
  Equivalence of the edge-initialisation kernel and its reference over the extended reals.

  Both programs compute node features h = max (x · W + b) 0, average the two end nodes' features of every edge into an
  800000 x 64 array e (the same host operations in both, never opened), and normalise every feature column of e over the
  edge axis. The kernel program sums e and e² blockwise into two accumulators, forms the variance as the mean of squares
  less the squared mean, folds scale = γ · rsqrt (var + ε) and shift = β − mean · scale on the host, and stores
  e · scale + shift; the reference forms the variance as the mean of squared deviations and computes
  ((e − mean) · rsqrt (var + ε)) · γ + β. Over finite inputs every entry of h and of e is a real number, the two
  variances are one non-negative real, var + ε is positive, and the two stored values agree by distributivity
  (the normalisation law, proved over ℝ); a sum taken block by block is the sum over all rows because addition of
  extended reals is associative and commutative.

  The three frames: each kernel program's run is three kernel regions between stretches of host operations; every
  argument array is no item's output, so it ends as launched. The reference's frame is its run with the result dropped.
  The idealisation rewrote nothing, so there is nothing to preserve.
-/
import proofs.«127521_j53730040873189_2_alg».proof.Defs
import proofs.«127521_j53730040873189_2_alg».proof.Proof.Gen.Kernel
import proofs.«127521_j53730040873189_2_alg».proof.Proof.Gen.KernelIdeal
import proofs.«127521_j53730040873189_2_alg».proof.Proof.Gen.ReferenceIdeal
import proofs.«127521_j53730040873189_2_alg».proof.Proof.Gen.Pre_finite_inputs
import proofs.«127521_j53730040873189_2_alg».proof.Proof.K.Run
import proofs.«127521_j53730040873189_2_alg».proof.Proof.KI.Run
import proofs.«127521_j53730040873189_2_alg».proof.Proof.KI.Bridge
import proofs.«127521_j53730040873189_2_alg».proof.Proof.RefSide
import proofs.«127521_j53730040873189_2_alg».proof.Proof.FiniteInputs
import Idealize.ShloMosaic.Adequacy
import Idealize.ShloMosaic.Init

noncomputable section

namespace Cert.Proof

open Idealize.ShloMosaic Idealize.SL.Sem Idealize.ShloMosaic.TcCoe

theorem frame_p : Cert.frame_Kernel := fun m ρ _ => Cert.Kernel.Run.frame (F := Bits) m ρ

theorem frame_pi : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.RefSide.run_spec m ρ)

theorem preserves : Cert.preserves_Kernel_KernelIdeal := trivial

/-- Both programs, from memories agreeing on the arguments, end with the same array: the kernel's by its run theorem
    over real inputs (the precondition makes every float input real), the reference's by its run read back as the
    specification, at arguments that agree. -/
theorem algebraic : Cert.algebraic_KernelIdeal_ReferenceIdeal := by
  intro m ρ m' ρ' hpre hagree
  have hfin := fun c => Cert.FiniteInputs.finite_inputs _ _ _ _ _ _ _ (hpre c)
  refine ⟨fun c => Cert.RefSide.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Bridge.run_out m ρ (fun c => (hfin c).1) (fun c => (hfin c).2.1) (fun c => (hfin c).2.2.1)
      (fun c => (hfin c).2.2.2.1) (fun c => (hfin c).2.2.2.2), ?_⟩
  refine (θ_run Cert.ReferenceIdeal.defs _ _).mono (fun _ h c => ⟨(h c).1.trans ?_, (h c).2⟩)
    (Cert.RefSide.run_spec m' ρ')
  rw [(hagree c).1, (hagree c).2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
